-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x32768 : Shape := ⟨3, ![8, 3, 32768]⟩
abbrev S2x4194304 : Shape := ⟨2, ![2, 4194304]⟩
abbrev S4194304 : Shape := ⟨1, ![4194304]⟩
abbrev S4x3x128 : Shape := ⟨3, ![4, 3, 128]⟩
abbrev S128 : Shape := ⟨1, ![128]⟩
abbrev S_ : Shape := ⟨0, ![]⟩

class Facts : Prop where
  bcast_S_S8x3x32768 : S_.BroadcastsInDim S8x3x32768 (![] : Fin 0 → Fin S8x3x32768.rank)
  reducesTo_S8x3x32768_S_d0_1_2 : S8x3x32768.ReducesTo [0, 1, 2] S_
  h_S_ : 0 < S_.numel
  bcast_S_S4194304 : S_.BroadcastsInDim S4194304 (![] : Fin 0 → Fin S4194304.rank)
  reducesTo_S4194304_S_d0 : S4194304.ReducesTo [0] S_
  bcast_S_S4x3x128 : S_.BroadcastsInDim S4x3x128 (![] : Fin 0 → Fin S4x3x128.rank)
  reducesTo_S4x3x128_S_d0_1_2 : S4x3x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x3x32768 .f32) (main_arg1 : IVec S2x4194304 32) (main_arg2 : FVec F S4194304 .f32) (main_arg3 : FVec F S4x3x128 .f32) (main_arg4 : FVec F S128 .f32) (main_arg5 : FVec F S128 .f32) (main_arg6 : FVec F S128 .f32) : IVec S_ 1 :=
  let main_v0 : FVec F S8x3x32768 .f32 := Host.absf main_arg0
  let main_cst : FVec F S_ .f32 := constant S_ .f32 0x7F800000#32
  let main_v1 : FVec F S8x3x32768 .f32 := broadcastInDim S8x3x32768 ![] bcast_S_S8x3x32768 main_cst
  let main_v2 : IVec S8x3x32768 1 := cmpf .olt main_v0 main_v1
  let main_c : IVec S_ 1 := constantI S_ 1 1#1
  let main_v3 : IVec S_ 1 := (fun x v => Host.reduce IntOp.andi x v reducesTo_S8x3x32768_S_d0_1_2 h_S_) main_v2 main_c
  let main_v4 : FVec F S4194304 .f32 := Host.absf main_arg2
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S4x3x128 .f32 := Host.absf main_arg3
  let main_cst_2 : FVec F S_ .f32 := constant S_ .f32 0x7F800000#32
  let main_v10 : FVec F S4x3x128 .f32 := broadcastInDim S4x3x128 ![] bcast_S_S4x3x128 main_cst_2
  let main_v11 : IVec S4x3x128 1 := cmpf .olt main_v9 main_v10
  let main_c_3 : IVec S_ 1 := constantI S_ 1 1#1
  let main_v12 : IVec S_ 1 := (fun x v => Host.reduce IntOp.andi x v reducesTo_S4x3x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S8x3x32768 : Shape := ⟨3, ![8, 3, 32768]⟩
abbrev S2x4194304 : Shape := ⟨2, ![2, 4194304]⟩
abbrev S4194304 : Shape := ⟨1, ![4194304]⟩
abbrev S4x3x128 : Shape := ⟨3, ![4, 3, 128]⟩
abbrev S128 : Shape := ⟨1, ![128]⟩
abbrev S8x32768x3 : Shape := ⟨3, ![8, 32768, 3]⟩
abbrev S262144x3 : Shape := ⟨2, ![262144, 3]⟩
abbrev S1x4194304 : Shape := ⟨2, ![1, 4194304]⟩
abbrev S_ : Shape := ⟨0, ![]⟩
abbrev S262144 : Shape := ⟨1, ![262144]⟩
abbrev S4194304x1 : Shape := ⟨2, ![4194304, 1]⟩
abbrev S4194304x3 : Shape := ⟨2, ![4194304, 3]⟩
abbrev S3x262144 : Shape := ⟨2, ![3, 262144]⟩
abbrev S12x262144 : Shape := ⟨2, ![12, 262144]⟩
abbrev S12x128 : Shape := ⟨2, ![12, 128]⟩
abbrev S1x128 : Shape := ⟨2, ![1, 128]⟩
abbrev S262144x128 : Shape := ⟨2, ![262144, 128]⟩
abbrev S12x8192 : Shape := ⟨2, ![12, 8192]⟩
abbrev S8192x128 : Shape := ⟨2, ![8192, 128]⟩
abbrev S8x32768x128 : Shape := ⟨3, ![8, 32768, 128]⟩
abbrev S8x128x32768 : Shape := ⟨3, ![8, 128, 32768]⟩

abbrev nBuf : Space → Nat
  | .hbm => 137
  | .vmem => 16
  | .smem => 0
  | _ => 0

abbrev hbmTy0_0 (i : Nat) : BufTy := match i % 128 with
  | 0 => ⟨S8x3x32768, .f32⟩
  | 1 => ⟨S2x4194304, .i32⟩
  | 2 => ⟨S4194304, .f32⟩
  | 3 => ⟨S4x3x128, .f32⟩
  | 4 => ⟨S128, .f32⟩
  | 5 => ⟨S128, .f32⟩
  | 6 => ⟨S128, .f32⟩
  | 7 => ⟨S8x32768x3, .f32⟩
  | 8 => ⟨S262144x3, .f32⟩
  | 9 => ⟨S1x4194304, .i32⟩
  | 10 => ⟨S4194304, .i32⟩
  | 11 => ⟨S1x4194304, .i32⟩
  | 12 => ⟨S4194304, .i32⟩
  | 13 => ⟨S4194304, .i1⟩
  | 14 => ⟨S_, .f32⟩
  | 15 => ⟨S_, .f32⟩
  | 16 => ⟨S4194304, .f32⟩
  | 17 => ⟨S4194304, .f32⟩
  | 18 => ⟨S_, .f32⟩
  | 19 => ⟨S262144, .f32⟩
  | 20 => ⟨S4194304x1, .i32⟩
  | 21 => ⟨S262144, .f32⟩
  | 22 => ⟨S_, .f32⟩
  | 23 => ⟨S262144, .f32⟩
  | 24 => ⟨S262144, .i1⟩
  | 25 => ⟨S_, .f32⟩
  | 26 => ⟨S262144, .f32⟩
  | 27 => ⟨S262144, .f32⟩
  | 28 => ⟨S262144, .f32⟩
  | 29 => ⟨S_, .f32⟩
  | 30 => ⟨S_, .f32⟩
  | 31 => ⟨S262144, .f32⟩
  | 32 => ⟨S262144, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304, .f32⟩
  | 42 => ⟨S4194304, .f32⟩
  | 43 => ⟨S4194304, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304, .f32⟩
  | 53 => ⟨S4194304, .f32⟩
  | 54 => ⟨S4194304x1, .f32⟩
  | 55 => ⟨S_, .i32⟩
  | 56 => ⟨S4194304, .i32⟩
  | 57 => ⟨S4194304, .i1⟩
  | 58 => ⟨S_, .i32⟩
  | 59 => ⟨S4194304, .i32⟩
  | 60 => ⟨S4194304, .i32⟩
  | 61 => ⟨S4194304, .i32⟩
  | 62 => ⟨S4194304x1, .i32⟩
  | 63 => ⟨S4194304x3, .f32⟩
  | 64 => ⟨S4194304x3, .f32⟩
  | 65 => ⟨S4194304x3, .f32⟩
  | 66 => ⟨S_, .f32⟩
  | 67 => ⟨S262144x3, .f32⟩
  | 68 => ⟨S4194304x1, .i32⟩
  | 69 => ⟨S262144x3, .f32⟩
  | 70 => ⟨S4194304x1, .f32⟩
  | 71 => ⟨S_, .i32⟩
  | 72 => ⟨S4194304, .i32⟩
  | 73 => ⟨S4194304, .i1⟩
  | 74 => ⟨S_, .i32⟩
  | 75 => ⟨S4194304, .i32⟩
  | 76 => ⟨S4194304, .i32⟩
  | 77 => ⟨S4194304, .i32⟩
  | 78 => ⟨S4194304x1, .i32⟩
  | 79 => ⟨S4194304x3, .f32⟩
  | 80 => ⟨S4194304x3, .f32⟩
  | 81 => ⟨S4194304x3, .f32⟩
  | 82 => ⟨S_, .f32⟩
  | 83 => ⟨S262144x3, .f32⟩
  | 84 => ⟨S4194304x1, .i32⟩
  | 85 => ⟨S262144x3, .f32⟩
  | 86 => ⟨S_, .f32⟩
  | 87 => ⟨S262144x3, .f32⟩
  | 88 => ⟨S262144x3, .f32⟩
  | 89 => ⟨S262144x3, .f32⟩
  | 90 => ⟨S4194304x1, .f32⟩
  | 91 => ⟨S_, .i32⟩
  | 92 => ⟨S4194304, .i32⟩
  | 93 => ⟨S4194304, .i1⟩
  | 94 => ⟨S_, .i32⟩
  | 95 => ⟨S4194304, .i32⟩
  | 96 => ⟨S4194304, .i32⟩
  | 97 => ⟨S4194304, .i32⟩
  | 98 => ⟨S4194304x1, .i32⟩
  | 99 => ⟨S4194304x3, .f32⟩
  | 100 => ⟨S4194304x3, .f32⟩
  | 101 => ⟨S4194304x3, .f32⟩
  | 102 => ⟨S_, .f32⟩
  | 103 => ⟨S262144x3, .f32⟩
  | 104 => ⟨S4194304x1, .i32⟩
  | 105 => ⟨S262144x3, .f32⟩
  | 106 => ⟨S_, .f32⟩
  | 107 => ⟨S262144x3, .f32⟩
  | 108 => ⟨S262144x3, .f32⟩
  | 109 => ⟨S262144x3, .f32⟩
  | 110 => ⟨S3x262144, .f32⟩
  | 111 => ⟨S3x262144, .f32⟩
  | 112 => ⟨S3x262144, .f32⟩
  | 113 => ⟨S3x262144, .f32⟩
  | 114 => ⟨S12x262144, .f32⟩
  | 115 => ⟨S12x128, .f32⟩
  | 116 => ⟨S1x128, .f32⟩
  | 117 => ⟨S1x128, .f32⟩
  | 118 => ⟨S1x128, .f32⟩
  | 119 => ⟨S262144x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S8x3x32768, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S262144x128, .f32⟩
  | 7 => ⟨S8x32768x128, .f32⟩
  | 8 => ⟨S8x128x32768, .f32⟩
  | _ => ⟨S8x3x32768, .f32⟩

abbrev hbmTy (i : Nat) : BufTy := match i / 128 with
  | 0 => hbmTy0_0 i
  | 1 => hbmTy0_1 i
  | _ => ⟨S8x3x32768, .f32⟩

abbrev bufTy : (tb : Table) → Fin (tcTables nBuf tb) → BufTy
  | .hbm, ⟨i, _⟩ => hbmTy i
  | .local _ .vmem, ⟨0, _⟩ => ⟨S12x8192, .f32⟩
  | .local _ .vmem, ⟨1, _⟩ => ⟨S12x8192, .f32⟩
  | .local _ .vmem, ⟨2, _⟩ => ⟨S12x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S8192x128, .f32⟩
  | .local _ .vmem, ⟨15, _⟩ => ⟨S8192x128, .f32⟩
  | _, _ => ⟨S8x3x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88_0 : Ref sig .tc := ⟨.hbm, 119, rfl⟩
abbrev main_v88_1 : Ref sig .tc := ⟨.hbm, 120, rfl⟩
abbrev main_v88_2 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S8x3x32768_S8x32768x3_0_2_1 : S8x3x32768.Transposes [0, 2, 1] S8x32768x3
  shapeCasts_S8x32768x3_S262144x3 : S8x32768x3.ShapeCasts S262144x3
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S262144 : S_.BroadcastsInDim S262144 (![] : Fin 0 → Fin S262144.rank)
  bcast_S4194304_S4194304x1_0 : S4194304.BroadcastsInDim S4194304x1 (![0] : Fin 1 → Fin S4194304x1.rank)
  bcast_S4194304x1_S4194304x3_0_1 : S4194304x1.BroadcastsInDim S4194304x3 (![0, 1] : Fin 2 → Fin S4194304x3.rank)
  bcast_S_S262144x3 : S_.BroadcastsInDim S262144x3 (![] : Fin 0 → Fin S262144x3.rank)
  transposes_S262144x3_S3x262144_1_0 : S262144x3.Transposes [1, 0] S3x262144
  concatenates_S3x262144_S3x262144_S3x262144_S3x262144_S12x262144_d0 : Shape.Concatenates [S3x262144, S3x262144, S3x262144, S3x262144] S12x262144 0
  shapeCasts_S4x3x128_S12x128 : S4x3x128.ShapeCasts S12x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S12x8192_S12x8192_0_0 : ∀ a, (![0, 0] : Fin 2 → Nat) a + S12x8192.size a ≤ S12x8192.size a
  h_S12x8192 : 0 < S12x8192.numel
  shapeCasts_S12x8192_S12x8192 : S12x8192.ShapeCasts S12x8192
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  shapeCasts_S12x128_S12x128 : S12x128.ShapeCasts S12x128
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  reduces_S8192x128_S128 : S8192x128.Reduces [0] S128
  bcast_S_S1x128 : S_.BroadcastsInDim S1x128 (![] : Fin 0 → Fin S1x128.rank)
  shapeCasts_S8192x128_S8192x128 : S8192x128.ShapeCasts S8192x128
  shapeCasts_S262144x128_S8x32768x128 : S262144x128.ShapeCasts S8x32768x128
  transposes_S8x32768x128_S8x128x32768_0_2_1 : S8x32768x128.Transposes [0, 2, 1] S8x128x32768
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  gather_S262144x3_S4194304x1_S4194304x3_1_0_n_n_0_1_13_wf : GatherDims.WF S262144x3 S4194304x1 S4194304x3 [1] [0] [] [0] [] 1 ![1, 3]
  scatter_S262144x3_S4194304x1_S4194304x3_1_0_0_1_wf : ScatterDims.WF S262144x3 S4194304x1 S4194304x3 [1] [0] [0] 1
  dot_S12x8192_S12x128_S8192x128_0_0_1_1_n_n_wf : DotDims.WF S12x8192 S12x128 S8192x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x8192.size a ≤ S12x262144.size a
  hwx0_0 : ∀ i : grid0.Coords, EltTy.bits .f32 = 32 ∨ (Rect.block (s := S12x262144) S12x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x128.size a ≤ S12x128.size a
  hwx0_1 : ∀ i : grid0.Coords, EltTy.bits .f32 = 32 ∨ (Rect.block (s := S12x128) S12x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S262144x128.size a
  hwx1_5 : ∀ i : grid1.Coords, EltTy.bits .f32 = 32 ∨ (Rect.block (s := S262144x128) S8192x128.size (cc1_transform_5 i) (hinb1_5 i)).WholeWords (EltTy.packing .f32)

variable [Facts₀]

def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def gather_S262144x3_S4194304x1_S4194304x3_1_0_n_n_0_1_13 : GatherDims S262144x3 S4194304x1 S4194304x3 where
  offsetDims := [1]
  collapsedSliceDims := [0]
  operandBatchingDims := []
  startIndicesBatchingDims := []
  startIndexMap := [0]
  indexVectorDim := 1
  sliceSizes := ![1, 3]
  wf := gather_S262144x3_S4194304x1_S4194304x3_1_0_n_n_0_1_13_wf
def scatter_S262144x3_S4194304x1_S4194304x3_1_0_0_1 : ScatterDims S262144x3 S4194304x1 S4194304x3 where
  updateWindowDims := [1]
  insertedWindowDims := [0]
  scatterDimsToOperandDims := [0]
  indexVectorDim := 1
  wf := scatter_S262144x3_S4194304x1_S4194304x3_1_0_0_1_wf
def dot_S12x8192_S12x128_S8192x128_0_0_1_1_n_n : DotDims S12x8192 S12x128 S8192x128 where
  lhsContracting := [0]
  rhsContracting := [0]
  lhsNonContracting := [1]
  rhsNonContracting := [1]
  lhsBatch := []
  rhsBatch := []
  wf := dot_S12x8192_S12x128_S8192x128_0_0_1_1_n_n_wf

abbrev win0_0 : Pipeline.Window sig grid0 :=
  Pipeline.Window.ofSpec (Memref.whole main_v83) S12x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v84) S12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v85) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v88_0) S8192x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v88_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v88_0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v97) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v98) S8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x3x32768 : Shape := ⟨3, ![8, 3, 32768]⟩
abbrev S2x4194304 : Shape := ⟨2, ![2, 4194304]⟩
abbrev S4194304 : Shape := ⟨1, ![4194304]⟩
abbrev S4x3x128 : Shape := ⟨3, ![4, 3, 128]⟩
abbrev S128 : Shape := ⟨1, ![128]⟩
abbrev S8x32768x3 : Shape := ⟨3, ![8, 32768, 3]⟩
abbrev S262144x3 : Shape := ⟨2, ![262144, 3]⟩
abbrev S1x4194304 : Shape := ⟨2, ![1, 4194304]⟩
abbrev S_ : Shape := ⟨0, ![]⟩
abbrev S262144 : Shape := ⟨1, ![262144]⟩
abbrev S4194304x1 : Shape := ⟨2, ![4194304, 1]⟩
abbrev S1x3x128 : Shape := ⟨3, ![1, 3, 128]⟩
abbrev S3x128 : Shape := ⟨2, ![3, 128]⟩
abbrev S262144x128 : Shape := ⟨2, ![262144, 128]⟩
abbrev S4194304x3 : Shape := ⟨2, ![4194304, 3]⟩
abbrev S1x128 : Shape := ⟨2, ![1, 128]⟩
abbrev S8x32768x128 : Shape := ⟨3, ![8, 32768, 128]⟩
abbrev S8x128x32768 : Shape := ⟨3, ![8, 128, 32768]⟩

abbrev nBuf : Space → Nat
  | .hbm => 177
  | .vmem => 0
  | .smem => 0
  | _ => 0

abbrev hbmTy0_0 (i : Nat) : BufTy := match i % 128 with
  | 0 => ⟨S8x3x32768, .f32⟩
  | 1 => ⟨S2x4194304, .i32⟩
  | 2 => ⟨S4194304, .f32⟩
  | 3 => ⟨S4x3x128, .f32⟩
  | 4 => ⟨S128, .f32⟩
  | 5 => ⟨S128, .f32⟩
  | 6 => ⟨S128, .f32⟩
  | 7 => ⟨S8x32768x3, .f32⟩
  | 8 => ⟨S262144x3, .f32⟩
  | 9 => ⟨S1x4194304, .i32⟩
  | 10 => ⟨S4194304, .i32⟩
  | 11 => ⟨S1x4194304, .i32⟩
  | 12 => ⟨S4194304, .i32⟩
  | 13 => ⟨S4194304, .i1⟩
  | 14 => ⟨S_, .f32⟩
  | 15 => ⟨S_, .f32⟩
  | 16 => ⟨S4194304, .f32⟩
  | 17 => ⟨S4194304, .f32⟩
  | 18 => ⟨S_, .f32⟩
  | 19 => ⟨S262144, .f32⟩
  | 20 => ⟨S4194304x1, .i32⟩
  | 21 => ⟨S262144, .f32⟩
  | 22 => ⟨S_, .f32⟩
  | 23 => ⟨S262144, .f32⟩
  | 24 => ⟨S262144, .i1⟩
  | 25 => ⟨S_, .f32⟩
  | 26 => ⟨S262144, .f32⟩
  | 27 => ⟨S262144, .f32⟩
  | 28 => ⟨S262144, .f32⟩
  | 29 => ⟨S_, .f32⟩
  | 30 => ⟨S_, .f32⟩
  | 31 => ⟨S262144, .f32⟩
  | 32 => ⟨S262144, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304, .f32⟩
  | 42 => ⟨S4194304, .f32⟩
  | 43 => ⟨S4194304, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304, .f32⟩
  | 53 => ⟨S4194304, .f32⟩
  | 54 => ⟨S1x3x128, .f32⟩
  | 55 => ⟨S3x128, .f32⟩
  | 56 => ⟨S262144x128, .f32⟩
  | 57 => ⟨S4194304x1, .f32⟩
  | 58 => ⟨S_, .i32⟩
  | 59 => ⟨S4194304, .i32⟩
  | 60 => ⟨S4194304, .i1⟩
  | 61 => ⟨S_, .i32⟩
  | 62 => ⟨S4194304, .i32⟩
  | 63 => ⟨S4194304, .i32⟩
  | 64 => ⟨S4194304, .i32⟩
  | 65 => ⟨S4194304x1, .i32⟩
  | 66 => ⟨S4194304x3, .f32⟩
  | 67 => ⟨S4194304x3, .f32⟩
  | 68 => ⟨S4194304x3, .f32⟩
  | 69 => ⟨S_, .f32⟩
  | 70 => ⟨S262144x3, .f32⟩
  | 71 => ⟨S4194304x1, .i32⟩
  | 72 => ⟨S262144x3, .f32⟩
  | 73 => ⟨S1x3x128, .f32⟩
  | 74 => ⟨S3x128, .f32⟩
  | 75 => ⟨S262144x128, .f32⟩
  | 76 => ⟨S262144x128, .f32⟩
  | 77 => ⟨S4194304x1, .f32⟩
  | 78 => ⟨S_, .i32⟩
  | 79 => ⟨S4194304, .i32⟩
  | 80 => ⟨S4194304, .i1⟩
  | 81 => ⟨S_, .i32⟩
  | 82 => ⟨S4194304, .i32⟩
  | 83 => ⟨S4194304, .i32⟩
  | 84 => ⟨S4194304, .i32⟩
  | 85 => ⟨S4194304x1, .i32⟩
  | 86 => ⟨S4194304x3, .f32⟩
  | 87 => ⟨S4194304x3, .f32⟩
  | 88 => ⟨S4194304x3, .f32⟩
  | 89 => ⟨S_, .f32⟩
  | 90 => ⟨S262144x3, .f32⟩
  | 91 => ⟨S4194304x1, .i32⟩
  | 92 => ⟨S262144x3, .f32⟩
  | 93 => ⟨S_, .f32⟩
  | 94 => ⟨S262144x3, .f32⟩
  | 95 => ⟨S262144x3, .f32⟩
  | 96 => ⟨S262144x3, .f32⟩
  | 97 => ⟨S1x3x128, .f32⟩
  | 98 => ⟨S3x128, .f32⟩
  | 99 => ⟨S262144x128, .f32⟩
  | 100 => ⟨S262144x128, .f32⟩
  | 101 => ⟨S4194304x1, .f32⟩
  | 102 => ⟨S_, .i32⟩
  | 103 => ⟨S4194304, .i32⟩
  | 104 => ⟨S4194304, .i1⟩
  | 105 => ⟨S_, .i32⟩
  | 106 => ⟨S4194304, .i32⟩
  | 107 => ⟨S4194304, .i32⟩
  | 108 => ⟨S4194304, .i32⟩
  | 109 => ⟨S4194304x1, .i32⟩
  | 110 => ⟨S4194304x3, .f32⟩
  | 111 => ⟨S4194304x3, .f32⟩
  | 112 => ⟨S4194304x3, .f32⟩
  | 113 => ⟨S_, .f32⟩
  | 114 => ⟨S262144x3, .f32⟩
  | 115 => ⟨S4194304x1, .i32⟩
  | 116 => ⟨S262144x3, .f32⟩
  | 117 => ⟨S_, .f32⟩
  | 118 => ⟨S262144x3, .f32⟩
  | 119 => ⟨S262144x3, .f32⟩
  | 120 => ⟨S262144x3, .f32⟩
  | 121 => ⟨S1x3x128, .f32⟩
  | 122 => ⟨S3x128, .f32⟩
  | 123 => ⟨S262144x128, .f32⟩
  | 124 => ⟨S262144x128, .f32⟩
  | 125 => ⟨S1x128, .f32⟩
  | 126 => ⟨S262144x128, .f32⟩
  | 127 => ⟨S262144x128, .f32⟩
  | _ => ⟨S8x3x32768, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S262144x128, .f32⟩
  | 13 => ⟨S262144x128, .f32⟩
  | 14 => ⟨S262144x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S262144x128, .f32⟩
  | 30 => ⟨S262144x128, .f32⟩
  | 31 => ⟨S_, .f32⟩
  | 32 => ⟨S128, .f32⟩
  | 33 => ⟨S128, .f32⟩
  | 34 => ⟨S128, .f32⟩
  | 35 => ⟨S1x128, .f32⟩
  | 36 => ⟨S262144x128, .f32⟩
  | 37 => ⟨S262144x128, .f32⟩
  | 38 => ⟨S1x128, .f32⟩
  | 39 => ⟨S262144x128, .f32⟩
  | 40 => ⟨S262144x128, .f32⟩
  | 41 => ⟨S1x128, .f32⟩
  | 42 => ⟨S262144x128, .f32⟩
  | 43 => ⟨S262144x128, .f32⟩
  | 44 => ⟨S_, .f32⟩
  | 45 => ⟨S262144x128, .f32⟩
  | 46 => ⟨S262144x128, .f32⟩
  | 47 => ⟨S8x32768x128, .f32⟩
  | 48 => ⟨S8x128x32768, .f32⟩
  | _ => ⟨S8x3x32768, .f32⟩

abbrev hbmTy (i : Nat) : BufTy := match i / 128 with
  | 0 => hbmTy0_0 i
  | 1 => hbmTy0_1 i
  | _ => ⟨S8x3x32768, .f32⟩

abbrev bufTy : (tb : Table) → Fin (tcTables nBuf tb) → BufTy
  | .hbm, ⟨i, _⟩ => hbmTy i
  | _, _ => ⟨S8x3x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_18 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_v99 : Ref sig .tc := ⟨.hbm, 132, rfl⟩
abbrev main_c_20 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_21 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_call3_cst : Ref sig .tc := ⟨.hbm, 172, rfl⟩
abbrev main_call3_v0 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩

abbrev nD : Nat := 1
abbrev τ : Topo := Topo.v7x

variable {F : FTy → Type} [FloatOps F]

class Facts₀ : Prop where
  transposes_S8x3x32768_S8x32768x3_0_2_1 : S8x3x32768.Transposes [0, 2, 1] S8x32768x3
  shapeCasts_S8x32768x3_S262144x3 : S8x32768x3.ShapeCasts S262144x3
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S262144 : S_.BroadcastsInDim S262144 (![] : Fin 0 → Fin S262144.rank)
  bcast_S4194304_S4194304x1_0 : S4194304.BroadcastsInDim S4194304x1 (![0] : Fin 1 → Fin S4194304x1.rank)
  slices_S4x3x128_S1x3x128_0_0_0 : S4x3x128.Slices ![0, 0, 0] S1x3x128
  shapeCasts_S1x3x128_S3x128 : S1x3x128.ShapeCasts S3x128
  bcast_S4194304x1_S4194304x3_0_1 : S4194304x1.BroadcastsInDim S4194304x3 (![0, 1] : Fin 2 → Fin S4194304x3.rank)
  bcast_S_S262144x3 : S_.BroadcastsInDim S262144x3 (![] : Fin 0 → Fin S262144x3.rank)
  slices_S4x3x128_S1x3x128_1_0_0 : S4x3x128.Slices ![1, 0, 0] S1x3x128
  slices_S4x3x128_S1x3x128_2_0_0 : S4x3x128.Slices ![2, 0, 0] S1x3x128
  slices_S4x3x128_S1x3x128_3_0_0 : S4x3x128.Slices ![3, 0, 0] S1x3x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S128_d0 : S262144x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S262144x128 : S_.BroadcastsInDim S262144x128 (![] : Fin 0 → Fin S262144x128.rank)
  shapeCasts_S262144x128_S8x32768x128 : S262144x128.ShapeCasts S8x32768x128
  transposes_S8x32768x128_S8x128x32768_0_2_1 : S8x32768x128.Transposes [0, 2, 1] S8x128x32768
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  dot_S262144x3_S3x128_S262144x128_1_0_0_1_n_n_wf : DotDims.WF S262144x3 S3x128 S262144x128 [1] [0] [0] [1] [] []
  gather_S262144x3_S4194304x1_S4194304x3_1_0_n_n_0_1_13_wf : GatherDims.WF S262144x3 S4194304x1 S4194304x3 [1] [0] [] [0] [] 1 ![1, 3]
  scatter_S262144x3_S4194304x1_S4194304x3_1_0_0_1_wf : ScatterDims.WF S262144x3 S4194304x1 S4194304x3 [1] [0] [0] 1

variable [Facts₀]

def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def gather_S262144x3_S4194304x1_S4194304x3_1_0_n_n_0_1_13 : GatherDims S262144x3 S4194304x1 S4194304x3 where
  offsetDims := [1]
  collapsedSliceDims := [0]
  operandBatchingDims := []
  startIndicesBatchingDims := []
  startIndexMap := [0]
  indexVectorDim := 1
  sliceSizes := ![1, 3]
  wf := gather_S262144x3_S4194304x1_S4194304x3_1_0_n_n_0_1_13_wf
def scatter_S262144x3_S4194304x1_S4194304x3_1_0_0_1 : ScatterDims S262144x3 S4194304x1 S4194304x3 where
  updateWindowDims := [1]
  insertedWindowDims := [0]
  scatterDimsToOperandDims := [0]
  indexVectorDim := 1
  wf := scatter_S262144x3_S4194304x1_S4194304x3_1_0_0_1_wf

class Facts : Prop extends Facts₀ where

variable [Facts]
-- ==== Proof.KRegion0Run.lean ====
/-
  Region 0 of the program: the dense combine. At grid point t the body receives the t-th column tile of the stacked
  Chebyshev features (12 x 8192), the 12 x 128 weight and the 1 x 128 bias, writes the 8192 x 128 tile
  o = (tile)^T W + bias, and adds the tile's column sums of o and of o*o to two 1 x 128 running totals that
  it zeroes at the first point. The two totals stay in their buffers from point to point (they are written back
  only after the last point), so what they hold after point t is defined by recursion on t; the tile of o depends
  on the point's own blocks only. Stated for any float instance.
-/
import proofs.«158969_j2714419331078_1_alg».proof.Proof.Gen.KernelIdeal.Launch
import proofs.«158969_j2714419331078_1_alg».proof.Proof.Gen.KernelIdeal.Skeleton
import proofs.«158969_j2714419331078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not (its block index does not move between fetches). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, fetched there or not (its block index does not move between fetches). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, fetched there or not (its block index does not move between fetches). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: "this is the first grid point", as the scalar chain over the grid coordinate. -/
abbrev cond0_0 (i : grid0.Coords) : Prop := (Scalar.cmpi .ne (Scalar.extui (Scalar.cmpi .eq (BitVec.ofNat 32 (i 0).val) 0#32)) 0#32) = 1#1
/-- It holds at point 0 only (decided over the 32 points). -/
theorem hcond0_0 : ∀ t : Fin cfg0.N, cond0_0 (grid0.coords t) ↔ t.val % 32 = 0 :=
  (by decide +kernel : ∀ t : Fin grid0.N, cond0_0 (grid0.coords t) ↔ t.val % 32 = 0)

abbrev VO0_3 : View sig .tc .vmem S8192x128 .f32 := (Memref.whole cc0_stg3_0 : Memref sig .tc .vmem S8192x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S12x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
end Region0

/-- The body's run in one case of its branch: the pieces its stores leave in the three output buffers (last first), with the
    proof that from whole buffers — the inputs at their contents — it runs to the continuation holding the inputs as they were
    and each output buffer with those pieces written. -/
structure RunA (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (x0 : Vec F S12x8192 .f32) (x1 : Vec F S12x128 .f32) (x2 : Vec F S1x128 .f32) where
  L3 : List (View.Piece (Elt F) S8192x128 .f32)
  L4 : List (View.Piece (Elt F) S1x128 .f32)
  L5 : List (View.Piece (Elt F) S1x128 .f32)
  run : ∀ (E : Set ℕ) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
      ⊢ wp frame (wpE (defs₀ (F := F)) Variants.none c none) E (cc0__k1_body i arg1 harg1 arg2 harg2 arg3 harg3 arg4 harg4 arg5 harg5 arg6 harg6) K

/-- The body's run in one case of its branch: the pieces its stores leave in the three output buffers (last first), with the
    proof that from whole buffers — the inputs at their contents — it runs to the continuation holding the inputs as they were
    and each output buffer with those pieces written. -/
structure RunB (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (x0 : Vec F S12x8192 .f32) (x1 : Vec F S12x128 .f32) (x2 : Vec F S1x128 .f32) (xo4 : Vec F S1x128 .f32) (xo5 : Vec F S1x128 .f32) where
  L3 : List (View.Piece (Elt F) S8192x128 .f32)
  L4 : List (View.Piece (Elt F) S1x128 .f32)
  L5 : List (View.Piece (Elt F) S1x128 .f32)
  run : ∀ (E : Set ℕ) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
      ⊢ wp frame (wpE (defs₀ (F := F)) Variants.none c none) E (cc0__k1_body i arg1 harg1 arg2 harg2 arg3 harg3 arg4 harg4 arg5 harg5 arg6 harg6) K

set_option maxHeartbeats 4000000 in
/-- Case A (the first point): the totals are zeroed, then added to. -/
noncomputable def kernelRun0_A (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) :
    RunA (F := F) c i arg1 harg1 arg2 harg2 arg3 harg3 arg4 harg4 arg5 harg5 arg6 harg6 x0 x1 x2 := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- Case B (every later point): the totals found in the buffers are added to. -/
noncomputable def kernelRun0_B (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) :
    RunB (F := F) c i arg1 harg1 arg2 harg2 arg3 harg3 arg4 harg4 arg5 harg5 arg6 harg6 x0 x1 x2 xo4 xo5 := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.KRun

end
-- ==== Proof.KRegion1Run.lean ====
/-
  Region 1 of the program: the normalisation. At grid point t the body receives the t-th 8192 x 128 tile of the
  pre-activation o and four 1 x 128 rows (mean, inverse standard deviation, scale, shift) and writes
  max((o - mean) * inv * scale + shift, 0), row by row. Nothing is kept between points. Stated for any float instance.
-/
import proofs.«158969_j2714419331078_1_alg».proof.Proof.KRegion0Run

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S8192x128 .f32 := (Memref.whole cc1_stg5_0 : Memref sig .tc .vmem S8192x128 .f32).view
abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8192x128 .f32 := win1_5.stage (cfg1.slots t 5)
abbrev hs1_5 (t : Fin cfg1.N) : (ms1_5 t).IsWhole := hstage1_5 ((cfg1.slots t 5).cast nbuf1_5)
end Region1

set_option maxHeartbeats 4000000 in
/-- The body's run: the pieces its one store leaves in the output buffer, with the proof that from whole buffers — the five
    inputs at their contents, the output at anything — it runs to the continuation holding the inputs as they were and the
    output buffer with those pieces written. -/
noncomputable def kernelRun1 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) :
    { L5 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__k2_body i arg1 harg1 arg2 harg2 arg3 harg3 arg4 harg4 arg5 harg5 arg6 harg6) K } := by
  refine ⟨?_, fun E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.KRun

end
-- ==== Proof.KRegion0.lean ====
/-
  Region 0, continued: what the three output buffers hold after each grid point, the pipeline's proof data, and the body
  obligation at a generic point. The tile of o written at point t is a function of the point's blocks only; the two running
  totals after point t are, at t = 0, the first tile's column sums added to zero, and at t > 0 the tile's column sums added
  to the totals after point t - 1 (the buffers are not written back in between).
-/
import proofs.«158969_j2714419331078_1_alg».proof.Proof.KRegion1Run

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 3 tile its block, so they cover it. -/
theorem cover0_A_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S8192x128.Idx) :
    ∃ pc ∈ (kernelRun0_A c i arg1 harg1 arg2 harg2 arg3 harg3 arg4 harg4 arg5 harg5 arg6 harg6 hc0 x0 x1 x2).L3, y ∈ pc.1.set :=
  View.cover_of_tiledL (kernelRun0_A c i arg1 harg1 arg2 harg2 arg3 harg3 arg4 harg4 arg5 harg5 arg6 harg6 hc0 x0 x1 x2).L3 S8192x128.size (by sl_kernel_rfl) y

/-- What case A leaves in output 3's buffer: its pieces read back. -/
def out0_A_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S8192x128 .f32 :=
  VO0_3.read (Elt F) (VO0_3.writes (Elt F) VO0_3.junk (kernelRun0_A c i arg1 harg1 arg2 harg2 arg3 harg3 arg4 harg4 arg5 harg5 arg6 harg6 hc0 x0 x1 x2).L3)

/-- Case A's pieces for output 4 tile its block, so they cover it. -/
theorem cover0_A_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S1x128.Idx) :
    ∃ pc ∈ (kernelRun0_A c i arg1 harg1 arg2 harg2 arg3 harg3 arg4 harg4 arg5 harg5 arg6 harg6 hc0 x0 x1 x2).L4, y ∈ pc.1.set :=
  View.cover_of_tiledL (kernelRun0_A c i arg1 harg1 arg2 harg2 arg3 harg3 arg4 harg4 arg5 harg5 arg6 harg6 hc0 x0 x1 x2).L4 S1x128.size (by sl_kernel_rfl) y

/-- What case A leaves in output 4's buffer: its pieces read back. -/
def out0_A_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S1x128 .f32 :=
  VO0_4.read (Elt F) (VO0_4.writes (Elt F) VO0_4.junk (kernelRun0_A c i arg1 harg1 arg2 harg2 arg3 harg3 arg4 harg4 arg5 harg5 arg6 harg6 hc0 x0 x1 x2).L4)

/-- Case A's pieces for output 5 tile its block, so they cover it. -/
theorem cover0_A_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S1x128.Idx) :
    ∃ pc ∈ (kernelRun0_A c i arg1 harg1 arg2 harg2 arg3 harg3 arg4 harg4 arg5 harg5 arg6 harg6 hc0 x0 x1 x2).L5, y ∈ pc.1.set :=
  View.cover_of_tiledL (kernelRun0_A c i arg1 harg1 arg2 harg2 arg3 harg3 arg4 harg4 arg5 harg5 arg6 harg6 hc0 x0 x1 x2).L5 S1x128.size (by sl_kernel_rfl) y

/-- What case A leaves in output 5's buffer: its pieces read back. -/
def out0_A_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 hc0 x0 x1 x2).L5)

/-- Case B's pieces for output 3 tile its block, so they cover it. -/
theorem cover0_B_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S8192x128.Idx) :
    ∃ pc ∈ (kernelRun0_B c i arg1 harg1 arg2 harg2 arg3 harg3 arg4 harg4 arg5 harg5 arg6 harg6 hc0 x0 x1 x2 xo4 xo5).L3, y ∈ pc.1.set :=
  View.cover_of_tiledL (kernelRun0_B c i arg1 harg1 arg2 harg2 arg3 harg3 arg4 harg4 arg5 harg5 arg6 harg6 hc0 x0 x1 x2 xo4 xo5).L3 S8192x128.size (by sl_kernel_rfl) y

/-- What case B leaves in output 3's buffer: its pieces read back. -/
def out0_B_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S8192x128 .f32 :=
  VO0_3.read (Elt F) (VO0_3.writes (Elt F) VO0_3.junk (kernelRun0_B c i arg1 harg1 arg2 harg2 arg3 harg3 arg4 harg4 arg5 harg5 arg6 harg6 hc0 x0 x1 x2 xo4 xo5).L3)

/-- Case B's pieces for output 4 tile its block, so they cover it. -/
theorem cover0_B_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).L4, y ∈ pc.1.set :=
  View.cover_of_tiledL (kernelRun0_B c i arg1 harg1 arg2 harg2 arg3 harg3 arg4 harg4 arg5 harg5 arg6 harg6 hc0 x0 x1 x2 xo4 xo5).L4 S1x128.size (by sl_kernel_rfl) y

/-- What case B leaves in output 4's buffer: its pieces read back. -/
def out0_B_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 hc0 x0 x1 x2 xo4 xo5).L4)

/-- Case B's pieces for output 5 tile its block, so they cover it. -/
theorem cover0_B_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).L5, y ∈ pc.1.set :=
  View.cover_of_tiledL (kernelRun0_B c i arg1 harg1 arg2 harg2 arg3 harg3 arg4 harg4 arg5 harg5 arg6 harg6 hc0 x0 x1 x2 xo4 xo5).L5 S1x128.size (by sl_kernel_rfl) y

/-- What case B leaves in output 5's buffer: its pieces read back. -/
def out0_B_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 hc0 x0 x1 x2 xo4 xo5).L5)

section Region0
variable (V : (c : Dev nD) → (b : Ref sig .tc) → Buf (Elt F) ((c : Thread nD τ).loc b))

/-- THE ACCUMULATION: what the three outputs' buffers hold after the body at position n — the tile of o, and the two running
    totals: at the first point the tile's sums added to zero, later the tile's sums added to what position n - 1 left. -/
def outsAt0 (c : Dev nD) : (n : ℕ) → n < cfg0.N → Vec F S8192x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- The point before t (t itself at t = 0, where it is not used). -/
abbrev prevAt0 (c : Dev nD) (t : Fin cfg0.N) : Vec F S8192x128 .f32 × Vec F S1x128 .f32 × Vec F S1x128 .f32 :=
  outsAt0 V c (t.val - 1) (Nat.lt_of_le_of_lt (Nat.sub_le _ _) t.isLt)

/-- outsAt0 at the first point: case A's contents. -/
theorem outsAt0_A (c : Dev nD) (t : Fin cfg0.N) (h0 : t.val % 32 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) := by
  obtain ⟨n, hn⟩ := t
  cases n with
  | zero => exact rfl
  | succ n => exact (dif_pos h0).trans rfl

/-- outsAt0 at a later point: case B's contents over what the point before left. -/
theorem outsAt0_B (c : Dev nD) (t : Fin cfg0.N) (h0 : ¬t.val % 32 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2) := by
  obtain ⟨n, hn⟩ := t
  cases n with
  | zero => exact (by exfalso; (try dsimp only at h0); exact absurd (Nat.zero_mod _) h0)
  | succ n => exact (dif_neg h0).trans rfl

/-- The proof data of pipeline 0 on core c: the arrays as the region finds them; after the body at point t each input's buffer
    at its block and the outputs' at outsAt0; the class invariant (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point each running total's buffer holds what the body left at the point before: it is not written back in
    between (the write-back happens after the last point only). -/
theorem before0_4_B (c : Dev nD) (t : Fin cfg0.N) (h0 : ¬t.val % 32 = 0) (d) :
    (dat0 V c).before 4 t d = (prevAt0 V c t).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 32 = 0) (d) :
    (dat0 V c).before 5 t d = (prevAt0 V c t).2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point: the inputs' buffers hold their blocks; the closed form says which case the point is in; at a later
    point the totals' buffers hold what the point before left; so that case's run applies. The invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 32 := lt_of_lt_of_eq t.isLt (show cfg0.N = 32 from N_0)
  by_cases h0 : t.val % 32 = 0
  · rw [outsAt0_A V c t h0]
    dsimp only
    unfold out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t)).run Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    · unfold owns; iexists _; isplitr
      swap; · iexact H5
      ipureintro; exact View.read_writes_of_cover _ _ _ _ _ (cover0_A_5 c _ _ _ _ _ _ _ _ _ _ _ _ _ _ _ _ _)
  · rw [outsAt0_B V c t h0]
    dsimp only
    simp only [before0_4_B V c t h0, before0_5_B V c t h0]
    unfold out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) _ _).run Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    · unfold owns; iexists _; isplitr
      swap; · iexact H5
      ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.KRun

end
-- ==== Proof.KRegion1.lean ====
/-
  Region 1, continued: what the output buffer holds after each grid point (a function of the point's five input blocks
  only), the pipeline's proof data, and the body obligation at a generic point.
-/
import proofs.«158969_j2714419331078_1_alg».proof.Proof.KRegion0

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's pieces for the output tile its block, so they cover it. -/
theorem cover1_5 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) (y : S8192x128.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S8192x128.size (by sl_kernel_rfl) y

/-- What the body leaves in the output buffer: its pieces read back. -/
def out1_5 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) : Vec F S8192x128 .f32 :=
  VO1_5.read (Elt F) (VO1_5.writes (Elt F) VO1_5.junk (kernelRun1 c i arg1 harg1 arg2 harg2 arg3 harg3 arg4 harg4 arg5 harg5 arg6 harg6 x0 x1 x2 x3 x4).1)

section Region1
variable (V : (c : Dev nD) → (b : Ref sig .tc) → Buf (Elt F) ((c : Thread nD τ).loc b))

/-- The proof data of pipeline 1 on core c: the arrays as the region finds them; after the body at point t each input's buffer
    at its block and the output's at the body's result on the point's blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
/-- The body at any point: the inputs' buffers hold their blocks, so the run applies; the invariant and the core's debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.KRun

end
-- ==== Proof.KRun.lean ====
/-
  The run of the whole program, for any float instance: @main is five stretches of host operations (the graph propagation
  and the stacking of the four Chebyshev feature matrices), region 0 (the dense combine with its running column sums),
  a stretch (mean, variance, inverse standard deviation), region 1 (normalise and clamp at zero), and a last stretch
  (the final re-layout). The buffer contents at each boundary are a fold from the launch memory: a stretch applies its
  operations in order, a region replaces its windows' arrays by what its write-backs leave and keeps every other buffer.
  No stretch and no region writes an argument, so each argument is read back through the fold to its launch contents;
  the result buffer ends at the last fold's value.
-/
import proofs.«158969_j2714419331078_1_alg».proof.Proof.KRegion1

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- Region 0's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- Region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Region 1's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- Region 1's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- The end. -/
abbrev W9 : Dev nD → Valuation τ sig (Elt F) := fun c => StableHlo.after hostOps2 (W8 m ρ c)

/-! ## What the host stretches write -/

set_option maxHeartbeats 4000000 in
theorem hostOps0_fresh : (hostOps0 : List (HloOp τ sig (Elt F))).Forall fun op => op.fresh = ∅ := by
  simp only [List.Forall]; repeat' constructor
/-- The references this stretch's operations write. -/
abbrev hostOps0_Wr : List (Ref sig .tc) := [main_v0, main_v1, main_v2, main_v3, main_v4, main_v5, main_v6, main_cst]
set_option maxHeartbeats 4000000 in
theorem hostOps0_writes : (hostOps0 : List (HloOp τ sig (Elt F))).Forall fun op => op.writes ⊆ (hostOps0_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ hostOps0_Wr) :
    W1 m ρ c (Proc.devRef .tc r) = W0 m ρ c (Proc.devRef .tc r) :=
  StableHlo.after_of_writes_sub hostOps0 _ hostOps0_writes h

set_option maxHeartbeats 4000000 in
theorem hostOps0_1_fresh : (hostOps0_1 : List (HloOp τ sig (Elt F))).Forall fun op => op.fresh = ∅ := by
  simp only [List.Forall]; repeat' constructor
/-- The references this stretch's operations write. -/
abbrev hostOps0_1_Wr : List (Ref sig .tc) := [main_call0_v0, main_call0_v1, main_v7]
set_option maxHeartbeats 4000000 in
theorem hostOps0_1_writes : (hostOps0_1 : List (HloOp τ sig (Elt F))).Forall fun op => op.writes ⊆ (hostOps0_1_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W2_of (c : Dev nD) (r : Ref sig .tc) (h : r ∉ hostOps0_1_Wr) :
    W2 m ρ c (Proc.devRef .tc r) = W1 m ρ c (Proc.devRef .tc r) :=
  StableHlo.after_of_writes_sub hostOps0_1 _ hostOps0_1_writes h

set_option maxHeartbeats 4000000 in
theorem hostOps0_2_fresh : (hostOps0_2 : List (HloOp τ sig (Elt F))).Forall fun op => op.fresh = ∅ := by
  simp only [List.Forall]; repeat' constructor
/-- The references this stretch's operations write. -/
abbrev hostOps0_2_Wr : List (Ref sig .tc) := [main_cst_0, main_v8, main_v9, main_v10, main_cst_1, main_v11, main_v12, main_cst_2, main_v13, main_v14, main_v15, main_cst_3]
set_option maxHeartbeats 4000000 in
theorem hostOps0_2_writes : (hostOps0_2 : List (HloOp τ sig (Elt F))).Forall fun op => op.writes ⊆ (hostOps0_2_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W3_of (c : Dev nD) (r : Ref sig .tc) (h : r ∉ hostOps0_2_Wr) :
    W3 m ρ c (Proc.devRef .tc r) = W2 m ρ c (Proc.devRef .tc r) :=
  StableHlo.after_of_writes_sub hostOps0_2 _ hostOps0_2_writes h

set_option maxHeartbeats 4000000 in
theorem hostOps0_3_fresh : (hostOps0_3 : List (HloOp τ sig (Elt F))).Forall fun op => op.fresh = ∅ := by
  simp only [List.Forall]; repeat' constructor
/-- The references this stretch's operations write. -/
abbrev hostOps0_3_Wr : List (Ref sig .tc) := [main_call1_v0, main_call1_v1, main_v16]
set_option maxHeartbeats 4000000 in
theorem hostOps0_3_writes : (hostOps0_3 : List (HloOp τ sig (Elt F))).Forall fun op => op.writes ⊆ (hostOps0_3_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W4_of (c : Dev nD) (r : Ref sig .tc) (h : r ∉ hostOps0_3_Wr) :
    W4 m ρ c (Proc.devRef .tc r) = W3 m ρ c (Proc.devRef .tc r) :=
  StableHlo.after_of_writes_sub hostOps0_3 _ hostOps0_3_writes h

set_option maxHeartbeats 4000000 in
theorem hostOps0_4_fresh : (hostOps0_4 : List (HloOp τ sig (Elt F))).Forall fun op => op.fresh = ∅ := by
  simp only [List.Forall]; repeat' constructor
/-- The references this stretch's operations write. -/
abbrev hostOps0_4_Wr : List (Ref sig .tc) := [main_c, main_v17, main_v18, main_c_4, main_v19, main_v20, main_v21, main_v22, main_v23, main_v24, main_v25, main_c_5, main_v26, main_v27, main_c_6, main_v28, main_v29, main_v30, main_v31, main_v32, main_v33, main_v34, main_c_7, main_v35, main_v36, main_c_8, main_v37, main_v38, main_v39, main_v40, main_v41, main_v42, main_v43, main_cst_9, main_v44, main_v45, main_v46, main_v47, main_c_10, main_v48, main_v49, main_c_11, main_v50, main_v51, main_v52, main_v53, main_v54, main_v55, main_v56, main_cst_12, main_v57, main_v58, main_v59, main_cst_13, main_v60, main_v61, main_v62, main_v63, main_c_14, main_v64, main_v65, main_c_15, main_v66, main_v67, main_v68, main_v69, main_v70, main_v71, main_v72, main_cst_16, main_v73, main_v74, main_v75, main_cst_17, main_v76, main_v77, main_v78, main_v79, main_v80, main_v81, main_v82, main_v83, main_v84, main_v85, main_v86, main_v87]
set_option maxHeartbeats 4000000 in
theorem hostOps0_4_writes : (hostOps0_4 : List (HloOp τ sig (Elt F))).Forall fun op => op.writes ⊆ (hostOps0_4_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W5_of (c : Dev nD) (r : Ref sig .tc) (h : r ∉ hostOps0_4_Wr) :
    W5 m ρ c (Proc.devRef .tc r) = W4 m ρ c (Proc.devRef .tc r) :=
  StableHlo.after_of_writes_sub hostOps0_4 _ hostOps0_4_writes h

set_option maxHeartbeats 4000000 in
theorem hostOps1_fresh : (hostOps1 : List (HloOp τ sig (Elt F))).Forall fun op => op.fresh = ∅ := by
  simp only [List.Forall]; repeat' constructor
/-- The references this stretch's operations write. -/
abbrev hostOps1_Wr : List (Ref sig .tc) := [main_cst_18, main_v89, main_v90, main_cst_19, main_v91, main_v92, main_v93, main_v94, main_cst_20, main_v95, main_v96, main_v97]
set_option maxHeartbeats 4000000 in
theorem hostOps1_writes : (hostOps1 : List (HloOp τ sig (Elt F))).Forall fun op => op.writes ⊆ (hostOps1_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W7_of (c : Dev nD) (r : Ref sig .tc) (h : r ∉ hostOps1_Wr) :
    W7 m ρ c (Proc.devRef .tc r) = W6 m ρ c (Proc.devRef .tc r) :=
  StableHlo.after_of_writes_sub hostOps1 _ hostOps1_writes h

set_option maxHeartbeats 4000000 in
theorem hostOps2_fresh : (hostOps2 : List (HloOp τ sig (Elt F))).Forall fun op => op.fresh = ∅ := by
  simp only [List.Forall]; repeat' constructor
/-- The references this stretch's operations write. -/
abbrev hostOps2_Wr : List (Ref sig .tc) := [main_v99, main_v100]
set_option maxHeartbeats 4000000 in
theorem hostOps2_writes : (hostOps2 : List (HloOp τ sig (Elt F))).Forall fun op => op.writes ⊆ (hostOps2_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W9_of (c : Dev nD) (r : Ref sig .tc) (h : r ∉ hostOps2_Wr) :
    W9 m ρ c (Proc.devRef .tc r) = W8 m ρ c (Proc.devRef .tc r) :=
  StableHlo.after_of_writes_sub hostOps2 _ hostOps2_writes h

/-! ## The arguments end as launched -/

theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <| (W7_of m ρ c main_arg0 (by decide)).trans <|
  (W6_of_ne m ρ c main_arg0 (by decide)).trans <| (W5_of m ρ c main_arg0 (by decide)).trans <| (W4_of m ρ c main_arg0 (by decide)).trans <|
  (W3_of m ρ c main_arg0 (by decide)).trans <| (W2_of m ρ c main_arg0 (by decide)).trans <| (W1_of m ρ c main_arg0 (by decide)).trans rfl

theorem W9_main_arg1 (c : Dev nD) : W9 m ρ c (Proc.devRef .tc main_arg1) = m ((c : Thread nD τ).loc main_arg1) :=
  (W9_of m ρ c main_arg1 (by decide)).trans <| (W8_of_ne m ρ c main_arg1 (by decide)).trans <| (W7_of m ρ c main_arg1 (by decide)).trans <|
  (W6_of_ne m ρ c main_arg1 (by decide)).trans <| (W5_of m ρ c main_arg1 (by decide)).trans <| (W4_of m ρ c main_arg1 (by decide)).trans <|
  (W3_of m ρ c main_arg1 (by decide)).trans <| (W2_of m ρ c main_arg1 (by decide)).trans <| (W1_of m ρ c main_arg1 (by decide)).trans rfl

theorem W9_main_arg2 (c : Dev nD) : W9 m ρ c (Proc.devRef .tc main_arg2) = m ((c : Thread nD τ).loc main_arg2) :=
  (W9_of m ρ c main_arg2 (by decide)).trans <| (W8_of_ne m ρ c main_arg2 (by decide)).trans <| (W7_of m ρ c main_arg2 (by decide)).trans <|
  (W6_of_ne m ρ c main_arg2 (by decide)).trans <| (W5_of m ρ c main_arg2 (by decide)).trans <| (W4_of m ρ c main_arg2 (by decide)).trans <|
  (W3_of m ρ c main_arg2 (by decide)).trans <| (W2_of m ρ c main_arg2 (by decide)).trans <| (W1_of m ρ c main_arg2 (by decide)).trans rfl

theorem W9_main_arg3 (c : Dev nD) : W9 m ρ c (Proc.devRef .tc main_arg3) = m ((c : Thread nD τ).loc main_arg3) :=
  (W9_of m ρ c main_arg3 (by decide)).trans <| (W8_of_ne m ρ c main_arg3 (by decide)).trans <| (W7_of m ρ c main_arg3 (by decide)).trans <|
  (W6_of_ne m ρ c main_arg3 (by decide)).trans <| (W5_of m ρ c main_arg3 (by decide)).trans <| (W4_of m ρ c main_arg3 (by decide)).trans <|
  (W3_of m ρ c main_arg3 (by decide)).trans <| (W2_of m ρ c main_arg3 (by decide)).trans <| (W1_of m ρ c main_arg3 (by decide)).trans rfl

theorem W9_main_arg4 (c : Dev nD) : W9 m ρ c (Proc.devRef .tc main_arg4) = m ((c : Thread nD τ).loc main_arg4) :=
  (W9_of m ρ c main_arg4 (by decide)).trans <| (W8_of_ne m ρ c main_arg4 (by decide)).trans <| (W7_of m ρ c main_arg4 (by decide)).trans <|
  (W6_of_ne m ρ c main_arg4 (by decide)).trans <| (W5_of m ρ c main_arg4 (by decide)).trans <| (W4_of m ρ c main_arg4 (by decide)).trans <|
  (W3_of m ρ c main_arg4 (by decide)).trans <| (W2_of m ρ c main_arg4 (by decide)).trans <| (W1_of m ρ c main_arg4 (by decide)).trans rfl

theorem W9_main_arg5 (c : Dev nD) : W9 m ρ c (Proc.devRef .tc main_arg5) = m ((c : Thread nD τ).loc main_arg5) :=
  (W9_of m ρ c main_arg5 (by decide)).trans <| (W8_of_ne m ρ c main_arg5 (by decide)).trans <| (W7_of m ρ c main_arg5 (by decide)).trans <|
  (W6_of_ne m ρ c main_arg5 (by decide)).trans <| (W5_of m ρ c main_arg5 (by decide)).trans <| (W4_of m ρ c main_arg5 (by decide)).trans <|
  (W3_of m ρ c main_arg5 (by decide)).trans <| (W2_of m ρ c main_arg5 (by decide)).trans <| (W1_of m ρ c main_arg5 (by decide)).trans rfl

theorem W9_main_arg6 (c : Dev nD) : W9 m ρ c (Proc.devRef .tc main_arg6) = m ((c : Thread nD τ).loc main_arg6) :=
  (W9_of m ρ c main_arg6 (by decide)).trans <| (W8_of_ne m ρ c main_arg6 (by decide)).trans <| (W7_of m ρ c main_arg6 (by decide)).trans <|
  (W6_of_ne m ρ c main_arg6 (by decide)).trans <| (W5_of m ρ c main_arg6 (by decide)).trans <| (W4_of m ρ c main_arg6 (by decide)).trans <|
  (W3_of m ρ c main_arg6 (by decide)).trans <| (W2_of m ρ c main_arg6 (by decide)).trans <| (W1_of m ρ c main_arg6 (by decide)).trans rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-- The last host stretch's thread state regrouped: the buffers and the generator register on one side, the debts on the other. -/
theorem last_post (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at the entry contents, left at the exit contents. Its
    arrays are split out of the unscoped buffers and put back at what the pipeline leaves; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit contents. Its
    arrays are split out of the unscoped buffers and put back at what the pipeline leaves; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]

set_option maxHeartbeats 4000000 in
/-- @main is the run of the segments. -/
theorem main_run (c : Dev nD) : main (F := F) c = Pipeline.Seg.run (segs m ρ) := by
  rw [main_chain c, Pipeline.Seg.run_eq_chain]; rfl

set_option maxHeartbeats 4000000 in
set_option backward.isDefEq.respectTransparency.types false in
/-- THE RUN: at the compiled mesh, from any memory with zero counters, every weakly fair execution of @main terminates,
    nothing faulting, and every final state has the result buffer at the last boundary's contents and the seven argument
    arrays as launched. -/
theorem run : θ_run defs (onTc (τ := τ) (main (F := F))) ⟨m, fun _ => 0, ρ⟩ (fun r => ∀ c : Dev nD,
      r.2.mem ((c.tc : Thread nD τ).loc main_v100) = W9 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v100 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.KRun

end
-- ==== Proof.BRegion0Run.lean ====
/-
  Region 0 of the program: the dense combine. At grid point t the body receives the t-th column tile of the stacked
  Chebyshev features (12 x 8192), the 12 x 128 weight and the 1 x 128 bias, writes the 8192 x 128 tile
  o = (tile)^T W + bias, and adds the tile's column sums of o and of o*o to two 1 x 128 running totals that
  it zeroes at the first point. The two totals stay in their buffers from point to point (they are written back
  only after the last point), so what they hold after point t is defined by recursion on t; the tile of o depends
  on the point's own blocks only. Stated for any float instance.
-/
import proofs.«158969_j2714419331078_1_alg».proof.Proof.KRun
import proofs.«158969_j2714419331078_1_alg».proof.Proof.Gen.Kernel.Launch
import proofs.«158969_j2714419331078_1_alg».proof.Proof.Gen.Kernel.Skeleton
import proofs.«158969_j2714419331078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not (its block index does not move between fetches). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, fetched there or not (its block index does not move between fetches). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, fetched there or not (its block index does not move between fetches). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: "this is the first grid point", as the scalar chain over the grid coordinate. -/
abbrev cond0_0 (i : grid0.Coords) : Prop := (Scalar.cmpi .ne (Scalar.extui (Scalar.cmpi .eq (BitVec.ofNat 32 (i 0).val) 0#32)) 0#32) = 1#1
/-- It holds at point 0 only (decided over the 32 points). -/
theorem hcond0_0 : ∀ t : Fin cfg0.N, cond0_0 (grid0.coords t) ↔ t.val % 32 = 0 :=
  (by decide +kernel : ∀ t : Fin grid0.N, cond0_0 (grid0.coords t) ↔ t.val % 32 = 0)

abbrev VO0_3 : View sig .tc .vmem S8192x128 .f32 := (Memref.whole cc0_stg3_0 : Memref sig .tc .vmem S8192x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S12x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
end Region0

/-- The body's run in one case of its branch: the pieces its stores leave in the three output buffers (last first), with the
    proof that from whole buffers — the inputs at their contents — it runs to the continuation holding the inputs as they were
    and each output buffer with those pieces written. -/
structure RunA (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (x0 : Vec F S12x8192 .f32) (x1 : Vec F S12x128 .f32) (x2 : Vec F S1x128 .f32) where
  L3 : List (View.Piece (Elt F) S8192x128 .f32)
  L4 : List (View.Piece (Elt F) S1x128 .f32)
  L5 : List (View.Piece (Elt F) S1x128 .f32)
  run : ∀ (E : Set ℕ) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
      ⊢ wp frame (wpE (defs₀ (F := F)) Variants.none c none) E (cc0__k1_body i arg1 harg1 arg2 harg2 arg3 harg3 arg4 harg4 arg5 harg5 arg6 harg6) K

/-- The body's run in one case of its branch: the pieces its stores leave in the three output buffers (last first), with the
    proof that from whole buffers — the inputs at their contents — it runs to the continuation holding the inputs as they were
    and each output buffer with those pieces written. -/
structure RunB (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (x0 : Vec F S12x8192 .f32) (x1 : Vec F S12x128 .f32) (x2 : Vec F S1x128 .f32) (xo4 : Vec F S1x128 .f32) (xo5 : Vec F S1x128 .f32) where
  L3 : List (View.Piece (Elt F) S8192x128 .f32)
  L4 : List (View.Piece (Elt F) S1x128 .f32)
  L5 : List (View.Piece (Elt F) S1x128 .f32)
  run : ∀ (E : Set ℕ) (K : PUnit → sProp 𝕄),
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo4 ∗ owns (c : Thread nD τ) arg6 fullShare xo5
        ∗ (iprop(owns (c : Thread nD τ) arg1 fullShare x0 ∗ owns (c : Thread nD τ) arg2 fullShare x1 ∗ owns (c : Thread nD τ) arg3 fullShare x2
            ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
      ⊢ wp frame (wpE (defs₀ (F := F)) Variants.none c none) E (cc0__k1_body i arg1 harg1 arg2 harg2 arg3 harg3 arg4 harg4 arg5 harg5 arg6 harg6) K

set_option maxHeartbeats 4000000 in
/-- Case A (the first point): the totals are zeroed, then added to. -/
noncomputable def kernelRun0_A (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) :
    RunA (F := F) c i arg1 harg1 arg2 harg2 arg3 harg3 arg4 harg4 arg5 harg5 arg6 harg6 x0 x1 x2 := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- Case B (every later point): the totals found in the buffers are added to. -/
noncomputable def kernelRun0_B (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) :
    RunB (F := F) c i arg1 harg1 arg2 harg2 arg3 harg3 arg4 harg4 arg5 harg5 arg6 harg6 x0 x1 x2 xo4 xo5 := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.KRun

end
-- ==== Proof.BRegion1Run.lean ====
/-
  Region 1 of the program: the normalisation. At grid point t the body receives the t-th 8192 x 128 tile of the
  pre-activation o and four 1 x 128 rows (mean, inverse standard deviation, scale, shift) and writes
  max((o - mean) * inv * scale + shift, 0), row by row. Nothing is kept between points. Stated for any float instance.
-/
import proofs.«158969_j2714419331078_1_alg».proof.Proof.BRegion0Run

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S8192x128 .f32 := (Memref.whole cc1_stg5_0 : Memref sig .tc .vmem S8192x128 .f32).view
abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8192x128 .f32 := win1_5.stage (cfg1.slots t 5)
abbrev hs1_5 (t : Fin cfg1.N) : (ms1_5 t).IsWhole := hstage1_5 ((cfg1.slots t 5).cast nbuf1_5)
end Region1

set_option maxHeartbeats 4000000 in
/-- The body's run: the pieces its one store leaves in the output buffer, with the proof that from whole buffers — the five
    inputs at their contents, the output at anything — it runs to the continuation holding the inputs as they were and the
    output buffer with those pieces written. -/
noncomputable def kernelRun1 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) :
    { L5 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__k2_body i arg1 harg1 arg2 harg2 arg3 harg3 arg4 harg4 arg5 harg5 arg6 harg6) K } := by
  refine ⟨?_, fun E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.KRun

end
-- ==== Proof.BRegion0.lean ====
/-
  Region 0, continued: what the three output buffers hold after each grid point, the pipeline's proof data, and the body
  obligation at a generic point. The tile of o written at point t is a function of the point's blocks only; the two running
  totals after point t are, at t = 0, the first tile's column sums added to zero, and at t > 0 the tile's column sums added
  to the totals after point t - 1 (the buffers are not written back in between).
-/
import proofs.«158969_j2714419331078_1_alg».proof.Proof.BRegion1Run

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 3 tile its block, so they cover it. -/
theorem cover0_A_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S8192x128.Idx) :
    ∃ pc ∈ (kernelRun0_A c i arg1 harg1 arg2 harg2 arg3 harg3 arg4 harg4 arg5 harg5 arg6 harg6 hc0 x0 x1 x2).L3, y ∈ pc.1.set :=
  View.cover_of_tiledL (kernelRun0_A c i arg1 harg1 arg2 harg2 arg3 harg3 arg4 harg4 arg5 harg5 arg6 harg6 hc0 x0 x1 x2).L3 S8192x128.size (by sl_kernel_rfl) y

/-- What case A leaves in output 3's buffer: its pieces read back. -/
def out0_A_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S8192x128 .f32 :=
  VO0_3.read (Elt F) (VO0_3.writes (Elt F) VO0_3.junk (kernelRun0_A c i arg1 harg1 arg2 harg2 arg3 harg3 arg4 harg4 arg5 harg5 arg6 harg6 hc0 x0 x1 x2).L3)

/-- Case A's pieces for output 4 tile its block, so they cover it. -/
theorem cover0_A_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S1x128.Idx) :
    ∃ pc ∈ (kernelRun0_A c i arg1 harg1 arg2 harg2 arg3 harg3 arg4 harg4 arg5 harg5 arg6 harg6 hc0 x0 x1 x2).L4, y ∈ pc.1.set :=
  View.cover_of_tiledL (kernelRun0_A c i arg1 harg1 arg2 harg2 arg3 harg3 arg4 harg4 arg5 harg5 arg6 harg6 hc0 x0 x1 x2).L4 S1x128.size (by sl_kernel_rfl) y

/-- What case A leaves in output 4's buffer: its pieces read back. -/
def out0_A_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S1x128 .f32 :=
  VO0_4.read (Elt F) (VO0_4.writes (Elt F) VO0_4.junk (kernelRun0_A c i arg1 harg1 arg2 harg2 arg3 harg3 arg4 harg4 arg5 harg5 arg6 harg6 hc0 x0 x1 x2).L4)

/-- Case A's pieces for output 5 tile its block, so they cover it. -/
theorem cover0_A_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) (y : S1x128.Idx) :
    ∃ pc ∈ (kernelRun0_A c i arg1 harg1 arg2 harg2 arg3 harg3 arg4 harg4 arg5 harg5 arg6 harg6 hc0 x0 x1 x2).L5, y ∈ pc.1.set :=
  View.cover_of_tiledL (kernelRun0_A c i arg1 harg1 arg2 harg2 arg3 harg3 arg4 harg4 arg5 harg5 arg6 harg6 hc0 x0 x1 x2).L5 S1x128.size (by sl_kernel_rfl) y

/-- What case A leaves in output 5's buffer: its pieces read back. -/
def out0_A_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S12x8192 .f32) (x1 : Vec F S12x128 .f32) (x2 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 hc0 x0 x1 x2).L5)

/-- Case B's pieces for output 3 tile its block, so they cover it. -/
theorem cover0_B_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S8192x128.Idx) :
    ∃ pc ∈ (kernelRun0_B c i arg1 harg1 arg2 harg2 arg3 harg3 arg4 harg4 arg5 harg5 arg6 harg6 hc0 x0 x1 x2 xo4 xo5).L3, y ∈ pc.1.set :=
  View.cover_of_tiledL (kernelRun0_B c i arg1 harg1 arg2 harg2 arg3 harg3 arg4 harg4 arg5 harg5 arg6 harg6 hc0 x0 x1 x2 xo4 xo5).L3 S8192x128.size (by sl_kernel_rfl) y

/-- What case B leaves in output 3's buffer: its pieces read back. -/
def out0_B_3 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S8192x128 .f32 :=
  VO0_3.read (Elt F) (VO0_3.writes (Elt F) VO0_3.junk (kernelRun0_B c i arg1 harg1 arg2 harg2 arg3 harg3 arg4 harg4 arg5 harg5 arg6 harg6 hc0 x0 x1 x2 xo4 xo5).L3)

/-- Case B's pieces for output 4 tile its block, so they cover it. -/
theorem cover0_B_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).L4, y ∈ pc.1.set :=
  View.cover_of_tiledL (kernelRun0_B c i arg1 harg1 arg2 harg2 arg3 harg3 arg4 harg4 arg5 harg5 arg6 harg6 hc0 x0 x1 x2 xo4 xo5).L4 S1x128.size (by sl_kernel_rfl) y

/-- What case B leaves in output 4's buffer: its pieces read back. -/
def out0_B_4 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 hc0 x0 x1 x2 xo4 xo5).L4)

/-- Case B's pieces for output 5 tile its block, so they cover it. -/
theorem cover0_B_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).L5, y ∈ pc.1.set :=
  View.cover_of_tiledL (kernelRun0_B c i arg1 harg1 arg2 harg2 arg3 harg3 arg4 harg4 arg5 harg5 arg6 harg6 hc0 x0 x1 x2 xo4 xo5).L5 S1x128.size (by sl_kernel_rfl) y

/-- What case B leaves in output 5's buffer: its pieces read back. -/
def out0_B_5 (c : Dev nD) (i : grid0.Coords) (arg1 : Memref sig .tc .vmem S12x8192 .f32) (harg1 : arg1.IsWhole) (arg2 : Memref sig .tc .vmem S12x128 .f32) (harg2 : arg2.IsWhole) (arg3 : Memref sig .tc .vmem S1x128 .f32) (harg3 : arg3.IsWhole) (arg4 : Memref sig .tc .vmem S8192x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S12x8192 .f32) (x1 : Vec F S12x128 .f32) (x2 : Vec F S1x128 .f32) (xo4 : Vec F S1x128 .f32) (xo5 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 hc0 x0 x1 x2 xo4 xo5).L5)

section Region0
variable (V : (c : Dev nD) → (b : Ref sig .tc) → Buf (Elt F) ((c : Thread nD τ).loc b))

/-- THE ACCUMULATION: what the three outputs' buffers hold after the body at position n — the tile of o, and the two running
    totals: at the first point the tile's sums added to zero, later the tile's sums added to what position n - 1 left. -/
def outsAt0 (c : Dev nD) : (n : ℕ) → n < cfg0.N → Vec F S8192x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- The point before t (t itself at t = 0, where it is not used). -/
abbrev prevAt0 (c : Dev nD) (t : Fin cfg0.N) : Vec F S8192x128 .f32 × Vec F S1x128 .f32 × Vec F S1x128 .f32 :=
  outsAt0 V c (t.val - 1) (Nat.lt_of_le_of_lt (Nat.sub_le _ _) t.isLt)

/-- outsAt0 at the first point: case A's contents. -/
theorem outsAt0_A (c : Dev nD) (t : Fin cfg0.N) (h0 : t.val % 32 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) := by
  obtain ⟨n, hn⟩ := t
  cases n with
  | zero => exact rfl
  | succ n => exact (dif_pos h0).trans rfl

/-- outsAt0 at a later point: case B's contents over what the point before left. -/
theorem outsAt0_B (c : Dev nD) (t : Fin cfg0.N) (h0 : ¬t.val % 32 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (prevAt0 V c t).2.1 (prevAt0 V c t).2.2) := by
  obtain ⟨n, hn⟩ := t
  cases n with
  | zero => exact (by exfalso; (try dsimp only at h0); exact absurd (Nat.zero_mod _) h0)
  | succ n => exact (dif_neg h0).trans rfl

/-- The proof data of pipeline 0 on core c: the arrays as the region finds them; after the body at point t each input's buffer
    at its block and the outputs' at outsAt0; the class invariant (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point each running total's buffer holds what the body left at the point before: it is not written back in
    between (the write-back happens after the last point only). -/
theorem before0_4_B (c : Dev nD) (t : Fin cfg0.N) (h0 : ¬t.val % 32 = 0) (d) :
    (dat0 V c).before 4 t d = (prevAt0 V c t).2.1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 32 = 0) (d) :
    (dat0 V c).before 5 t d = (prevAt0 V c t).2.2 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point: the inputs' buffers hold their blocks; the closed form says which case the point is in; at a later
    point the totals' buffers hold what the point before left; so that case's run applies. The invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 32 := lt_of_lt_of_eq t.isLt (show cfg0.N = 32 from N_0)
  by_cases h0 : t.val % 32 = 0
  · rw [outsAt0_A V c t h0]
    dsimp only
    unfold out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t)).run Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    · unfold owns; iexists _; isplitr
      swap; · iexact H5
      ipureintro; exact View.read_writes_of_cover _ _ _ _ _ (cover0_A_5 c _ _ _ _ _ _ _ _ _ _ _ _ _ _ _ _ _)
  · rw [outsAt0_B V c t h0]
    dsimp only
    simp only [before0_4_B V c t h0, before0_5_B V c t h0]
    unfold out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) _ _).run Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    · unfold owns; iexists _; isplitr
      swap; · iexact H5
      ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.KRun

end
-- ==== Proof.BRegion1.lean ====
/-
  Region 1, continued: what the output buffer holds after each grid point (a function of the point's five input blocks
  only), the pipeline's proof data, and the body obligation at a generic point.
-/
import proofs.«158969_j2714419331078_1_alg».proof.Proof.BRegion0

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's pieces for the output tile its block, so they cover it. -/
theorem cover1_5 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) (y : S8192x128.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S8192x128.size (by sl_kernel_rfl) y

/-- What the body leaves in the output buffer: its pieces read back. -/
def out1_5 (c : Dev nD) (i : grid1.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S8192x128 .f32) (harg6 : arg6.IsWhole) (x0 : Vec F S8192x128 .f32) (x1 : Vec F S1x128 .f32) (x2 : Vec F S1x128 .f32) (x3 : Vec F S1x128 .f32) (x4 : Vec F S1x128 .f32) : Vec F S8192x128 .f32 :=
  VO1_5.read (Elt F) (VO1_5.writes (Elt F) VO1_5.junk (kernelRun1 c i arg1 harg1 arg2 harg2 arg3 harg3 arg4 harg4 arg5 harg5 arg6 harg6 x0 x1 x2 x3 x4).1)

section Region1
variable (V : (c : Dev nD) → (b : Ref sig .tc) → Buf (Elt F) ((c : Thread nD τ).loc b))

/-- The proof data of pipeline 1 on core c: the arrays as the region finds them; after the body at point t each input's buffer
    at its block and the output's at the body's result on the point's blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
/-- The body at any point: the inputs' buffers hold their blocks, so the run applies; the invariant and the core's debts pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.KRun

end
-- ==== Proof.BRun.lean ====
/-
  The run of the whole program, for any float instance: @main is five stretches of host operations (the graph propagation
  and the stacking of the four Chebyshev feature matrices), region 0 (the dense combine with its running column sums),
  a stretch (mean, variance, inverse standard deviation), region 1 (normalise and clamp at zero), and a last stretch
  (the final re-layout). The buffer contents at each boundary are a fold from the launch memory: a stretch applies its
  operations in order, a region replaces its windows' arrays by what its write-backs leave and keeps every other buffer.
  No stretch and no region writes an argument, so each argument is read back through the fold to its launch contents;
  the result buffer ends at the last fold's value.
-/
import proofs.«158969_j2714419331078_1_alg».proof.Proof.BRegion1

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- Region 0's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- Region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Region 1's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- Region 1's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- The end. -/
abbrev W9 : Dev nD → Valuation τ sig (Elt F) := fun c => StableHlo.after hostOps2 (W8 m ρ c)

/-! ## What the host stretches write -/

set_option maxHeartbeats 4000000 in
theorem hostOps0_fresh : (hostOps0 : List (HloOp τ sig (Elt F))).Forall fun op => op.fresh = ∅ := by
  simp only [List.Forall]; repeat' constructor
/-- The references this stretch's operations write. -/
abbrev hostOps0_Wr : List (Ref sig .tc) := [main_v0, main_v1, main_v2, main_v3, main_v4, main_v5, main_v6, main_cst]
set_option maxHeartbeats 4000000 in
theorem hostOps0_writes : (hostOps0 : List (HloOp τ sig (Elt F))).Forall fun op => op.writes ⊆ (hostOps0_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ hostOps0_Wr) :
    W1 m ρ c (Proc.devRef .tc r) = W0 m ρ c (Proc.devRef .tc r) :=
  StableHlo.after_of_writes_sub hostOps0 _ hostOps0_writes h

set_option maxHeartbeats 4000000 in
theorem hostOps0_1_fresh : (hostOps0_1 : List (HloOp τ sig (Elt F))).Forall fun op => op.fresh = ∅ := by
  simp only [List.Forall]; repeat' constructor
/-- The references this stretch's operations write. -/
abbrev hostOps0_1_Wr : List (Ref sig .tc) := [main_call0_v0, main_call0_v1, main_v7]
set_option maxHeartbeats 4000000 in
theorem hostOps0_1_writes : (hostOps0_1 : List (HloOp τ sig (Elt F))).Forall fun op => op.writes ⊆ (hostOps0_1_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W2_of (c : Dev nD) (r : Ref sig .tc) (h : r ∉ hostOps0_1_Wr) :
    W2 m ρ c (Proc.devRef .tc r) = W1 m ρ c (Proc.devRef .tc r) :=
  StableHlo.after_of_writes_sub hostOps0_1 _ hostOps0_1_writes h

set_option maxHeartbeats 4000000 in
theorem hostOps0_2_fresh : (hostOps0_2 : List (HloOp τ sig (Elt F))).Forall fun op => op.fresh = ∅ := by
  simp only [List.Forall]; repeat' constructor
/-- The references this stretch's operations write. -/
abbrev hostOps0_2_Wr : List (Ref sig .tc) := [main_cst_0, main_v8, main_v9, main_v10, main_cst_1, main_v11, main_v12, main_cst_2, main_v13, main_v14, main_v15, main_cst_3]
set_option maxHeartbeats 4000000 in
theorem hostOps0_2_writes : (hostOps0_2 : List (HloOp τ sig (Elt F))).Forall fun op => op.writes ⊆ (hostOps0_2_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W3_of (c : Dev nD) (r : Ref sig .tc) (h : r ∉ hostOps0_2_Wr) :
    W3 m ρ c (Proc.devRef .tc r) = W2 m ρ c (Proc.devRef .tc r) :=
  StableHlo.after_of_writes_sub hostOps0_2 _ hostOps0_2_writes h

set_option maxHeartbeats 4000000 in
theorem hostOps0_3_fresh : (hostOps0_3 : List (HloOp τ sig (Elt F))).Forall fun op => op.fresh = ∅ := by
  simp only [List.Forall]; repeat' constructor
/-- The references this stretch's operations write. -/
abbrev hostOps0_3_Wr : List (Ref sig .tc) := [main_call1_v0, main_call1_v1, main_v16]
set_option maxHeartbeats 4000000 in
theorem hostOps0_3_writes : (hostOps0_3 : List (HloOp τ sig (Elt F))).Forall fun op => op.writes ⊆ (hostOps0_3_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W4_of (c : Dev nD) (r : Ref sig .tc) (h : r ∉ hostOps0_3_Wr) :
    W4 m ρ c (Proc.devRef .tc r) = W3 m ρ c (Proc.devRef .tc r) :=
  StableHlo.after_of_writes_sub hostOps0_3 _ hostOps0_3_writes h

set_option maxHeartbeats 4000000 in
theorem hostOps0_4_fresh : (hostOps0_4 : List (HloOp τ sig (Elt F))).Forall fun op => op.fresh = ∅ := by
  simp only [List.Forall]; repeat' constructor
/-- The references this stretch's operations write. -/
abbrev hostOps0_4_Wr : List (Ref sig .tc) := [main_c, main_v17, main_v18, main_c_4, main_v19, main_v20, main_v21, main_v22, main_v23, main_v24, main_v25, main_c_5, main_v26, main_v27, main_c_6, main_v28, main_v29, main_v30, main_v31, main_v32, main_v33, main_v34, main_c_7, main_v35, main_v36, main_c_8, main_v37, main_v38, main_v39, main_v40, main_v41, main_v42, main_v43, main_cst_9, main_v44, main_v45, main_v46, main_v47, main_c_10, main_v48, main_v49, main_c_11, main_v50, main_v51, main_v52, main_v53, main_v54, main_v55, main_v56, main_cst_12, main_v57, main_v58, main_v59, main_cst_13, main_v60, main_v61, main_v62, main_v63, main_c_14, main_v64, main_v65, main_c_15, main_v66, main_v67, main_v68, main_v69, main_v70, main_v71, main_v72, main_cst_16, main_v73, main_v74, main_v75, main_cst_17, main_v76, main_v77, main_v78, main_v79, main_v80, main_v81, main_v82, main_v83, main_v84, main_v85, main_v86, main_v87]
set_option maxHeartbeats 4000000 in
theorem hostOps0_4_writes : (hostOps0_4 : List (HloOp τ sig (Elt F))).Forall fun op => op.writes ⊆ (hostOps0_4_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W5_of (c : Dev nD) (r : Ref sig .tc) (h : r ∉ hostOps0_4_Wr) :
    W5 m ρ c (Proc.devRef .tc r) = W4 m ρ c (Proc.devRef .tc r) :=
  StableHlo.after_of_writes_sub hostOps0_4 _ hostOps0_4_writes h

set_option maxHeartbeats 4000000 in
theorem hostOps1_fresh : (hostOps1 : List (HloOp τ sig (Elt F))).Forall fun op => op.fresh = ∅ := by
  simp only [List.Forall]; repeat' constructor
/-- The references this stretch's operations write. -/
abbrev hostOps1_Wr : List (Ref sig .tc) := [main_cst_18, main_v89, main_v90, main_cst_19, main_v91, main_v92, main_v93, main_v94, main_cst_20, main_v95, main_v96, main_v97]
set_option maxHeartbeats 4000000 in
theorem hostOps1_writes : (hostOps1 : List (HloOp τ sig (Elt F))).Forall fun op => op.writes ⊆ (hostOps1_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W7_of (c : Dev nD) (r : Ref sig .tc) (h : r ∉ hostOps1_Wr) :
    W7 m ρ c (Proc.devRef .tc r) = W6 m ρ c (Proc.devRef .tc r) :=
  StableHlo.after_of_writes_sub hostOps1 _ hostOps1_writes h

set_option maxHeartbeats 4000000 in
theorem hostOps2_fresh : (hostOps2 : List (HloOp τ sig (Elt F))).Forall fun op => op.fresh = ∅ := by
  simp only [List.Forall]; repeat' constructor
/-- The references this stretch's operations write. -/
abbrev hostOps2_Wr : List (Ref sig .tc) := [main_v99, main_v100]
set_option maxHeartbeats 4000000 in
theorem hostOps2_writes : (hostOps2 : List (HloOp τ sig (Elt F))).Forall fun op => op.writes ⊆ (hostOps2_Wr.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W9_of (c : Dev nD) (r : Ref sig .tc) (h : r ∉ hostOps2_Wr) :
    W9 m ρ c (Proc.devRef .tc r) = W8 m ρ c (Proc.devRef .tc r) :=
  StableHlo.after_of_writes_sub hostOps2 _ hostOps2_writes h

/-! ## The arguments end as launched -/

theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <| (W7_of m ρ c main_arg0 (by decide)).trans <|
  (W6_of_ne m ρ c main_arg0 (by decide)).trans <| (W5_of m ρ c main_arg0 (by decide)).trans <| (W4_of m ρ c main_arg0 (by decide)).trans <|
  (W3_of m ρ c main_arg0 (by decide)).trans <| (W2_of m ρ c main_arg0 (by decide)).trans <| (W1_of m ρ c main_arg0 (by decide)).trans rfl

theorem W9_main_arg1 (c : Dev nD) : W9 m ρ c (Proc.devRef .tc main_arg1) = m ((c : Thread nD τ).loc main_arg1) :=
  (W9_of m ρ c main_arg1 (by decide)).trans <| (W8_of_ne m ρ c main_arg1 (by decide)).trans <| (W7_of m ρ c main_arg1 (by decide)).trans <|
  (W6_of_ne m ρ c main_arg1 (by decide)).trans <| (W5_of m ρ c main_arg1 (by decide)).trans <| (W4_of m ρ c main_arg1 (by decide)).trans <|
  (W3_of m ρ c main_arg1 (by decide)).trans <| (W2_of m ρ c main_arg1 (by decide)).trans <| (W1_of m ρ c main_arg1 (by decide)).trans rfl

theorem W9_main_arg2 (c : Dev nD) : W9 m ρ c (Proc.devRef .tc main_arg2) = m ((c : Thread nD τ).loc main_arg2) :=
  (W9_of m ρ c main_arg2 (by decide)).trans <| (W8_of_ne m ρ c main_arg2 (by decide)).trans <| (W7_of m ρ c main_arg2 (by decide)).trans <|
  (W6_of_ne m ρ c main_arg2 (by decide)).trans <| (W5_of m ρ c main_arg2 (by decide)).trans <| (W4_of m ρ c main_arg2 (by decide)).trans <|
  (W3_of m ρ c main_arg2 (by decide)).trans <| (W2_of m ρ c main_arg2 (by decide)).trans <| (W1_of m ρ c main_arg2 (by decide)).trans rfl

theorem W9_main_arg3 (c : Dev nD) : W9 m ρ c (Proc.devRef .tc main_arg3) = m ((c : Thread nD τ).loc main_arg3) :=
  (W9_of m ρ c main_arg3 (by decide)).trans <| (W8_of_ne m ρ c main_arg3 (by decide)).trans <| (W7_of m ρ c main_arg3 (by decide)).trans <|
  (W6_of_ne m ρ c main_arg3 (by decide)).trans <| (W5_of m ρ c main_arg3 (by decide)).trans <| (W4_of m ρ c main_arg3 (by decide)).trans <|
  (W3_of m ρ c main_arg3 (by decide)).trans <| (W2_of m ρ c main_arg3 (by decide)).trans <| (W1_of m ρ c main_arg3 (by decide)).trans rfl

theorem W9_main_arg4 (c : Dev nD) : W9 m ρ c (Proc.devRef .tc main_arg4) = m ((c : Thread nD τ).loc main_arg4) :=
  (W9_of m ρ c main_arg4 (by decide)).trans <| (W8_of_ne m ρ c main_arg4 (by decide)).trans <| (W7_of m ρ c main_arg4 (by decide)).trans <|
  (W6_of_ne m ρ c main_arg4 (by decide)).trans <| (W5_of m ρ c main_arg4 (by decide)).trans <| (W4_of m ρ c main_arg4 (by decide)).trans <|
  (W3_of m ρ c main_arg4 (by decide)).trans <| (W2_of m ρ c main_arg4 (by decide)).trans <| (W1_of m ρ c main_arg4 (by decide)).trans rfl

theorem W9_main_arg5 (c : Dev nD) : W9 m ρ c (Proc.devRef .tc main_arg5) = m ((c : Thread nD τ).loc main_arg5) :=
  (W9_of m ρ c main_arg5 (by decide)).trans <| (W8_of_ne m ρ c main_arg5 (by decide)).trans <| (W7_of m ρ c main_arg5 (by decide)).trans <|
  (W6_of_ne m ρ c main_arg5 (by decide)).trans <| (W5_of m ρ c main_arg5 (by decide)).trans <| (W4_of m ρ c main_arg5 (by decide)).trans <|
  (W3_of m ρ c main_arg5 (by decide)).trans <| (W2_of m ρ c main_arg5 (by decide)).trans <| (W1_of m ρ c main_arg5 (by decide)).trans rfl

theorem W9_main_arg6 (c : Dev nD) : W9 m ρ c (Proc.devRef .tc main_arg6) = m ((c : Thread nD τ).loc main_arg6) :=
  (W9_of m ρ c main_arg6 (by decide)).trans <| (W8_of_ne m ρ c main_arg6 (by decide)).trans <| (W7_of m ρ c main_arg6 (by decide)).trans <|
  (W6_of_ne m ρ c main_arg6 (by decide)).trans <| (W5_of m ρ c main_arg6 (by decide)).trans <| (W4_of m ρ c main_arg6 (by decide)).trans <|
  (W3_of m ρ c main_arg6 (by decide)).trans <| (W2_of m ρ c main_arg6 (by decide)).trans <| (W1_of m ρ c main_arg6 (by decide)).trans rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-- The last host stretch's thread state regrouped: the buffers and the generator register on one side, the debts on the other. -/
theorem last_post (c : Dev nD) :
    (iprop(StableHlo.held (c : Thread nD τ) (Pipeline.ucRefs τ sig) (W9 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at the entry contents, left at the exit contents. Its
    arrays are split out of the unscoped buffers and put back at what the pipeline leaves; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry contents, left at the exit contents. Its
    arrays are split out of the unscoped buffers and put back at what the pipeline leaves; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]

set_option maxHeartbeats 4000000 in
/-- @main is the run of the segments. -/
theorem main_run (c : Dev nD) : main (F := F) c = Pipeline.Seg.run (segs m ρ) := by
  rw [main_chain c, Pipeline.Seg.run_eq_chain]; rfl

set_option maxHeartbeats 4000000 in
set_option backward.isDefEq.respectTransparency.types false in
/-- THE RUN: at the compiled mesh, from any memory with zero counters, every weakly fair execution of @main terminates,
    nothing faulting, and every final state has the result buffer at the last boundary's contents and the seven argument
    arrays as launched. -/
theorem run : θ_run defs (onTc (τ := τ) (main (F := F))) ⟨m, fun _ => 0, ρ⟩ (fun r => ∀ c : Dev nD,
      r.2.mem ((c.tc : Thread nD τ).loc main_v100) = W9 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v100 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.Kernel.KRun

end
-- ==== Proof.RefRun.lean ====
/- The run of the idealized reference program read back as a pure term.

   The program's @main is a straight line of 170 host operations (the four module-local functions' operations standing in
   their calls' places): `ops` lists them in order, in eight consecutive stretches, and `main_eq` says @main is that line.
   `run` then says that every weakly fair execution terminates with the result array at `out` of the argument arrays —
   a pure term built stage by stage below (the graph propagation, the four weight products, the batch statistics, the
   normalisation) — and with the seven argument arrays unchanged. -/
import proofs.«158969_j2714419331078_1_alg».proof.Proof.Gen.ReferenceIdeal
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's operations 1 … 26 of 170: the node features re-laid, the two edge index rows, the edge weights with self-loops zeroed, the weighted degree and its inverse square root. -/
abbrev opsA : List (HloOp τ sig (Elt F)) :=
  [ unary main_arg0 main_v0 ((transpose S8x32768x3 [0, 2, 1] · transposes_S8x3x32768_S8x32768x3_0_2_1) : (⟨S8x3x32768, .f32⟩ : BufTy).Contents (Elt F) → (⟨S8x32768x3, .f32⟩ : BufTy).Contents (Elt F)),
    reshape main_v0 main_v1 rfl shapeCasts_S8x32768x3_S262144x3,
    unary main_arg1 main_v2 ((extractStridedSlice S1x4194304 ![0, 0] · slices_S2x4194304_S1x4194304_0_0) : (⟨S2x4194304, .i32⟩ : BufTy).Contents (Elt F) → (⟨S1x4194304, .i32⟩ : BufTy).Contents (Elt F)),
    reshape main_v2 main_v3 rfl shapeCasts_S1x4194304_S4194304,
    unary main_arg1 main_v4 ((extractStridedSlice S1x4194304 ![1, 0] · slices_S2x4194304_S1x4194304_1_0) : (⟨S2x4194304, .i32⟩ : BufTy).Contents (Elt F) → (⟨S1x4194304, .i32⟩ : BufTy).Contents (Elt F)),
    reshape main_v4 main_v5 rfl shapeCasts_S1x4194304_S4194304,
    binary main_v3 main_v5 main_v6 (cmpi .eq : (⟨S4194304, .i32⟩ : BufTy).Contents (Elt F) → (⟨S4194304, .i32⟩ : BufTy).Contents (Elt F) → (⟨S4194304, .i1⟩ : BufTy).Contents (Elt F)),
    nullary main_cst (constant S_ .f32 0x00000000#32),
    TRef.unary (TRef.of (T := ⟨S_, .f32⟩) main_cst) main_call0.v0 id,
    TRef.unary main_call0.v0 main_call0.v1 (broadcastInDim S4194304 ![] bcast_S_S4194304),
    TRef.ternary (TRef.of (T := ⟨S4194304, .i1⟩) main_v6) main_call0.v1 (TRef.of (T := ⟨S4194304, .f32⟩) main_arg2) main_call0.v2 select,
    nullary main_cst_0 (constant S_ .f32 0x00000000#32),
    unary main_cst_0 main_v8 (broadcastInDim S262144 ![] bcast_S_S262144 : (⟨S_, .f32⟩ : BufTy).Contents (Elt F) → (⟨S262144, .f32⟩ : BufTy).Contents (Elt F)),
    unary main_v3 main_v9 (broadcastInDim S4194304x1 ![0] bcast_S4194304_S4194304x1_0 : (⟨S4194304, .i32⟩ : BufTy).Contents (Elt F) → (⟨S4194304x1, .i32⟩ : BufTy).Contents (Elt F)),
    ternary main_v8 main_v9 main_v7 main_v10 ((fun x i u => Host.scatterAdd scatter_S262144_S4194304x1_S4194304_n_0_0_1 x i u) : (⟨S262144, .f32⟩ : BufTy).Contents (Elt F) → (⟨S4194304x1, .i32⟩ : BufTy).Contents (Elt F) → (⟨S4194304, .f32⟩ : BufTy).Contents (Elt F) → (⟨S262144, .f32⟩ : BufTy).Contents (Elt F)),
    nullary main_cst_1 (constant S_ .f32 0x00000000#32),
    unary main_cst_1 main_v11 (broadcastInDim S262144 ![] bcast_S_S262144 : (⟨S_, .f32⟩ : BufTy).Contents (Elt F) → (⟨S262144, .f32⟩ : BufTy).Contents (Elt F)),
    binary main_v10 main_v11 main_v12 (cmpf .ogt : (⟨S262144, .f32⟩ : BufTy).Contents (Elt F) → (⟨S262144, .f32⟩ : BufTy).Contents (Elt F) → (⟨S262144, .i1⟩ : BufTy).Contents (Elt F)),
    nullary main_cst_2 (constant S_ .f32 0x2B8CBCCC#32),
    unary main_cst_2 main_v13 (broadcastInDim S262144 ![] bcast_S_S262144 : (⟨S_, .f32⟩ : BufTy).Contents (Elt F) → (⟨S262144, .f32⟩ : BufTy).Contents (Elt F)),
    binary main_v10 main_v13 main_v14 (maximumf : (⟨S262144, .f32⟩ : BufTy).Contents (Elt F) → (⟨S262144, .f32⟩ : BufTy).Contents (Elt F) → (⟨S262144, .f32⟩ : BufTy).Contents (Elt F)),
    unary main_v14 main_v15 (Host.rsqrt : (⟨S262144, .f32⟩ : BufTy).Contents (Elt F) → (⟨S262144, .f32⟩ : BufTy).Contents (Elt F)),
    nullary main_cst_3 (constant S_ .f32 0x00000000#32),
    TRef.unary (TRef.of (T := ⟨S_, .f32⟩) main_cst_3) main_call1.v0 id,
    TRef.unary main_call1.v0 main_call1.v1 (broadcastInDim S262144 ![] bcast_S_S262144),
    TRef.ternary (TRef.of (T := ⟨S262144, .i1⟩) main_v12) (TRef.of (T := ⟨S262144, .f32⟩) main_v15) main_call1.v1 main_call1.v2 select ]

/-- @main's operations 27 … 47 of 170: the two index wraps, the gathers of the inverse square root degree at both ends of every edge, the normalised edge weight. -/
abbrev opsB : List (HloOp τ sig (Elt F)) :=
  [ nullary main_c (constantI S_ 32 0#32),
    unary main_c main_v17 (broadcastInDim S4194304 ![] bcast_S_S4194304 : (⟨S_, .i32⟩ : BufTy).Contents (Elt F) → (⟨S4194304, .i32⟩ : BufTy).Contents (Elt F)),
    binary main_v3 main_v17 main_v18 (cmpi .slt : (⟨S4194304, .i32⟩ : BufTy).Contents (Elt F) → (⟨S4194304, .i32⟩ : BufTy).Contents (Elt F) → (⟨S4194304, .i1⟩ : BufTy).Contents (Elt F)),
    nullary main_c_4 (constantI S_ 32 262144#32),
    unary main_c_4 main_v19 (broadcastInDim S4194304 ![] bcast_S_S4194304 : (⟨S_, .i32⟩ : BufTy).Contents (Elt F) → (⟨S4194304, .i32⟩ : BufTy).Contents (Elt F)),
    binary main_v3 main_v19 main_v20 (addi : (⟨S4194304, .i32⟩ : BufTy).Contents (Elt F) → (⟨S4194304, .i32⟩ : BufTy).Contents (Elt F) → (⟨S4194304, .i32⟩ : BufTy).Contents (Elt F)),
    ternary main_v18 main_v20 main_v3 main_v21 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v21 main_v22 (broadcastInDim S4194304x1 ![0] bcast_S4194304_S4194304x1_0 : (⟨S4194304, .i32⟩ : BufTy).Contents (Elt F) → (⟨S4194304x1, .i32⟩ : BufTy).Contents (Elt F)),
    binary main_v16 main_v22 main_v23 ((fun x i => Host.gather gather_S262144_S4194304x1_S4194304_n_0_n_n_0_1_1 x i) : (⟨S262144, .f32⟩ : BufTy).Contents (Elt F) → (⟨S4194304x1, .i32⟩ : BufTy).Contents (Elt F) → (⟨S4194304, .f32⟩ : BufTy).Contents (Elt F)),
    unary main_v23 main_v24 (Host.negf : (⟨S4194304, .f32⟩ : BufTy).Contents (Elt F) → (⟨S4194304, .f32⟩ : BufTy).Contents (Elt F)),
    binary main_v24 main_v7 main_v25 (mulf : (⟨S4194304, .f32⟩ : BufTy).Contents (Elt F) → (⟨S4194304, .f32⟩ : BufTy).Contents (Elt F) → (⟨S4194304, .f32⟩ : BufTy).Contents (Elt F)),
    nullary main_c_5 (constantI S_ 32 0#32),
    unary main_c_5 main_v26 (broadcastInDim S4194304 ![] bcast_S_S4194304 : (⟨S_, .i32⟩ : BufTy).Contents (Elt F) → (⟨S4194304, .i32⟩ : BufTy).Contents (Elt F)),
    binary main_v5 main_v26 main_v27 (cmpi .slt : (⟨S4194304, .i32⟩ : BufTy).Contents (Elt F) → (⟨S4194304, .i32⟩ : BufTy).Contents (Elt F) → (⟨S4194304, .i1⟩ : BufTy).Contents (Elt F)),
    nullary main_c_6 (constantI S_ 32 262144#32),
    unary main_c_6 main_v28 (broadcastInDim S4194304 ![] bcast_S_S4194304 : (⟨S_, .i32⟩ : BufTy).Contents (Elt F) → (⟨S4194304, .i32⟩ : BufTy).Contents (Elt F)),
    binary main_v5 main_v28 main_v29 (addi : (⟨S4194304, .i32⟩ : BufTy).Contents (Elt F) → (⟨S4194304, .i32⟩ : BufTy).Contents (Elt F) → (⟨S4194304, .i32⟩ : BufTy).Contents (Elt F)),
    ternary main_v27 main_v29 main_v5 main_v30 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v30 main_v31 (broadcastInDim S4194304x1 ![0] bcast_S4194304_S4194304x1_0 : (⟨S4194304, .i32⟩ : BufTy).Contents (Elt F) → (⟨S4194304x1, .i32⟩ : BufTy).Contents (Elt F)),
    binary main_v16 main_v31 main_v32 ((fun x i => Host.gather gather_S262144_S4194304x1_S4194304_n_0_n_n_0_1_1 x i) : (⟨S262144, .f32⟩ : BufTy).Contents (Elt F) → (⟨S4194304x1, .i32⟩ : BufTy).Contents (Elt F) → (⟨S4194304, .f32⟩ : BufTy).Contents (Elt F)),
    binary main_v25 main_v32 main_v33 (mulf : (⟨S4194304, .f32⟩ : BufTy).Contents (Elt F) → (⟨S4194304, .f32⟩ : BufTy).Contents (Elt F) → (⟨S4194304, .f32⟩ : BufTy).Contents (Elt F)) ]

/-- @main's operations 48 … 64 of 170: the first weight slice and product, and the first propagation up to its messages and the zero array they are added into. -/
abbrev opsC : List (HloOp τ sig (Elt F)) :=
  [ unary main_arg3 main_v34 ((extractStridedSlice S1x3x128 ![0, 0, 0] · slices_S4x3x128_S1x3x128_0_0_0) : (⟨S4x3x128, .f32⟩ : BufTy).Contents (Elt F) → (⟨S1x3x128, .f32⟩ : BufTy).Contents (Elt F)),
    reshape main_v34 main_v35 rfl shapeCasts_S1x3x128_S3x128,
    binary main_v1 main_v35 main_v36 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    unary main_v33 main_v37 (broadcastInDim S4194304x1 ![0] bcast_S4194304_S4194304x1_0 : (⟨S4194304, .f32⟩ : BufTy).Contents (Elt F) → (⟨S4194304x1, .f32⟩ : BufTy).Contents (Elt F)),
    nullary main_c_7 (constantI S_ 32 0#32),
    unary main_c_7 main_v38 (broadcastInDim S4194304 ![] bcast_S_S4194304 : (⟨S_, .i32⟩ : BufTy).Contents (Elt F) → (⟨S4194304, .i32⟩ : BufTy).Contents (Elt F)),
    binary main_v3 main_v38 main_v39 (cmpi .slt : (⟨S4194304, .i32⟩ : BufTy).Contents (Elt F) → (⟨S4194304, .i32⟩ : BufTy).Contents (Elt F) → (⟨S4194304, .i1⟩ : BufTy).Contents (Elt F)),
    nullary main_c_8 (constantI S_ 32 262144#32),
    unary main_c_8 main_v40 (broadcastInDim S4194304 ![] bcast_S_S4194304 : (⟨S_, .i32⟩ : BufTy).Contents (Elt F) → (⟨S4194304, .i32⟩ : BufTy).Contents (Elt F)),
    binary main_v3 main_v40 main_v41 (addi : (⟨S4194304, .i32⟩ : BufTy).Contents (Elt F) → (⟨S4194304, .i32⟩ : BufTy).Contents (Elt F) → (⟨S4194304, .i32⟩ : BufTy).Contents (Elt F)),
    ternary main_v39 main_v41 main_v3 main_v42 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v42 main_v43 (broadcastInDim S4194304x1 ![0] bcast_S4194304_S4194304x1_0 : (⟨S4194304, .i32⟩ : BufTy).Contents (Elt F) → (⟨S4194304x1, .i32⟩ : BufTy).Contents (Elt F)),
    binary main_v1 main_v43 main_v44 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    unary main_v37 main_v45 (broadcastInDim S4194304x3 ![0, 1] bcast_S4194304x1_S4194304x3_0_1 : (⟨S4194304x1, .f32⟩ : BufTy).Contents (Elt F) → (⟨S4194304x3, .f32⟩ : BufTy).Contents (Elt F)),
    binary main_v45 main_v44 main_v46 (mulf : (⟨S4194304x3, .f32⟩ : BufTy).Contents (Elt F) → (⟨S4194304x3, .f32⟩ : BufTy).Contents (Elt F) → (⟨S4194304x3, .f32⟩ : BufTy).Contents (Elt F)),
    nullary main_cst_9 (constant S_ .f32 0x00000000#32),
    unary main_cst_9 main_v47 (broadcastInDim S262144x3 ![] bcast_S_S262144x3 : (⟨S_, .f32⟩ : BufTy).Contents (Elt F) → (⟨S262144x3, .f32⟩ : BufTy).Contents (Elt F)) ]

/-- @main's operations 65 … 90 of 170: the first propagation's scatter-add, the second weight product, the second propagation and the second Chebyshev step. -/
abbrev opsD : List (HloOp τ sig (Elt F)) :=
  [ unary main_v5 main_v48 (broadcastInDim S4194304x1 ![0] bcast_S4194304_S4194304x1_0 : (⟨S4194304, .i32⟩ : BufTy).Contents (Elt F) → (⟨S4194304x1, .i32⟩ : BufTy).Contents (Elt F)),
    ternary main_v47 main_v48 main_v46 main_v49 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)),
    unary main_arg3 main_v50 ((extractStridedSlice S1x3x128 ![1, 0, 0] · slices_S4x3x128_S1x3x128_1_0_0) : (⟨S4x3x128, .f32⟩ : BufTy).Contents (Elt F) → (⟨S1x3x128, .f32⟩ : BufTy).Contents (Elt F)),
    reshape main_v50 main_v51 rfl shapeCasts_S1x3x128_S3x128,
    binary main_v49 main_v51 main_v52 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v36 main_v52 main_v53 (addf : (⟨S262144x128, .f32⟩ : BufTy).Contents (Elt F) → (⟨S262144x128, .f32⟩ : BufTy).Contents (Elt F) → (⟨S262144x128, .f32⟩ : BufTy).Contents (Elt F)),
    unary main_v33 main_v54 (broadcastInDim S4194304x1 ![0] bcast_S4194304_S4194304x1_0 : (⟨S4194304, .f32⟩ : BufTy).Contents (Elt F) → (⟨S4194304x1, .f32⟩ : BufTy).Contents (Elt F)),
    nullary main_c_10 (constantI S_ 32 0#32),
    unary main_c_10 main_v55 (broadcastInDim S4194304 ![] bcast_S_S4194304 : (⟨S_, .i32⟩ : BufTy).Contents (Elt F) → (⟨S4194304, .i32⟩ : BufTy).Contents (Elt F)),
    binary main_v3 main_v55 main_v56 (cmpi .slt : (⟨S4194304, .i32⟩ : BufTy).Contents (Elt F) → (⟨S4194304, .i32⟩ : BufTy).Contents (Elt F) → (⟨S4194304, .i1⟩ : BufTy).Contents (Elt F)),
    nullary main_c_11 (constantI S_ 32 262144#32),
    unary main_c_11 main_v57 (broadcastInDim S4194304 ![] bcast_S_S4194304 : (⟨S_, .i32⟩ : BufTy).Contents (Elt F) → (⟨S4194304, .i32⟩ : BufTy).Contents (Elt F)),
    binary main_v3 main_v57 main_v58 (addi : (⟨S4194304, .i32⟩ : BufTy).Contents (Elt F) → (⟨S4194304, .i32⟩ : BufTy).Contents (Elt F) → (⟨S4194304, .i32⟩ : BufTy).Contents (Elt F)),
    ternary main_v56 main_v58 main_v3 main_v59 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v59 main_v60 (broadcastInDim S4194304x1 ![0] bcast_S4194304_S4194304x1_0 : (⟨S4194304, .i32⟩ : BufTy).Contents (Elt F) → (⟨S4194304x1, .i32⟩ : BufTy).Contents (Elt F)),
    binary main_v49 main_v60 main_v61 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    unary main_v54 main_v62 (broadcastInDim S4194304x3 ![0, 1] bcast_S4194304x1_S4194304x3_0_1 : (⟨S4194304x1, .f32⟩ : BufTy).Contents (Elt F) → (⟨S4194304x3, .f32⟩ : BufTy).Contents (Elt F)),
    binary main_v62 main_v61 main_v63 (mulf : (⟨S4194304x3, .f32⟩ : BufTy).Contents (Elt F) → (⟨S4194304x3, .f32⟩ : BufTy).Contents (Elt F) → (⟨S4194304x3, .f32⟩ : BufTy).Contents (Elt F)),
    nullary main_cst_12 (constant S_ .f32 0x00000000#32),
    unary main_cst_12 main_v64 (broadcastInDim S262144x3 ![] bcast_S_S262144x3 : (⟨S_, .f32⟩ : BufTy).Contents (Elt F) → (⟨S262144x3, .f32⟩ : BufTy).Contents (Elt F)),
    unary main_v5 main_v65 (broadcastInDim S4194304x1 ![0] bcast_S4194304_S4194304x1_0 : (⟨S4194304, .i32⟩ : BufTy).Contents (Elt F) → (⟨S4194304x1, .i32⟩ : BufTy).Contents (Elt F)),
    ternary main_v64 main_v65 main_v63 main_v66 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)),
    nullary main_cst_13 (constant S_ .f32 0x40000000#32),
    unary main_cst_13 main_v67 (broadcastInDim S262144x3 ![] bcast_S_S262144x3 : (⟨S_, .f32⟩ : BufTy).Contents (Elt F) → (⟨S262144x3, .f32⟩ : BufTy).Contents (Elt F)),
    binary main_v67 main_v66 main_v68 (mulf : (⟨S262144x3, .f32⟩ : BufTy).Contents (Elt F) → (⟨S262144x3, .f32⟩ : BufTy).Contents (Elt F) → (⟨S262144x3, .f32⟩ : BufTy).Contents (Elt F)),
    binary main_v68 main_v1 main_v69 (subf : (⟨S262144x3, .f32⟩ : BufTy).Contents (Elt F) → (⟨S262144x3, .f32⟩ : BufTy).Contents (Elt F) → (⟨S262144x3, .f32⟩ : BufTy).Contents (Elt F)) ]

/-- @main's operations 91 … 114 of 170: the third weight product, the third propagation and the third Chebyshev step. -/
abbrev opsE : List (HloOp τ sig (Elt F)) :=
  [ unary main_arg3 main_v70 ((extractStridedSlice S1x3x128 ![2, 0, 0] · slices_S4x3x128_S1x3x128_2_0_0) : (⟨S4x3x128, .f32⟩ : BufTy).Contents (Elt F) → (⟨S1x3x128, .f32⟩ : BufTy).Contents (Elt F)),
    reshape main_v70 main_v71 rfl shapeCasts_S1x3x128_S3x128,
    binary main_v69 main_v71 main_v72 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v53 main_v72 main_v73 (addf : (⟨S262144x128, .f32⟩ : BufTy).Contents (Elt F) → (⟨S262144x128, .f32⟩ : BufTy).Contents (Elt F) → (⟨S262144x128, .f32⟩ : BufTy).Contents (Elt F)),
    unary main_v33 main_v74 (broadcastInDim S4194304x1 ![0] bcast_S4194304_S4194304x1_0 : (⟨S4194304, .f32⟩ : BufTy).Contents (Elt F) → (⟨S4194304x1, .f32⟩ : BufTy).Contents (Elt F)),
    nullary main_c_14 (constantI S_ 32 0#32),
    unary main_c_14 main_v75 (broadcastInDim S4194304 ![] bcast_S_S4194304 : (⟨S_, .i32⟩ : BufTy).Contents (Elt F) → (⟨S4194304, .i32⟩ : BufTy).Contents (Elt F)),
    binary main_v3 main_v75 main_v76 (cmpi .slt : (⟨S4194304, .i32⟩ : BufTy).Contents (Elt F) → (⟨S4194304, .i32⟩ : BufTy).Contents (Elt F) → (⟨S4194304, .i1⟩ : BufTy).Contents (Elt F)),
    nullary main_c_15 (constantI S_ 32 262144#32),
    unary main_c_15 main_v77 (broadcastInDim S4194304 ![] bcast_S_S4194304 : (⟨S_, .i32⟩ : BufTy).Contents (Elt F) → (⟨S4194304, .i32⟩ : BufTy).Contents (Elt F)),
    binary main_v3 main_v77 main_v78 (addi : (⟨S4194304, .i32⟩ : BufTy).Contents (Elt F) → (⟨S4194304, .i32⟩ : BufTy).Contents (Elt F) → (⟨S4194304, .i32⟩ : BufTy).Contents (Elt F)),
    ternary main_v76 main_v78 main_v3 main_v79 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v79 main_v80 (broadcastInDim S4194304x1 ![0] bcast_S4194304_S4194304x1_0 : (⟨S4194304, .i32⟩ : BufTy).Contents (Elt F) → (⟨S4194304x1, .i32⟩ : BufTy).Contents (Elt F)),
    binary main_v69 main_v80 main_v81 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    unary main_v74 main_v82 (broadcastInDim S4194304x3 ![0, 1] bcast_S4194304x1_S4194304x3_0_1 : (⟨S4194304x1, .f32⟩ : BufTy).Contents (Elt F) → (⟨S4194304x3, .f32⟩ : BufTy).Contents (Elt F)),
    binary main_v82 main_v81 main_v83 (mulf : (⟨S4194304x3, .f32⟩ : BufTy).Contents (Elt F) → (⟨S4194304x3, .f32⟩ : BufTy).Contents (Elt F) → (⟨S4194304x3, .f32⟩ : BufTy).Contents (Elt F)),
    nullary main_cst_16 (constant S_ .f32 0x00000000#32),
    unary main_cst_16 main_v84 (broadcastInDim S262144x3 ![] bcast_S_S262144x3 : (⟨S_, .f32⟩ : BufTy).Contents (Elt F) → (⟨S262144x3, .f32⟩ : BufTy).Contents (Elt F)),
    unary main_v5 main_v85 (broadcastInDim S4194304x1 ![0] bcast_S4194304_S4194304x1_0 : (⟨S4194304, .i32⟩ : BufTy).Contents (Elt F) → (⟨S4194304x1, .i32⟩ : BufTy).Contents (Elt F)),
    ternary main_v84 main_v85 main_v83 main_v86 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)),
    nullary main_cst_17 (constant S_ .f32 0x40000000#32),
    unary main_cst_17 main_v87 (broadcastInDim S262144x3 ![] bcast_S_S262144x3 : (⟨S_, .f32⟩ : BufTy).Contents (Elt F) → (⟨S262144x3, .f32⟩ : BufTy).Contents (Elt F)),
    binary main_v87 main_v86 main_v88 (mulf : (⟨S262144x3, .f32⟩ : BufTy).Contents (Elt F) → (⟨S262144x3, .f32⟩ : BufTy).Contents (Elt F) → (⟨S262144x3, .f32⟩ : BufTy).Contents (Elt F)),
    binary main_v88 main_v49 main_v89 (subf : (⟨S262144x3, .f32⟩ : BufTy).Contents (Elt F) → (⟨S262144x3, .f32⟩ : BufTy).Contents (Elt F) → (⟨S262144x3, .f32⟩ : BufTy).Contents (Elt F)) ]

/-- @main's operations 115 … 124 of 170: the fourth weight product, the bias, and the column sums for the mean. -/
abbrev opsF : List (HloOp τ sig (Elt F)) :=
  [ unary main_arg3 main_v90 ((extractStridedSlice S1x3x128 ![3, 0, 0] · slices_S4x3x128_S1x3x128_3_0_0) : (⟨S4x3x128, .f32⟩ : BufTy).Contents (Elt F) → (⟨S1x3x128, .f32⟩ : BufTy).Contents (Elt F)),
    reshape main_v90 main_v91 rfl shapeCasts_S1x3x128_S3x128,
    binary main_v89 main_v91 main_v92 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v73 main_v92 main_v93 (addf : (⟨S262144x128, .f32⟩ : BufTy).Contents (Elt F) → (⟨S262144x128, .f32⟩ : BufTy).Contents (Elt F) → (⟨S262144x128, .f32⟩ : BufTy).Contents (Elt F)),
    unary main_arg4 main_v94 (broadcastInDim S1x128 ![1] bcast_S128_S1x128_1 : (⟨S128, .f32⟩ : BufTy).Contents (Elt F) → (⟨S1x128, .f32⟩ : BufTy).Contents (Elt F)),
    unary main_v94 main_v95 (broadcastInDim S262144x128 ![0, 1] bcast_S1x128_S262144x128_0_1 : (⟨S1x128, .f32⟩ : BufTy).Contents (Elt F) → (⟨S262144x128, .f32⟩ : BufTy).Contents (Elt F)),
    binary main_v93 main_v95 main_v96 (addf : (⟨S262144x128, .f32⟩ : BufTy).Contents (Elt F) → (⟨S262144x128, .f32⟩ : BufTy).Contents (Elt F) → (⟨S262144x128, .f32⟩ : BufTy).Contents (Elt F)),
    nullary main_cst_18 (constant S_ .f32 0x00000000#32),
    binary main_v96 main_cst_18 main_v97 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_19 (constant S_ .f32 0x48800000#32) ]

/-- @main's operations 125 … 149 of 170: the mean and the variance (the centred second moment, guarded by the degrees of freedom). -/
abbrev opsG : List (HloOp τ sig (Elt F)) :=
  [ unary main_cst_19 main_v98 (broadcastInDim S128 ![] bcast_S_S128 : (⟨S_, .f32⟩ : BufTy).Contents (Elt F) → (⟨S128, .f32⟩ : BufTy).Contents (Elt F)),
    binary main_v97 main_v98 main_v99 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call2.cst (constant S_ .f32 0x00000000#32),
    TRef.binary (TRef.of (T := ⟨S262144x128, .f32⟩) main_v96) main_call2.cst main_call2.v0 (fun x v => Host.reduceAdd x v reducesTo_S262144x128_S128_d0 h_S_),
    TRef.unary main_call2.v0 main_call2.v1 (broadcastInDim S1x128 ![1] bcast_S128_S1x128_1),
    TRef.nullary main_call2.cst_0 (constant S_ .f32 0x48800000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S262144x128 ![0, 1] bcast_S1x128_S262144x128_0_1),
    TRef.binary (TRef.of (T := ⟨S262144x128, .f32⟩) main_v96) main_call2.v4 main_call2.v5 subf,
    TRef.binary main_call2.v5 main_call2.v5 main_call2.v6 mulf,
    TRef.unary (TRef.of (T := ⟨S_, .i32⟩) main_c_20) main_call2.v7 (sitofp .f32),
    TRef.nullary main_call2.cst_1 (constant S_ .f32 0x48800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S262144x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- @main's operations 150 … 170 of 170: the normalisation, the scale and shift, the rectifier, and the result re-laid. -/
abbrev opsH : List (HloOp τ sig (Elt F)) :=
  [ unary main_v99 main_v101 (broadcastInDim S1x128 ![1] bcast_S128_S1x128_1 : (⟨S128, .f32⟩ : BufTy).Contents (Elt F) → (⟨S1x128, .f32⟩ : BufTy).Contents (Elt F)),
    unary main_v101 main_v102 (broadcastInDim S262144x128 ![0, 1] bcast_S1x128_S262144x128_0_1 : (⟨S1x128, .f32⟩ : BufTy).Contents (Elt F) → (⟨S262144x128, .f32⟩ : BufTy).Contents (Elt F)),
    binary main_v96 main_v102 main_v103 (subf : (⟨S262144x128, .f32⟩ : BufTy).Contents (Elt F) → (⟨S262144x128, .f32⟩ : BufTy).Contents (Elt F) → (⟨S262144x128, .f32⟩ : BufTy).Contents (Elt F)),
    nullary main_cst_21 (constant S_ .f32 0x3727C5AC#32),
    unary main_cst_21 main_v104 (broadcastInDim S128 ![] bcast_S_S128 : (⟨S_, .f32⟩ : BufTy).Contents (Elt F) → (⟨S128, .f32⟩ : BufTy).Contents (Elt F)),
    binary main_v100 main_v104 main_v105 (addf : (⟨S128, .f32⟩ : BufTy).Contents (Elt F) → (⟨S128, .f32⟩ : BufTy).Contents (Elt F) → (⟨S128, .f32⟩ : BufTy).Contents (Elt F)),
    unary main_v105 main_v106 (Host.rsqrt : (⟨S128, .f32⟩ : BufTy).Contents (Elt F) → (⟨S128, .f32⟩ : BufTy).Contents (Elt F)),
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S262144x128 ![0, 1] bcast_S1x128_S262144x128_0_1 : (⟨S1x128, .f32⟩ : BufTy).Contents (Elt F) → (⟨S262144x128, .f32⟩ : BufTy).Contents (Elt F)),
    binary main_v103 main_v108 main_v109 (mulf : (⟨S262144x128, .f32⟩ : BufTy).Contents (Elt F) → (⟨S262144x128, .f32⟩ : BufTy).Contents (Elt F) → (⟨S262144x128, .f32⟩ : BufTy).Contents (Elt F)),
    unary main_arg5 main_v110 (broadcastInDim S1x128 ![1] bcast_S128_S1x128_1 : (⟨S128, .f32⟩ : BufTy).Contents (Elt F) → (⟨S1x128, .f32⟩ : BufTy).Contents (Elt F)),
    unary main_v110 main_v111 (broadcastInDim S262144x128 ![0, 1] bcast_S1x128_S262144x128_0_1 : (⟨S1x128, .f32⟩ : BufTy).Contents (Elt F) → (⟨S262144x128, .f32⟩ : BufTy).Contents (Elt F)),
    binary main_v109 main_v111 main_v112 (mulf : (⟨S262144x128, .f32⟩ : BufTy).Contents (Elt F) → (⟨S262144x128, .f32⟩ : BufTy).Contents (Elt F) → (⟨S262144x128, .f32⟩ : BufTy).Contents (Elt F)),
    unary main_arg6 main_v113 (broadcastInDim S1x128 ![1] bcast_S128_S1x128_1 : (⟨S128, .f32⟩ : BufTy).Contents (Elt F) → (⟨S1x128, .f32⟩ : BufTy).Contents (Elt F)),
    unary main_v113 main_v114 (broadcastInDim S262144x128 ![0, 1] bcast_S1x128_S262144x128_0_1 : (⟨S1x128, .f32⟩ : BufTy).Contents (Elt F) → (⟨S262144x128, .f32⟩ : BufTy).Contents (Elt F)),
    binary main_v112 main_v114 main_v115 (addf : (⟨S262144x128, .f32⟩ : BufTy).Contents (Elt F) → (⟨S262144x128, .f32⟩ : BufTy).Contents (Elt F) → (⟨S262144x128, .f32⟩ : BufTy).Contents (Elt F)),
    TRef.nullary main_call3.cst (constant S_ .f32 0x00000000#32),
    TRef.unary main_call3.cst main_call3.v0 (broadcastInDim S262144x128 ![] bcast_S_S262144x128),
    TRef.binary (TRef.of (T := ⟨S262144x128, .f32⟩) main_v115) main_call3.v0 main_call3.v1 maximumf,
    reshape main_v116 main_v117 rfl shapeCasts_S262144x128_S8x32768x128,
    unary main_v117 main_v118 ((transpose S8x128x32768 [0, 2, 1] · transposes_S8x32768x128_S8x128x32768_0_2_1) : (⟨S8x32768x128, .f32⟩ : BufTy).Contents (Elt F) → (⟨S8x128x32768, .f32⟩ : BufTy).Contents (Elt F)) ]

/-- The operations of @main's first, second and third printed window. -/
abbrev ops0 : List (HloOp τ sig (Elt F)) := opsA ++ (opsB ++ opsC)
@[inherit_doc ops0] abbrev ops1 : List (HloOp τ sig (Elt F)) := opsD ++ (opsE ++ opsF)
@[inherit_doc ops0] abbrev ops2 : List (HloOp τ sig (Elt F)) := opsG ++ opsH

/-- @main's 170 operations, in order. -/
abbrev ops : List (HloOp τ sig (Elt F)) := ops0 ++ (ops1 ++ ops2)

/-! ## @main is that line -/

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem opsC_sub : (opsC : List (HloOp τ sig (Elt F))).Forall fun op => op.bufs ⊆ tcRefs τ sig :=
  ⟨unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩

set_option maxRecDepth 8192 in
theorem opsD_sub : (opsD : List (HloOp τ sig (Elt F))).Forall fun op => op.bufs ⊆ tcRefs τ sig :=
  ⟨unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩

set_option maxRecDepth 8192 in
theorem opsE_sub : (opsE : List (HloOp τ sig (Elt F))).Forall fun op => op.bufs ⊆ tcRefs τ sig :=
  ⟨unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub ..⟩

set_option maxRecDepth 8192 in
theorem opsF_sub : (opsF : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub .., nullary_bufs_sub .., binary_bufs_sub .., nullary_bufs_sub ..⟩

set_option maxRecDepth 8192 in
theorem opsG_sub : (opsG : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem opsH_sub : (opsH : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., unary_bufs_sub ..⟩

theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h) | (h | h | h) | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h,
      List.forall_iff_forall_mem.mp opsG_sub op h, List.forall_iff_forall_mem.mp opsH_sub op h]

/-! ## The stages

Each definition is one stretch of the program as a function of the values it reads, written with the operations the
program is printed with, in the program's order of operands. A pattern the program repeats over fresh buffers (the
index wrap before every gather, the propagation along the edges) is one definition. -/

/-- %1: the node features, one row of three per node. -/
def tx0 (x : (⟨S8x3x32768, .f32⟩ : BufTy).Contents (Elt F)) : (⟨S262144x3, .f32⟩ : BufTy).Contents (Elt F) :=
  shapeCast S262144x3 (transpose S8x32768x3 [0, 2, 1] x transposes_S8x3x32768_S8x32768x3_0_2_1) shapeCasts_S8x32768x3_S262144x3

/-- %3: the edges' source nodes (row 0 of the edge index). -/
def src (ei : (⟨S2x4194304, .i32⟩ : BufTy).Contents (Elt F)) : (⟨S4194304, .i32⟩ : BufTy).Contents (Elt F) :=
  shapeCast S4194304 (extractStridedSlice S1x4194304 ![0, 0] ei slices_S2x4194304_S1x4194304_0_0) shapeCasts_S1x4194304_S4194304

/-- %5: the edges' target nodes (row 1 of the edge index). -/
def dst (ei : (⟨S2x4194304, .i32⟩ : BufTy).Contents (Elt F)) : (⟨S4194304, .i32⟩ : BufTy).Contents (Elt F) :=
  shapeCast S4194304 (extractStridedSlice S1x4194304 ![1, 0] ei slices_S2x4194304_S1x4194304_1_0) shapeCasts_S1x4194304_S4194304

/-- %7: the edge weights, zero on self-loops. -/
def ew0 (ei : (⟨S2x4194304, .i32⟩ : BufTy).Contents (Elt F)) (ew : (⟨S4194304, .f32⟩ : BufTy).Contents (Elt F)) : (⟨S4194304, .f32⟩ : BufTy).Contents (Elt F) :=
  select (cmpi .eq (src ei) (dst ei)) (broadcastInDim S4194304 ![] bcast_S_S4194304 (id (constant S_ .f32 0x00000000#32))) ew

/-- %10: the weighted degree of every node: the edge weights added up at the edges' sources. -/
def deg (ei : (⟨S2x4194304, .i32⟩ : BufTy).Contents (Elt F)) (ew : (⟨S4194304, .f32⟩ : BufTy).Contents (Elt F)) : (⟨S262144, .f32⟩ : BufTy).Contents (Elt F) :=
  Host.scatterAdd scatter_S262144_S4194304x1_S4194304_n_0_0_1 (broadcastInDim S262144 ![] bcast_S_S262144 (constant S_ .f32 0x00000000#32))
    (broadcastInDim S4194304x1 ![0] bcast_S4194304_S4194304x1_0 (src ei)) (ew0 ei ew)

/-- %16: the inverse square root of the degree, zero where the degree is not positive. -/
def dis (ei : (⟨S2x4194304, .i32⟩ : BufTy).Contents (Elt F)) (ew : (⟨S4194304, .f32⟩ : BufTy).Contents (Elt F)) : (⟨S262144, .f32⟩ : BufTy).Contents (Elt F) :=
  select (cmpf .ogt (deg ei ew) (broadcastInDim S262144 ![] bcast_S_S262144 (constant S_ .f32 0x00000000#32)))
    (Host.rsqrt (maximumf (deg ei ew) (broadcastInDim S262144 ![] bcast_S_S262144 (constant S_ .f32 0x2B8CBCCC#32))))
    (broadcastInDim S262144 ![] bcast_S_S262144 (id (constant S_ .f32 0x00000000#32)))

/-- The index wrap before every gather (%17 … %22): a negative index counts from the end; as a column of index vectors. -/
def wrapIdx (i : (⟨S4194304, .i32⟩ : BufTy).Contents (Elt F)) : (⟨S4194304x1, .i32⟩ : BufTy).Contents (Elt F) :=
  broadcastInDim S4194304x1 ![0] bcast_S4194304_S4194304x1_0
    (select (cmpi .slt i (broadcastInDim S4194304 ![] bcast_S_S4194304 (constantI S_ 32 0#32)))
      (addi i (broadcastInDim S4194304 ![] bcast_S_S4194304 (constantI S_ 32 262144#32))) i)

/-- %33: the normalised edge weight, minus the weight scaled by the inverse square root degrees of both ends. -/
def normw (ei : (⟨S2x4194304, .i32⟩ : BufTy).Contents (Elt F)) (ew : (⟨S4194304, .f32⟩ : BufTy).Contents (Elt F)) : (⟨S4194304, .f32⟩ : BufTy).Contents (Elt F) :=
  mulf (mulf (Host.negf (Host.gather gather_S262144_S4194304x1_S4194304_n_0_n_n_0_1_1 (dis ei ew) (wrapIdx (src ei)))) (ew0 ei ew))
    (Host.gather gather_S262144_S4194304x1_S4194304_n_0_n_n_0_1_1 (dis ei ew) (wrapIdx (dst ei)))

/-- The messages of one propagation (%37, %44 … %46): every edge's source row, scaled by the edge's weight. -/
def msg (ei : (⟨S2x4194304, .i32⟩ : BufTy).Contents (Elt F)) (nw : (⟨S4194304, .f32⟩ : BufTy).Contents (Elt F)) (t : (⟨S262144x3, .f32⟩ : BufTy).Contents (Elt F)) : (⟨S4194304x3, .f32⟩ : BufTy).Contents (Elt F) :=
  mulf (broadcastInDim S4194304x3 ![0, 1] bcast_S4194304x1_S4194304x3_0_1 (broadcastInDim S4194304x1 ![0] bcast_S4194304_S4194304x1_0 nw))
    (Host.gather gather_S262144x3_S4194304x1_S4194304x3_1_0_n_n_0_1_13 t (wrapIdx (src ei)))

/-- The zero array a propagation adds its messages into (%47). -/
def zeros3 : (⟨S262144x3, .f32⟩ : BufTy).Contents (Elt F) := broadcastInDim S262144x3 ![] bcast_S_S262144x3 (constant S_ .f32 0x00000000#32)

/-- One propagation along the edges (%37 … %49): the messages added up at the edges' targets. -/
def prop (ei : (⟨S2x4194304, .i32⟩ : BufTy).Contents (Elt F)) (nw : (⟨S4194304, .f32⟩ : BufTy).Contents (Elt F)) (t : (⟨S262144x3, .f32⟩ : BufTy).Contents (Elt F)) : (⟨S262144x3, .f32⟩ : BufTy).Contents (Elt F) :=
  Host.scatterAdd scatter_S262144x3_S4194304x1_S4194304x3_1_0_0_1 (zeros3 (F := F))
    (broadcastInDim S4194304x1 ![0] bcast_S4194304_S4194304x1_0 (dst ei)) (msg ei nw t)

/-- One step of the Chebyshev recurrence (%66 … %69): twice the propagated array minus the one before. -/
def cheb (p q : (⟨S262144x3, .f32⟩ : BufTy).Contents (Elt F)) : (⟨S262144x3, .f32⟩ : BufTy).Contents (Elt F) :=
  subf (mulf (broadcastInDim S262144x3 ![] bcast_S_S262144x3 (constant S_ .f32 0x40000000#32)) p) q

/-- %49: the first-order term. -/
def tx1 (x : (⟨S8x3x32768, .f32⟩ : BufTy).Contents (Elt F)) (ei : (⟨S2x4194304, .i32⟩ : BufTy).Contents (Elt F)) (ew : (⟨S4194304, .f32⟩ : BufTy).Contents (Elt F)) : (⟨S262144x3, .f32⟩ : BufTy).Contents (Elt F) :=
  prop ei (normw ei ew) (tx0 x)
/-- %69: the second-order term. -/
def tx2 (x : (⟨S8x3x32768, .f32⟩ : BufTy).Contents (Elt F)) (ei : (⟨S2x4194304, .i32⟩ : BufTy).Contents (Elt F)) (ew : (⟨S4194304, .f32⟩ : BufTy).Contents (Elt F)) : (⟨S262144x3, .f32⟩ : BufTy).Contents (Elt F) :=
  cheb (prop ei (normw ei ew) (tx1 x ei ew)) (tx0 x)
/-- %89: the third-order term. -/
def tx3 (x : (⟨S8x3x32768, .f32⟩ : BufTy).Contents (Elt F)) (ei : (⟨S2x4194304, .i32⟩ : BufTy).Contents (Elt F)) (ew : (⟨S4194304, .f32⟩ : BufTy).Contents (Elt F)) : (⟨S262144x3, .f32⟩ : BufTy).Contents (Elt F) :=
  cheb (prop ei (normw ei ew) (tx2 x ei ew)) (tx1 x ei ew)

/-- %35, %51, %71, %91: the weight of order 0, 1, 2, 3. -/
def wk0 (w : (⟨S4x3x128, .f32⟩ : BufTy).Contents (Elt F)) : (⟨S3x128, .f32⟩ : BufTy).Contents (Elt F) :=
  shapeCast S3x128 (extractStridedSlice S1x3x128 ![0, 0, 0] w slices_S4x3x128_S1x3x128_0_0_0) shapeCasts_S1x3x128_S3x128
@[inherit_doc wk0] def wk1 (w : (⟨S4x3x128, .f32⟩ : BufTy).Contents (Elt F)) : (⟨S3x128, .f32⟩ : BufTy).Contents (Elt F) :=
  shapeCast S3x128 (extractStridedSlice S1x3x128 ![1, 0, 0] w slices_S4x3x128_S1x3x128_1_0_0) shapeCasts_S1x3x128_S3x128
@[inherit_doc wk0] def wk2 (w : (⟨S4x3x128, .f32⟩ : BufTy).Contents (Elt F)) : (⟨S3x128, .f32⟩ : BufTy).Contents (Elt F) :=
  shapeCast S3x128 (extractStridedSlice S1x3x128 ![2, 0, 0] w slices_S4x3x128_S1x3x128_2_0_0) shapeCasts_S1x3x128_S3x128
@[inherit_doc wk0] def wk3 (w : (⟨S4x3x128, .f32⟩ : BufTy).Contents (Elt F)) : (⟨S3x128, .f32⟩ : BufTy).Contents (Elt F) :=
  shapeCast S3x128 (extractStridedSlice S1x3x128 ![3, 0, 0] w slices_S4x3x128_S1x3x128_3_0_0) shapeCasts_S1x3x128_S3x128

/-- One weight product (%36, %52, %72, %92): a term's rows times a weight of order k. -/
def dotw (t : (⟨S262144x3, .f32⟩ : BufTy).Contents (Elt F)) (v : (⟨S3x128, .f32⟩ : BufTy).Contents (Elt F)) : (⟨S262144x128, .f32⟩ : BufTy).Contents (Elt F) :=
  Host.dotGeneral dot_S262144x3_S3x128_S262144x128_1_0_0_1_n_n none t v

/-- A row of 128 repeated down the 262144 rows (%94 … %95 and its like). -/
def rows (v : (⟨S128, .f32⟩ : BufTy).Contents (Elt F)) : (⟨S262144x128, .f32⟩ : BufTy).Contents (Elt F) :=
  broadcastInDim S262144x128 ![0, 1] bcast_S1x128_S262144x128_0_1 (broadcastInDim S1x128 ![1] bcast_S128_S1x128_1 v)

/-- %93: the four weight products added up, in the program's order. -/
def acc (x : (⟨S8x3x32768, .f32⟩ : BufTy).Contents (Elt F)) (ei : (⟨S2x4194304, .i32⟩ : BufTy).Contents (Elt F)) (ew : (⟨S4194304, .f32⟩ : BufTy).Contents (Elt F)) (w : (⟨S4x3x128, .f32⟩ : BufTy).Contents (Elt F)) : (⟨S262144x128, .f32⟩ : BufTy).Contents (Elt F) :=
  addf (addf (addf (dotw (tx0 x) (wk0 w)) (dotw (tx1 x ei ew) (wk1 w))) (dotw (tx2 x ei ew) (wk2 w))) (dotw (tx3 x ei ew) (wk3 w))

/-- %96: the pre-activation, bias included. -/
def pre (x : (⟨S8x3x32768, .f32⟩ : BufTy).Contents (Elt F)) (ei : (⟨S2x4194304, .i32⟩ : BufTy).Contents (Elt F)) (ew : (⟨S4194304, .f32⟩ : BufTy).Contents (Elt F)) (w : (⟨S4x3x128, .f32⟩ : BufTy).Contents (Elt F))
    (b : (⟨S128, .f32⟩ : BufTy).Contents (Elt F)) : (⟨S262144x128, .f32⟩ : BufTy).Contents (Elt F) :=
  addf (acc x ei ew w) (rows b)

/-- The column sums of an array of 262144 rows (%97, and twice in the variance). -/
def colSum (P : (⟨S262144x128, .f32⟩ : BufTy).Contents (Elt F)) : (⟨S128, .f32⟩ : BufTy).Contents (Elt F) :=
  Host.reduceAdd P (constant S_ .f32 0x00000000#32) reducesTo_S262144x128_S128_d0 h_S_

/-- %99 as a function of the pre-activation: the column means. -/
def meanOf (P : (⟨S262144x128, .f32⟩ : BufTy).Contents (Elt F)) : (⟨S128, .f32⟩ : BufTy).Contents (Elt F) :=
  Host.divf (colSum P) (broadcastInDim S128 ![] bcast_S_S128 (constant S_ .f32 0x48800000#32))

/-- The variance's own centring (%0 … %5 of the variance function): the array minus its column means, the means kept as a row. -/
def centred (P : (⟨S262144x128, .f32⟩ : BufTy).Contents (Elt F)) : (⟨S262144x128, .f32⟩ : BufTy).Contents (Elt F) :=
  subf P (broadcastInDim S262144x128 ![0, 1] bcast_S1x128_S262144x128_0_1
    (Host.divf (broadcastInDim S1x128 ![1] bcast_S128_S1x128_1 (colSum P)) (broadcastInDim S1x128 ![] bcast_S_S1x128 (constant S_ .f32 0x48800000#32))))

/-- The variance's divisor (%7 … %8 of the variance function): the row count minus the degrees of freedom taken off (none). -/
def dof : (⟨S_, .f32⟩ : BufTy).Contents (Elt F) :=
  subf (constant S_ .f32 0x48800000#32) (sitofp .f32 (constantI S_ 32 0#32))

/-- %100 as a function of the pre-activation: the column variances, the mean of the squared centred entries. -/
def varOf (P : (⟨S262144x128, .f32⟩ : BufTy).Contents (Elt F)) : (⟨S128, .f32⟩ : BufTy).Contents (Elt F) :=
  select (broadcastInDim S128 ![] bcast_S_S128 (cmpf .ogt (dof (F := F)) (constant S_ .f32 0x00000000#32)))
    (Host.divf (colSum (mulf (centred P) (centred P))) (broadcastInDim S128 ![] bcast_S_S128 (dof (F := F))))
    (broadcastInDim S128 ![] bcast_S_S128 (id (constant S_ .f32 0x7FC00000#32)))

/-- %118 as a function of the pre-activation, the mean and the variance: normalised, scaled, shifted, rectified, re-laid. -/
def outOf (P : (⟨S262144x128, .f32⟩ : BufTy).Contents (Elt F)) (mu va g be : (⟨S128, .f32⟩ : BufTy).Contents (Elt F)) : (⟨S8x128x32768, .f32⟩ : BufTy).Contents (Elt F) :=
  transpose S8x128x32768 [0, 2, 1]
    (shapeCast S8x32768x128
      (maximumf
        (addf (mulf (mulf (subf P (rows mu))
            (rows (Host.rsqrt (addf va (broadcastInDim S128 ![] bcast_S_S128 (constant S_ .f32 0x3727C5AC#32))))))
          (rows g)) (rows be))
        (broadcastInDim S262144x128 ![] bcast_S_S262144x128 (constant S_ .f32 0x00000000#32)))
      shapeCasts_S262144x128_S8x32768x128)
    transposes_S8x32768x128_S8x128x32768_0_2_1

/-- %99: the column means of the pre-activation. -/
def mean (x : (⟨S8x3x32768, .f32⟩ : BufTy).Contents (Elt F)) (ei : (⟨S2x4194304, .i32⟩ : BufTy).Contents (Elt F)) (ew : (⟨S4194304, .f32⟩ : BufTy).Contents (Elt F)) (w : (⟨S4x3x128, .f32⟩ : BufTy).Contents (Elt F))
    (b : (⟨S128, .f32⟩ : BufTy).Contents (Elt F)) : (⟨S128, .f32⟩ : BufTy).Contents (Elt F) := meanOf (pre x ei ew w b)
/-- %100: the column variances of the pre-activation. -/
def var (x : (⟨S8x3x32768, .f32⟩ : BufTy).Contents (Elt F)) (ei : (⟨S2x4194304, .i32⟩ : BufTy).Contents (Elt F)) (ew : (⟨S4194304, .f32⟩ : BufTy).Contents (Elt F)) (w : (⟨S4x3x128, .f32⟩ : BufTy).Contents (Elt F))
    (b : (⟨S128, .f32⟩ : BufTy).Contents (Elt F)) : (⟨S128, .f32⟩ : BufTy).Contents (Elt F) := varOf (pre x ei ew w b)

/-- %118: the program's result as a function of its seven arguments. -/
def out (x : (⟨S8x3x32768, .f32⟩ : BufTy).Contents (Elt F)) (ei : (⟨S2x4194304, .i32⟩ : BufTy).Contents (Elt F)) (ew : (⟨S4194304, .f32⟩ : BufTy).Contents (Elt F)) (w : (⟨S4x3x128, .f32⟩ : BufTy).Contents (Elt F))
    (b g be : (⟨S128, .f32⟩ : BufTy).Contents (Elt F)) : (⟨S8x128x32768, .f32⟩ : BufTy).Contents (Elt F) :=
  outOf (pre x ei ew w b) (mean x ei ew w b) (var x ei ew w b) g be

/-! ## The run, stretch by stretch

`valK V0` is what the device's buffers hold after the stretches up to K, run from contents `V0`. For every buffer a later
stretch reads (or the program returns), `valK_‹buffer›` reads it back as its stage of the argument arrays: inside the
stretch that writes it by running the stretch's operations over the buffers it reads, which the earlier lemmas name; through a
later stretch because that stretch does not write it. The seven argument arrays are written by no operation. -/

/-- The buffers that stretch A's operations write. -/
abbrev opsA_W : List (Ref sig .tc) := [main_v0, main_v1, main_v2, main_v3, main_v4, main_v5, main_v6, main_cst, main_call0_v0, main_call0_v1, main_v7, main_cst_0, main_v8, main_v9, main_v10, main_cst_1, main_v11, main_v12, main_cst_2, main_v13, main_v14, main_v15, main_cst_3, main_call1_v0, main_call1_v1, main_v16]
set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to A. -/
def valA (V0 : Valuation τ sig (Elt F)) : Valuation τ sig (Elt F) := after opsA V0
/-- A buffer that stretch A does not write keeps its contents through it. -/
theorem valA_keep (V0 : Valuation τ sig (Elt F)) (r : Ref sig .tc) (h : r ∉ opsA_W) :
    valA V0 (Proc.devRef .tc r) = V0 (Proc.devRef .tc r) :=
  after_of_writes_sub opsA _ opsA_writes h

/-- The buffers that stretch B's operations write. -/
abbrev opsB_W : List (Ref sig .tc) := [main_c, main_v17, main_v18, main_c_4, main_v19, main_v20, main_v21, main_v22, main_v23, main_v24, main_v25, main_c_5, main_v26, main_v27, main_c_6, main_v28, main_v29, main_v30, main_v31, main_v32, main_v33]
set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to B. -/
def valB (V0 : Valuation τ sig (Elt F)) : Valuation τ sig (Elt F) := after opsB (valA V0)
/-- A buffer that stretch B does not write keeps its contents through it. -/
theorem valB_keep (V0 : Valuation τ sig (Elt F)) (r : Ref sig .tc) (h : r ∉ opsB_W) :
    valB V0 (Proc.devRef .tc r) = (valA V0) (Proc.devRef .tc r) :=
  after_of_writes_sub opsB _ opsB_writes h

/-- The buffers that stretch C's operations write. -/
abbrev opsC_W : List (Ref sig .tc) := [main_v34, main_v35, main_v36, main_v37, main_c_7, main_v38, main_v39, main_c_8, main_v40, main_v41, main_v42, main_v43, main_v44, main_v45, main_v46, main_cst_9, main_v47]
set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to C. -/
def valC (V0 : Valuation τ sig (Elt F)) : Valuation τ sig (Elt F) := after opsC (valB V0)
/-- A buffer that stretch C does not write keeps its contents through it. -/
theorem valC_keep (V0 : Valuation τ sig (Elt F)) (r : Ref sig .tc) (h : r ∉ opsC_W) :
    valC V0 (Proc.devRef .tc r) = (valB V0) (Proc.devRef .tc r) :=
  after_of_writes_sub opsC _ opsC_writes h

/-- The buffers that stretch D's operations write. -/
abbrev opsD_W : List (Ref sig .tc) := [main_v48, main_v49, main_v50, main_v51, main_v52, main_v53, main_v54, main_c_10, main_v55, main_v56, main_c_11, main_v57, main_v58, main_v59, main_v60, main_v61, main_v62, main_v63, main_cst_12, main_v64, main_v65, main_v66, main_cst_13, main_v67, main_v68, main_v69]
set_option maxRecDepth 8192 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to D. -/
def valD (V0 : Valuation τ sig (Elt F)) : Valuation τ sig (Elt F) := after opsD (valC V0)
/-- A buffer that stretch D does not write keeps its contents through it. -/
theorem valD_keep (V0 : Valuation τ sig (Elt F)) (r : Ref sig .tc) (h : r ∉ opsD_W) :
    valD V0 (Proc.devRef .tc r) = (valC V0) (Proc.devRef .tc r) :=
  after_of_writes_sub opsD _ opsD_writes h

/-- The buffers that stretch E's operations write. -/
abbrev opsE_W : List (Ref sig .tc) := [main_v70, main_v71, main_v72, main_v73, main_v74, main_c_14, main_v75, main_v76, main_c_15, main_v77, main_v78, main_v79, main_v80, main_v81, main_v82, main_v83, main_cst_16, main_v84, main_v85, main_v86, main_cst_17, main_v87, main_v88, main_v89]
set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to E. -/
def valE (V0 : Valuation τ sig (Elt F)) : Valuation τ sig (Elt F) := after opsE (valD V0)
/-- A buffer that stretch E does not write keeps its contents through it. -/
theorem valE_keep (V0 : Valuation τ sig (Elt F)) (r : Ref sig .tc) (h : r ∉ opsE_W) :
    valE V0 (Proc.devRef .tc r) = (valD V0) (Proc.devRef .tc r) :=
  after_of_writes_sub opsE _ opsE_writes h

/-- The buffers that stretch F's operations write. -/
abbrev opsF_W : List (Ref sig .tc) := [main_v90, main_v91, main_v92, main_v93, main_v94, main_v95, main_v96, main_cst_18, main_v97, main_cst_19]
set_option maxRecDepth 8192 in
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to F. -/
def valF (V0 : Valuation τ sig (Elt F)) : Valuation τ sig (Elt F) := after opsF (valE V0)
/-- A buffer that stretch F does not write keeps its contents through it. -/
theorem valF_keep (V0 : Valuation τ sig (Elt F)) (r : Ref sig .tc) (h : r ∉ opsF_W) :
    valF V0 (Proc.devRef .tc r) = (valE V0) (Proc.devRef .tc r) :=
  after_of_writes_sub opsF _ opsF_writes h

/-- The buffers that stretch G's operations write. -/
abbrev opsG_W : List (Ref sig .tc) := [main_v98, main_v99, main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v100]
set_option maxRecDepth 8192 in
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to G. -/
def valG (V0 : Valuation τ sig (Elt F)) : Valuation τ sig (Elt F) := after opsG (valF V0)
/-- A buffer that stretch G does not write keeps its contents through it. -/
theorem valG_keep (V0 : Valuation τ sig (Elt F)) (r : Ref sig .tc) (h : r ∉ opsG_W) :
    valG V0 (Proc.devRef .tc r) = (valF V0) (Proc.devRef .tc r) :=
  after_of_writes_sub opsG _ opsG_writes h

/-- The buffers that stretch H's operations write. -/
abbrev opsH_W : List (Ref sig .tc) := [main_v101, main_v102, main_v103, main_cst_21, main_v104, main_v105, main_v106, main_v107, main_v108, main_v109, main_v110, main_v111, main_v112, main_v113, main_v114, main_v115, main_call3_cst, main_call3_v0, main_v116, main_v117, main_v118]
set_option maxRecDepth 8192 in
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- The device's buffer contents after the stretches up to H. -/
def valH (V0 : Valuation τ sig (Elt F)) : Valuation τ sig (Elt F) := after opsH (valG V0)
/-- A buffer that stretch H does not write keeps its contents through it. -/
theorem valH_keep (V0 : Valuation τ sig (Elt F)) (r : Ref sig .tc) (h : r ∉ opsH_W) :
    valH V0 (Proc.devRef .tc r) = (valG V0) (Proc.devRef .tc r) :=
  after_of_writes_sub opsH _ opsH_writes h

/-- Every buffer the program writes: all but its seven arguments. -/
abbrev W_all : List (Ref sig .tc) := opsA_W ++ (opsB_W ++ (opsC_W ++ (opsD_W ++ (opsE_W ++ (opsF_W ++ (opsG_W ++ (opsH_W)))))))
/-- An argument array is what it was at launch after the stretches up to A. -/
theorem valA_arg (V0 : Valuation τ sig (Elt F)) (r : Ref sig .tc) (h : r ∉ W_all) :
    valA V0 (no_index (Proc.devRef .tc r)) = V0 (Proc.devRef .tc r) :=
  (valA_keep V0 r fun hk => h (List.mem_append.mpr (Or.inl hk)))
/-- An argument array is what it was at launch after the stretches up to B. -/
theorem valB_arg (V0 : Valuation τ sig (Elt F)) (r : Ref sig .tc) (h : r ∉ W_all) :
    valB V0 (no_index (Proc.devRef .tc r)) = V0 (Proc.devRef .tc r) :=
  (valB_keep V0 r fun hk => h (List.mem_append.mpr (Or.inr (List.mem_append.mpr (Or.inl hk))))).trans (valA_arg V0 r h)
/-- An argument array is what it was at launch after the stretches up to C. -/
theorem valC_arg (V0 : Valuation τ sig (Elt F)) (r : Ref sig .tc) (h : r ∉ W_all) :
    valC V0 (no_index (Proc.devRef .tc r)) = V0 (Proc.devRef .tc r) :=
  (valC_keep V0 r fun hk => h (List.mem_append.mpr (Or.inr (List.mem_append.mpr (Or.inr (List.mem_append.mpr (Or.inl hk))))))).trans (valB_arg V0 r h)
/-- An argument array is what it was at launch after the stretches up to D. -/
theorem valD_arg (V0 : Valuation τ sig (Elt F)) (r : Ref sig .tc) (h : r ∉ W_all) :
    valD V0 (no_index (Proc.devRef .tc r)) = V0 (Proc.devRef .tc r) :=
  (valD_keep V0 r fun hk => h (List.mem_append.mpr (Or.inr (List.mem_append.mpr (Or.inr (List.mem_append.mpr (Or.inr (List.mem_append.mpr (Or.inl hk))))))))).trans (valC_arg V0 r h)
/-- An argument array is what it was at launch after the stretches up to E. -/
theorem valE_arg (V0 : Valuation τ sig (Elt F)) (r : Ref sig .tc) (h : r ∉ W_all) :
    valE V0 (no_index (Proc.devRef .tc r)) = V0 (Proc.devRef .tc r) :=
  (valE_keep V0 r fun hk => h (List.mem_append.mpr (Or.inr (List.mem_append.mpr (Or.inr (List.mem_append.mpr (Or.inr (List.mem_append.mpr (Or.inr (List.mem_append.mpr (Or.inl hk))))))))))).trans (valD_arg V0 r h)
/-- An argument array is what it was at launch after the stretches up to F. -/
theorem valF_arg (V0 : Valuation τ sig (Elt F)) (r : Ref sig .tc) (h : r ∉ W_all) :
    valF V0 (no_index (Proc.devRef .tc r)) = V0 (Proc.devRef .tc r) :=
  (valF_keep V0 r fun hk => h (List.mem_append.mpr (Or.inr (List.mem_append.mpr (Or.inr (List.mem_append.mpr (Or.inr (List.mem_append.mpr (Or.inr (List.mem_append.mpr (Or.inr (List.mem_append.mpr (Or.inl hk))))))))))))).trans (valE_arg V0 r h)
/-- An argument array is what it was at launch after the stretches up to G. -/
theorem valG_arg (V0 : Valuation τ sig (Elt F)) (r : Ref sig .tc) (h : r ∉ W_all) :
    valG V0 (no_index (Proc.devRef .tc r)) = V0 (Proc.devRef .tc r) :=
  (valG_keep V0 r fun hk => h (List.mem_append.mpr (Or.inr (List.mem_append.mpr (Or.inr (List.mem_append.mpr (Or.inr (List.mem_append.mpr (Or.inr (List.mem_append.mpr (Or.inr (List.mem_append.mpr (Or.inr (List.mem_append.mpr (Or.inl hk))))))))))))))).trans (valF_arg V0 r h)
/-- An argument array is what it was at launch after the stretches up to H. -/
theorem valH_arg (V0 : Valuation τ sig (Elt F)) (r : Ref sig .tc) (h : r ∉ W_all) :
    valH V0 (no_index (Proc.devRef .tc r)) = V0 (Proc.devRef .tc r) :=
  (valH_keep V0 r fun hk => h (List.mem_append.mpr (Or.inr (List.mem_append.mpr (Or.inr (List.mem_append.mpr (Or.inr (List.mem_append.mpr (Or.inr (List.mem_append.mpr (Or.inr (List.mem_append.mpr (Or.inr (List.mem_append.mpr (Or.inr (hk)))))))))))))))).trans (valG_arg V0 r h)

/-! ### Stretch A: the node features re-laid, the two edge index rows, the edge weights with self-loops zeroed, the weighted degree and its inverse square root -/
set_option maxRecDepth 8192 in
set_option maxHeartbeats 2000000 in
theorem valA_main_v1 (V0 : Valuation τ sig (Elt F)) : valA V0 (no_index (Proc.devRef .tc main_v1)) = tx0 (V0 (Proc.devRef .tc main_arg0)) := by
  unfold valA
  simp only [opsA]
  after_results_simp
  all_goals rfl
set_option maxRecDepth 8192 in
set_option maxHeartbeats 2000000 in
theorem valA_main_v3 (V0 : Valuation τ sig (Elt F)) : valA V0 (no_index (Proc.devRef .tc main_v3)) = src (V0 (Proc.devRef .tc main_arg1)) := by
  unfold valA
  simp only [opsA]
  after_results_simp
  all_goals rfl
set_option maxRecDepth 8192 in
set_option maxHeartbeats 2000000 in
theorem valA_main_v5 (V0 : Valuation τ sig (Elt F)) : valA V0 (no_index (Proc.devRef .tc main_v5)) = dst (V0 (Proc.devRef .tc main_arg1)) := by
  unfold valA
  simp only [opsA]
  after_results_simp
  all_goals rfl
set_option maxRecDepth 8192 in
set_option maxHeartbeats 2000000 in
theorem valA_main_v7 (V0 : Valuation τ sig (Elt F)) : valA V0 (no_index (Proc.devRef .tc main_v7)) = ew0 (V0 (Proc.devRef .tc main_arg1)) (V0 (Proc.devRef .tc main_arg2)) := by
  unfold valA
  simp only [opsA]
  after_results_simp
  all_goals rfl
set_option maxRecDepth 8192 in
set_option maxHeartbeats 2000000 in
theorem valA_main_v16 (V0 : Valuation τ sig (Elt F)) : valA V0 (no_index (Proc.devRef .tc main_v16)) = dis (V0 (Proc.devRef .tc main_arg1)) (V0 (Proc.devRef .tc main_arg2)) := by
  unfold valA
  simp only [opsA]
  after_results_simp
  all_goals rfl

/-! ### Stretch B: the two index wraps, the gathers of the inverse square root degree at both ends of every edge, the normalised edge weight -/
theorem valB_main_v1 (V0 : Valuation τ sig (Elt F)) : valB V0 (no_index (Proc.devRef .tc main_v1)) = tx0 (V0 (Proc.devRef .tc main_arg0)) :=
  (valB_keep V0 main_v1 (by decide)).trans (valA_main_v1 V0)
theorem valB_main_v3 (V0 : Valuation τ sig (Elt F)) : valB V0 (no_index (Proc.devRef .tc main_v3)) = src (V0 (Proc.devRef .tc main_arg1)) :=
  (valB_keep V0 main_v3 (by decide)).trans (valA_main_v3 V0)
theorem valB_main_v5 (V0 : Valuation τ sig (Elt F)) : valB V0 (no_index (Proc.devRef .tc main_v5)) = dst (V0 (Proc.devRef .tc main_arg1)) :=
  (valB_keep V0 main_v5 (by decide)).trans (valA_main_v5 V0)
set_option maxRecDepth 8192 in
set_option maxHeartbeats 2000000 in
theorem valB_main_v33 (V0 : Valuation τ sig (Elt F)) : valB V0 (no_index (Proc.devRef .tc main_v33)) = normw (V0 (Proc.devRef .tc main_arg1)) (V0 (Proc.devRef .tc main_arg2)) := by
  unfold valB
  simp only [opsB]
  after_results_simp
  simp only [valA_main_v5, valA_main_v16, valA_main_v7, valA_main_v3] <;> rfl

/-! ### Stretch C: the first weight slice and product, and the first propagation up to its messages and the zero array they are added into -/
theorem valC_main_v1 (V0 : Valuation τ sig (Elt F)) : valC V0 (no_index (Proc.devRef .tc main_v1)) = tx0 (V0 (Proc.devRef .tc main_arg0)) :=
  (valC_keep V0 main_v1 (by decide)).trans (valB_main_v1 V0)
theorem valC_main_v3 (V0 : Valuation τ sig (Elt F)) : valC V0 (no_index (Proc.devRef .tc main_v3)) = src (V0 (Proc.devRef .tc main_arg1)) :=
  (valC_keep V0 main_v3 (by decide)).trans (valB_main_v3 V0)
theorem valC_main_v5 (V0 : Valuation τ sig (Elt F)) : valC V0 (no_index (Proc.devRef .tc main_v5)) = dst (V0 (Proc.devRef .tc main_arg1)) :=
  (valC_keep V0 main_v5 (by decide)).trans (valB_main_v5 V0)
theorem valC_main_v33 (V0 : Valuation τ sig (Elt F)) : valC V0 (no_index (Proc.devRef .tc main_v33)) = normw (V0 (Proc.devRef .tc main_arg1)) (V0 (Proc.devRef .tc main_arg2)) :=
  (valC_keep V0 main_v33 (by decide)).trans (valB_main_v33 V0)
set_option maxRecDepth 8192 in
set_option maxHeartbeats 2000000 in
theorem valC_main_v36 (V0 : Valuation τ sig (Elt F)) : valC V0 (no_index (Proc.devRef .tc main_v36)) = dotw (tx0 (V0 (Proc.devRef .tc main_arg0))) (wk0 (V0 (Proc.devRef .tc main_arg3))) := by
  unfold valC
  simp only [opsC]
  after_results_simp
  simp only [valB_arg V0 main_arg3 (by decide), valB_main_v1] <;> rfl
set_option maxRecDepth 8192 in
set_option maxHeartbeats 2000000 in
theorem valC_main_v46 (V0 : Valuation τ sig (Elt F)) : valC V0 (no_index (Proc.devRef .tc main_v46)) = msg (V0 (Proc.devRef .tc main_arg1)) (normw (V0 (Proc.devRef .tc main_arg1)) (V0 (Proc.devRef .tc main_arg2))) (tx0 (V0 (Proc.devRef .tc main_arg0))) := by
  unfold valC
  simp only [opsC]
  after_results_simp
  simp only [valB_main_v3, valB_main_v1, valB_main_v33] <;> rfl
set_option maxRecDepth 8192 in
set_option maxHeartbeats 2000000 in
theorem valC_main_v47 (V0 : Valuation τ sig (Elt F)) : valC V0 (no_index (Proc.devRef .tc main_v47)) = zeros3 := by
  unfold valC
  simp only [opsC]
  after_results_simp
  all_goals rfl

/-! ### Stretch D: the first propagation's scatter-add, the second weight product, the second propagation and the second Chebyshev step -/
theorem valD_main_v3 (V0 : Valuation τ sig (Elt F)) : valD V0 (no_index (Proc.devRef .tc main_v3)) = src (V0 (Proc.devRef .tc main_arg1)) :=
  (valD_keep V0 main_v3 (by decide)).trans (valC_main_v3 V0)
theorem valD_main_v5 (V0 : Valuation τ sig (Elt F)) : valD V0 (no_index (Proc.devRef .tc main_v5)) = dst (V0 (Proc.devRef .tc main_arg1)) :=
  (valD_keep V0 main_v5 (by decide)).trans (valC_main_v5 V0)
theorem valD_main_v33 (V0 : Valuation τ sig (Elt F)) : valD V0 (no_index (Proc.devRef .tc main_v33)) = normw (V0 (Proc.devRef .tc main_arg1)) (V0 (Proc.devRef .tc main_arg2)) :=
  (valD_keep V0 main_v33 (by decide)).trans (valC_main_v33 V0)
set_option maxRecDepth 8192 in
set_option maxHeartbeats 2000000 in
theorem valD_main_v49 (V0 : Valuation τ sig (Elt F)) : valD V0 (no_index (Proc.devRef .tc main_v49)) = tx1 (V0 (Proc.devRef .tc main_arg0)) (V0 (Proc.devRef .tc main_arg1)) (V0 (Proc.devRef .tc main_arg2)) := by
  unfold valD
  simp only [opsD]
  after_results_simp
  simp only [valC_main_v46, valC_main_v5, valC_main_v47] <;> rfl
set_option maxRecDepth 8192 in
set_option maxHeartbeats 2000000 in
theorem valD_main_v53 (V0 : Valuation τ sig (Elt F)) : valD V0 (no_index (Proc.devRef .tc main_v53)) = addf (dotw (tx0 (V0 (Proc.devRef .tc main_arg0))) (wk0 (V0 (Proc.devRef .tc main_arg3)))) (dotw (tx1 (V0 (Proc.devRef .tc main_arg0)) (V0 (Proc.devRef .tc main_arg1)) (V0 (Proc.devRef .tc main_arg2))) (wk1 (V0 (Proc.devRef .tc main_arg3)))) := by
  unfold valD
  simp only [opsD]
  after_results_simp
  simp only [valC_arg V0 main_arg3 (by decide), valC_main_v46, valC_main_v5, valC_main_v47, valC_main_v36] <;> rfl
set_option maxRecDepth 8192 in
set_option maxHeartbeats 2000000 in
theorem valD_main_v69 (V0 : Valuation τ sig (Elt F)) : valD V0 (no_index (Proc.devRef .tc main_v69)) = tx2 (V0 (Proc.devRef .tc main_arg0)) (V0 (Proc.devRef .tc main_arg1)) (V0 (Proc.devRef .tc main_arg2)) := by
  unfold valD
  simp only [opsD]
  after_results_simp
  simp only [valC_main_v1, valC_main_v3, valC_main_v46, valC_main_v5, valC_main_v47, valC_main_v33] <;> rfl

/-! ### Stretch E: the third weight product, the third propagation and the third Chebyshev step -/
set_option maxRecDepth 8192 in
set_option maxHeartbeats 2000000 in
theorem valE_main_v73 (V0 : Valuation τ sig (Elt F)) : valE V0 (no_index (Proc.devRef .tc main_v73)) = addf (addf (dotw (tx0 (V0 (Proc.devRef .tc main_arg0))) (wk0 (V0 (Proc.devRef .tc main_arg3)))) (dotw (tx1 (V0 (Proc.devRef .tc main_arg0)) (V0 (Proc.devRef .tc main_arg1)) (V0 (Proc.devRef .tc main_arg2))) (wk1 (V0 (Proc.devRef .tc main_arg3))))) (dotw (tx2 (V0 (Proc.devRef .tc main_arg0)) (V0 (Proc.devRef .tc main_arg1)) (V0 (Proc.devRef .tc main_arg2))) (wk2 (V0 (Proc.devRef .tc main_arg3)))) := by
  unfold valE
  simp only [opsE]
  after_results_simp
  simp only [valD_arg V0 main_arg3 (by decide), valD_main_v69, valD_main_v53] <;> rfl
set_option maxRecDepth 8192 in
set_option maxHeartbeats 2000000 in
theorem valE_main_v89 (V0 : Valuation τ sig (Elt F)) : valE V0 (no_index (Proc.devRef .tc main_v89)) = tx3 (V0 (Proc.devRef .tc main_arg0)) (V0 (Proc.devRef .tc main_arg1)) (V0 (Proc.devRef .tc main_arg2)) := by
  unfold valE
  simp only [opsE]
  after_results_simp
  simp only [valD_main_v49, valD_main_v3, valD_main_v69, valD_main_v33, valD_main_v5] <;> rfl

/-! ### Stretch F: the fourth weight product, the bias, and the column sums for the mean -/
set_option maxRecDepth 8192 in
set_option maxHeartbeats 2000000 in
theorem valF_main_v96 (V0 : Valuation τ sig (Elt F)) : valF V0 (no_index (Proc.devRef .tc main_v96)) = pre (V0 (Proc.devRef .tc main_arg0)) (V0 (Proc.devRef .tc main_arg1)) (V0 (Proc.devRef .tc main_arg2)) (V0 (Proc.devRef .tc main_arg3)) (V0 (Proc.devRef .tc main_arg4)) := by
  unfold valF
  simp only [opsF]
  after_results_simp
  simp only [valE_arg V0 main_arg4 (by decide), valE_arg V0 main_arg3 (by decide), valE_main_v89, valE_main_v73] <;> rfl
set_option maxRecDepth 8192 in
set_option maxHeartbeats 2000000 in
theorem valF_main_v97 (V0 : Valuation τ sig (Elt F)) : valF V0 (no_index (Proc.devRef .tc main_v97)) = colSum (pre (V0 (Proc.devRef .tc main_arg0)) (V0 (Proc.devRef .tc main_arg1)) (V0 (Proc.devRef .tc main_arg2)) (V0 (Proc.devRef .tc main_arg3)) (V0 (Proc.devRef .tc main_arg4))) := by
  unfold valF
  simp only [opsF]
  after_results_simp
  simp only [valE_arg V0 main_arg4 (by decide), valE_arg V0 main_arg3 (by decide), valE_main_v89, valE_main_v73] <;> rfl
set_option maxRecDepth 8192 in
set_option maxHeartbeats 2000000 in
theorem valF_main_cst_19 (V0 : Valuation τ sig (Elt F)) : valF V0 (no_index (Proc.devRef .tc main_cst_19)) = constant S_ .f32 0x48800000#32 := by
  unfold valF
  simp only [opsF]
  after_results_simp
  all_goals rfl

/-! ### Stretch G: the mean and the variance (the centred second moment, guarded by the degrees of freedom) -/
theorem valG_main_v96 (V0 : Valuation τ sig (Elt F)) : valG V0 (no_index (Proc.devRef .tc main_v96)) = pre (V0 (Proc.devRef .tc main_arg0)) (V0 (Proc.devRef .tc main_arg1)) (V0 (Proc.devRef .tc main_arg2)) (V0 (Proc.devRef .tc main_arg3)) (V0 (Proc.devRef .tc main_arg4)) :=
  (valG_keep V0 main_v96 (by decide)).trans (valF_main_v96 V0)
set_option maxRecDepth 8192 in
set_option maxHeartbeats 2000000 in
theorem valG_main_v99 (V0 : Valuation τ sig (Elt F)) : valG V0 (no_index (Proc.devRef .tc main_v99)) = mean (V0 (Proc.devRef .tc main_arg0)) (V0 (Proc.devRef .tc main_arg1)) (V0 (Proc.devRef .tc main_arg2)) (V0 (Proc.devRef .tc main_arg3)) (V0 (Proc.devRef .tc main_arg4)) := by
  unfold valG
  simp only [opsG]
  after_results_simp
  simp only [valF_main_cst_19, valF_main_v97] <;> rfl
set_option maxRecDepth 8192 in
set_option maxHeartbeats 2000000 in
theorem valG_main_v100 (V0 : Valuation τ sig (Elt F)) : valG V0 (no_index (Proc.devRef .tc main_v100)) = var (V0 (Proc.devRef .tc main_arg0)) (V0 (Proc.devRef .tc main_arg1)) (V0 (Proc.devRef .tc main_arg2)) (V0 (Proc.devRef .tc main_arg3)) (V0 (Proc.devRef .tc main_arg4)) := by
  unfold valG
  simp only [opsG]
  after_results_simp
  simp only [valF_main_v96] <;> rfl

/-! ### Stretch H: the normalisation, the scale and shift, the rectifier, and the result re-laid -/
set_option maxRecDepth 8192 in
set_option maxHeartbeats 2000000 in
theorem valH_main_v118 (V0 : Valuation τ sig (Elt F)) : valH V0 (no_index (Proc.devRef .tc main_v118)) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold valH
  simp only [opsH]
  after_results_simp
  simp only [valG_arg V0 main_arg6 (by decide), valG_arg V0 main_arg5 (by decide), valG_main_v100, valG_main_v99, valG_main_v96] <;> rfl

theorem after_ops (V0 : Valuation τ sig (Elt F)) : after ops V0 = valH V0 := by
  simp only [ops, ops0, ops1, ops2, after_append]
  rfl

/-! ## The run -/

/-- On every device, for any float values, from any memory with zero counters: every weakly fair execution of @main
    terminates with the result array at `out` of the argument arrays' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v118).trans (by simp only [after_ops]; exact valH_main_v118 (launchContents m c)),
      (h c main_arg0).trans (by simp only [after_ops]; exact valH_arg (launchContents m c) main_arg0 (by decide)),
      (h c main_arg1).trans (by simp only [after_ops]; exact valH_arg (launchContents m c) main_arg1 (by decide)),
      (h c main_arg2).trans (by simp only [after_ops]; exact valH_arg (launchContents m c) main_arg2 (by decide)),
      (h c main_arg3).trans (by simp only [after_ops]; exact valH_arg (launchContents m c) main_arg3 (by decide)),
      (h c main_arg4).trans (by simp only [after_ops]; exact valH_arg (launchContents m c) main_arg4 (by decide)),
      (h c main_arg5).trans (by simp only [after_ops]; exact valH_arg (launchContents m c) main_arg5 (by decide)),
      (h c main_arg6).trans (by simp only [after_ops]; exact valH_arg (launchContents m c) main_arg6 (by decide))⟩)
    (run_seq scopedRefs_eq scopedSems_eq defs main (fun _ => ops) main_eq (fun _ => ops_sub) m ρ)

end Cert.ReferenceIdeal.RefValue

end
-- ==== Proof.KPayloads.lean ====
/-
  The two kernels' stored values, read at an index, at the ideal instance (a float is an extended real).

  First kernel, on one tile of 8192 rows: the stored block is, at row r and channel ch, the contraction over the
  12 stacked input channels k of  t[k, r] * w[k, ch]  plus the bias b[ch]; the two running statistics are the
  previous value plus the column sum of that block, respectively of its square. Second kernel: the
  normalisation ((o - mean) * inv) * gamma + beta followed by the maximum with zero, entry by entry.
  The narrowing of the operands to a 16-bit format before the contraction is the identity at this instance.
-/
import proofs.«158969_j2714419331078_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Idealize.ShloMosaic Idealize.ShloMosaic.ValueIdx
open Cert.KernelIdeal Cert.KernelIdeal.Gen
open scoped BigOperators

/-- The contraction record of the first kernel contracts axis 0 of both operands: the left operand is read at
    (k, r), the right one at (k, ch). -/
theorem dot_lhsIdx (r : Fin 8192) (ch : Fin 128) (k : Fin 12) :
    dot_S12x8192_S12x128_S8192x128_0_0_1_1_n_n.lhsIdx (ix2 r ch)
      ((contrEquiv1 dot_S12x8192_S12x128_S8192x128_0_0_1_1_n_n 12 rfl rfl).symm k) = ix2 k r := by
  have ck := contrEquiv1_symm_val dot_S12x8192_S12x128_S8192x128_0_0_1_1_n_n 12 rfl rfl k
  funext ax; apply Fin.ext
  match ax with
  | ⟨0, _⟩ => simp [DotDims.lhsIdx, dot_S12x8192_S12x128_S8192x128_0_0_1_1_n_n]; exact ck
  | ⟨1, _⟩ => simp [DotDims.lhsIdx, dot_S12x8192_S12x128_S8192x128_0_0_1_1_n_n]; rfl

/-- The right operand of that contraction is read at (k, ch). -/
theorem dot_rhsIdx (r : Fin 8192) (ch : Fin 128) (k : Fin 12) :
    dot_S12x8192_S12x128_S8192x128_0_0_1_1_n_n.rhsIdx (ix2 r ch)
      ((contrEquiv1 dot_S12x8192_S12x128_S8192x128_0_0_1_1_n_n 12 rfl rfl).symm k) = ix2 k ch := by
  have ck := contrEquiv1_symm_val dot_S12x8192_S12x128_S8192x128_0_0_1_1_n_n 12 rfl rfl k
  funext ax; apply Fin.ext
  match ax with
  | ⟨0, _⟩ => simp [DotDims.rhsIdx, dot_S12x8192_S12x128_S8192x128_0_0_1_1_n_n]; exact ck
  | ⟨1, _⟩ => simp [DotDims.rhsIdx, dot_S12x8192_S12x128_S8192x128_0_0_1_1_n_n]; rfl

/-- The first kernel's stored block at row r, channel ch: the contraction over the 12 stacked input channels plus
    the bias (the zero accumulator contributes nothing). -/
theorem k0_pay3_apply (v3 : Vec Ideal S12x8192 .f32) (v6 : Vec Ideal S12x128 .f32) (v10 : Vec Ideal S1x128 .f32)
    (r : Fin 8192) (ch : Fin 128) :
    k0_pay3 (F := Ideal) v3 v6 v10 (ix2 r ch)
      = (∑ k : Fin 12, v3 (ix2 k r) * v6 (ix2 k ch)) + v10 (ix2 (0 : Fin 1) ch) := by
  unfold k0_pay3
  rw [addf_apply, shapeCast_self, shapeCast_self, shapeCast_self, broadcastTo_1b_ab_apply]
  show FloatOps.matmul _ none _ _ (constant S8192x128 .f32 0x00000000#32) (ix2 r ch) + _ = _
  rw [Ideal.matmul_constant_zero_apply,
    ← Equiv.sum_comp (contrEquiv1 dot_S12x8192_S12x128_S8192x128_0_0_1_1_n_n 12 rfl rfl).symm]
  refine congrArg (· + v10 (ix2 (0 : Fin 1) ch)) (Finset.sum_congr rfl fun k _ => ?_)
  rw [dot_lhsIdx, dot_rhsIdx]
  rfl

/-- The first kernel's initial value of the running column sum is zero. -/
theorem k0_pay1_apply (ch : Fin 128) : k0_pay1 (F := Ideal) (ix2 (0 : Fin 1) ch) = 0 := by
  unfold k0_pay1
  show Ideal.ofBits .f32 0x00000000#32 = 0
  exact Ideal.ofBits_zero_f32

/-- The first kernel's initial value of the running column sum of squares is zero. -/
theorem k0_pay2_apply (ch : Fin 128) : k0_pay2 (F := Ideal) (ix2 (0 : Fin 1) ch) = 0 := by
  unfold k0_pay2
  show Ideal.ofBits .f32 0x00000000#32 = 0
  exact Ideal.ofBits_zero_f32

/-- The index that the column reduction reads at row r for the output lane ch is (r, ch). -/
theorem reduces_lift (ch : Fin 128) (r : Fin 8192) :
    reduces_S8192x128_S128.lift (ix1 ch) r = ix2 r ch := by
  funext ax
  match ax with
  | ⟨0, _⟩ => rfl
  | ⟨1, _⟩ => rfl

/-- A kernel's sum over the 8192 rows of a tile, read at lane ch. -/
theorem colsum_apply (v : FVec Ideal S8192x128 .f32) (hφ : FKind.Formats .f32)
    (hacc : (0x00000000#32 : BitVec 32) = 0x00000000#32) (ch : Fin 128) :
    multiReduction (F := Ideal) .add [0] S128 v 0x00000000#32 reduces_S8192x128_S128 hφ hacc (ix1 ch)
      = ∑ r : Fin 8192, v (ix2 r ch) :=
  (Ideal.multiReduction_add_single v 0x00000000#32 reduces_S8192x128_S128 hφ hacc (ix1 ch)).trans
    (Finset.sum_congr rfl fun r _ => congrArg v (reduces_lift ch r))

/-- The running column sum after a tile: the previous value plus the sum over the tile's rows of the stored
    block. -/
theorem k0_pay4_apply (v3 : Vec Ideal S12x8192 .f32) (v6 : Vec Ideal S12x128 .f32) (v10 : Vec Ideal S1x128 .f32)
    (v15 : Vec Ideal S1x128 .f32) (ch : Fin 128) :
    k0_pay4 (F := Ideal) v3 v6 v10 v15 (ix2 (0 : Fin 1) ch)
      = v15 (ix2 (0 : Fin 1) ch) + ∑ r : Fin 8192, k0_pay3 (F := Ideal) v3 v6 v10 (ix2 r ch) := by
  unfold k0_pay4
  rw [addf_apply, shapeCast_self, shapeCast_a_1a_apply]
  exact congrArg (v15 (ix2 (0 : Fin 1) ch) + ·) (colsum_apply _ _ _ ch)

/-- The running column sum of squares after a tile: the previous value plus the sum over the tile's rows of
    the square of the stored block. -/
theorem k0_pay5_apply (v3 : Vec Ideal S12x8192 .f32) (v6 : Vec Ideal S12x128 .f32) (v10 : Vec Ideal S1x128 .f32)
    (v21 : Vec Ideal S1x128 .f32) (ch : Fin 128) :
    k0_pay5 (F := Ideal) v3 v6 v10 v21 (ix2 (0 : Fin 1) ch)
      = v21 (ix2 (0 : Fin 1) ch)
        + ∑ r : Fin 8192, k0_pay3 (F := Ideal) v3 v6 v10 (ix2 r ch) * k0_pay3 (F := Ideal) v3 v6 v10 (ix2 r ch) := by
  unfold k0_pay5
  rw [addf_apply, shapeCast_self, shapeCast_a_1a_apply]
  exact congrArg (v21 (ix2 (0 : Fin 1) ch) + ·) (colsum_apply _ _ _ ch)

/-- The second kernel's stored block: normalise, scale, shift, then the maximum with zero. -/
theorem k1_pay1_apply (v0 : Vec Ideal S8192x128 .f32) (v2 v6 v10 v14 : Vec Ideal S1x128 .f32)
    (r : Fin 8192) (ch : Fin 128) :
    k1_pay1 (F := Ideal) v0 v2 v6 v10 v14 (ix2 r ch)
      = max (((v0 (ix2 r ch) - v2 (ix2 (0 : Fin 1) ch)) * v6 (ix2 (0 : Fin 1) ch)) * v10 (ix2 (0 : Fin 1) ch)
              + v14 (ix2 (0 : Fin 1) ch)) 0 := by
  unfold k1_pay1
  rw [maximumf_apply, addf_apply, mulf_apply, mulf_apply, subf_apply]
  simp only [shapeCast_self, broadcastTo_1b_ab_apply, broadcast_apply]
  show max _ (Ideal.ofBits .f32 0x00000000#32) = _
  rw [Ideal.ofBits_zero_f32]

/-- Every index of a two-axis array is the pair of its coordinates, so the lemmas above apply at any index. -/
theorem idx_eq (j : S8192x128.Idx) : j = ix2 (j 0) (j 1) := eq_ix2 j

end Cert.KernelIdeal.KPay

end
-- ==== Proof.KValue0.lean ====
/-
  Region 0's outputs as values. In either case of the branch the tile written is the payload o = (tile)^T W + bias of the
  point's three input blocks; the running totals after the first point are the tile's column sums (of o, and of o*o) added to
  the zero row, and after a later point the same sums added to the totals the point before left. Hence, over the extended
  reals, the totals after point n at column ch are the sums over the points t <= n of the tile sums: addition there is
  commutative and associative whatever the entries are.
-/
import proofs.«158969_j2714419331078_1_alg».proof.Proof.KRun
import proofs.«158969_j2714419331078_1_alg».proof.Proof.KPayloads
import Idealize.ShloMosaic.Lib.Pipeline.Value

set_option maxRecDepth 16384

noncomputable section

namespace Cert.KernelIdeal.KVal

open Cert.KernelIdeal Cert.KernelIdeal.Gen Cert.KernelIdeal.KRun Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem out_A_3 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : cond0_0 i) (x0 : Vec F S12x8192 .f32) (x1 : Vec F S12x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

theorem out_A_4 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : cond0_0 i) (x0 : Vec F S12x8192 .f32) (x1 : Vec F S12x128 .f32) (x2 : Vec F S1x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

theorem out_A_5 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : cond0_0 i) (x0 : Vec F S12x8192 .f32) (x1 : Vec F S12x128 .f32) (x2 : Vec F S1x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

theorem out_B_3 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S12x8192 .f32) (x1 : Vec F S12x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

theorem out_B_4 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S12x8192 .f32) (x1 : Vec F S12x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

theorem out_B_5 (c : Dev nD) (i : grid0.Coords) (a1 : Memref sig .tc .vmem S12x8192 .f32) (h1 : a1.IsWhole) (a2 : Memref sig .tc .vmem S12x128 .f32) (h2 : a2.IsWhole) (a3 : Memref sig .tc .vmem S1x128 .f32) (h3 : a3.IsWhole) (a4 : Memref sig .tc .vmem S8192x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S12x8192 .f32) (x1 : Vec F S12x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S12x8192) hz, View.ld_unit_zero (S := S12x128) hz, View.ld_unit_zero (S := S1x128) hz, View.ld_unit_zero (S := S8192x128) hz]

section Region0
variable (V : (c : Dev nD) → (b : Ref sig .tc) → Buf (Elt F) ((c : Thread nD τ).loc b))

/-- The three input blocks at point t, at their literal vector types. -/
def blkT (c : Dev nD) (t : Fin cfg0.N) : Vec F S12x8192 .f32 := iblk0 V c 0 t
def blkW (c : Dev nD) (t : Fin cfg0.N) : Vec F S12x128 .f32 := iblk0 V c 1 t
def blkB (c : Dev nD) (t : Fin cfg0.N) : Vec F S1x128 .f32 := iblk0 V c 2 t

/-- The tile of o written at point t. -/
def tileO (c : Dev nD) (t : Fin cfg0.N) : Vec F S8192x128 .f32 := k0_pay3 (blkT V c t) (blkW V c t) (blkB V c t)

/-- The two running totals after position n. -/
def acc (c : Dev nD) : (n : ℕ) → n < cfg0.N → Vec F S1x128 .f32 × Vec F S1x128 .f32
  | 0, h => (k0_pay4 (blkT V c ⟨0, h⟩) (blkW V c ⟨0, h⟩) (blkB V c ⟨0, h⟩) (k0_pay1 (F := F)),
             k0_pay5 (blkT V c ⟨0, h⟩) (blkW V c ⟨0, h⟩) (blkB V c ⟨0, h⟩) (k0_pay2 (F := F)))
  | n + 1, h => (k0_pay4 (blkT V c ⟨n + 1, h⟩) (blkW V c ⟨n + 1, h⟩) (blkB V c ⟨n + 1, h⟩) (acc c n (Nat.lt_of_succ_lt h)).1,
                 k0_pay5 (blkT V c ⟨n + 1, h⟩) (blkW V c ⟨n + 1, h⟩) (blkB V c ⟨n + 1, h⟩) (acc c n (Nat.lt_of_succ_lt h)).2)

/-- What the three output buffers hold after position n is the tile and the two running totals: by induction on the point. -/
theorem outsAt_eq (c : Dev nD) : ∀ (n : ℕ) (h : n < cfg0.N),
    outsAt0 V c n h = (tileO V c ⟨n, h⟩, (acc V c n h).1, (acc V c n h).2)
  | 0, h => (outsAt0_A V c ⟨0, h⟩ rfl).trans (by rw [out_A_3, out_A_4, out_A_5]; rfl)
  | n + 1, h => by
    have hN : cfg0.N = 32 := N_0
    have hB : ¬(⟨n + 1, h⟩ : Fin cfg0.N).val % 32 = 0 := by dsimp only; omega
    rw [outsAt0_B V c ⟨n + 1, h⟩ hB, out_B_3, out_B_4, out_B_5]
    show (_, k0_pay4 _ _ _ (outsAt0 V c n _).2.1, k0_pay5 _ _ _ (outsAt0 V c n _).2.2) = _
    rw [outsAt_eq c n]; rfl

end Region0

section Ideal0
variable (V : (c : Dev nD) → (b : Ref sig .tc) → Buf (Elt Ideal) ((c : Thread nD τ).loc b))

/-- Tile t's column sum of o at column ch (zero past the grid), and of o*o. -/
def tile1 (c : Dev nD) (ch : Fin 128) (t : ℕ) : EReal :=
  if h : t < cfg0.N then ∑ r : Fin 8192, tileO (F := Ideal) V c ⟨t, h⟩ (ix2 r ch) else 0
def tile2 (c : Dev nD) (ch : Fin 128) (t : ℕ) : EReal :=
  if h : t < cfg0.N then ∑ r : Fin 8192, tileO (F := Ideal) V c ⟨t, h⟩ (ix2 r ch) * tileO (F := Ideal) V c ⟨t, h⟩ (ix2 r ch) else 0

/-- The running totals after position n, at column ch: the tile sums of the points up to n. -/
theorem acc_apply (c : Dev nD) (ch : Fin 128) : ∀ (n : ℕ) (h : n < cfg0.N),
    (acc (F := Ideal) V c n h).1 (ix2 (0 : Fin 1) ch) = ∑ t ∈ Finset.range (n + 1), tile1 V c ch t
    ∧ (acc (F := Ideal) V c n h).2 (ix2 (0 : Fin 1) ch) = ∑ t ∈ Finset.range (n + 1), tile2 V c ch t
  | 0, h => by
    constructor
    · show k0_pay4 (F := Ideal) _ _ _ _ (ix2 (0 : Fin 1) ch) = _
      rw [KPay.k0_pay4_apply, KPay.k0_pay1_apply, zero_add, Finset.sum_range_one, tile1, dif_pos h]; rfl
    · show k0_pay5 (F := Ideal) _ _ _ _ (ix2 (0 : Fin 1) ch) = _
      rw [KPay.k0_pay5_apply, KPay.k0_pay2_apply, zero_add, Finset.sum_range_one, tile2, dif_pos h]; rfl
  | n + 1, h => by
    obtain ⟨ih1, ih2⟩ := acc_apply c ch n (Nat.lt_of_succ_lt h)
    constructor
    · show k0_pay4 (F := Ideal) _ _ _ (acc (F := Ideal) V c n _).1 (ix2 (0 : Fin 1) ch) = _
      rw [KPay.k0_pay4_apply, ih1, Finset.sum_range_succ _ (n + 1), tile1, dif_pos h]; rfl
    · show k0_pay5 (F := Ideal) _ _ _ (acc (F := Ideal) V c n _).2 (ix2 (0 : Fin 1) ch) = _
      rw [KPay.k0_pay5_apply, ih2, Finset.sum_range_succ _ (n + 1), tile2, dif_pos h]; rfl

end Ideal0

end Cert.KernelIdeal.KVal

end
-- ==== Proof.KValue0b.lean ====
/-
  Region 0's result arrays over the extended reals, as region 0 finds its operands. The tile written at point t holds rows
  8192 t .. 8192 t + 8191 of o(R, ch) = sum_k S(k, R) Wf(k, ch) + bias(ch) (S the stacked 12 x 262144 features, Wf the flat
  12 x 128 weight); the 32 tiles cover the rows, so the first result array is o. Each running total is written back once,
  after the last point, whole; it holds the sum over the 32 tiles of the tile's column sums, which is the sum over all
  262144 rows (rows are numbered 8192 t + r).
-/
import proofs.«158969_j2714419331078_1_alg».proof.Proof.KValue0

set_option maxRecDepth 16384

noncomputable section

namespace Cert.KernelIdeal.KVal

open Cert.KernelIdeal Cert.KernelIdeal.Gen Cert.KernelIdeal.KRun Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Final0
variable (V : (c : Dev nD) → (b : Ref sig .tc) → Buf (Elt Ideal) ((c : Thread nD τ).loc b))

/-- The three operand arrays of region 0 as it finds them, at their literal index types. -/
def stackA (c : Dev nD) : S12x262144.Idx → EReal := V c main_v83
def wflatA (c : Dev nD) : S12x128.Idx → EReal := V c main_v84
def biasA (c : Dev nD) : S1x128.Idx → EReal := V c main_v85

/-- The printed index maps of region 0, decided over the grid: the feature window and the output tile move with the point
    along the long axis, every other window stays at block (0, 0). -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row 8192 t + r of the long axis. -/
def rowAt (t : Fin cfg0.N) (r : Fin 8192) : Fin 262144 :=
  ⟨t.val * 8192 + r.val, by have := t.isLt; have hN : cfg0.N = 32 := N_0; have := r.isLt; omega⟩

theorem blkT_apply (c : Dev nD) (t : Fin cfg0.N) (k : Fin 12) (r : Fin 8192) :
    blkT V c t (ix2 k r) = stackA V c (ix2 k (rowAt t r)) := by
  obtain ⟨e0, e1, -⟩ := idx_facts0 t
  unfold blkT iblk0 stackA
  show (V c main_v83) (((cfg0.win 0).blk t).view.emb (ix2 k r)) = _
  congr 1
  funext a; apply Fin.ext
  match a with
  | ⟨0, _⟩ => show win0_0.index t (0 : Fin 2) * 12 + 1 * k.val = k.val; omega
  | ⟨1, _⟩ => show win0_0.index t (1 : Fin 2) * 8192 + 1 * r.val = t.val * 8192 + r.val; omega

theorem blkW_apply (c : Dev nD) (t : Fin cfg0.N) (k : Fin 12) (ch : Fin 128) :
    blkW V c t (ix2 k ch) = wflatA V c (ix2 k ch) := by
  obtain ⟨-, -, e0, e1, -⟩ := idx_facts0 t
  unfold blkW iblk0 wflatA
  show (V c main_v84) (((cfg0.win 1).blk t).view.emb (ix2 k ch)) = _
  congr 1
  funext a; apply Fin.ext
  match a with
  | ⟨0, _⟩ => show win0_1.index t (0 : Fin 2) * 12 + 1 * k.val = k.val; omega
  | ⟨1, _⟩ => show win0_1.index t (1 : Fin 2) * 128 + 1 * ch.val = ch.val; omega

theorem blkB_apply (c : Dev nD) (t : Fin cfg0.N) (ch : Fin 128) :
    blkB V c t (ix2 (0 : Fin 1) ch) = biasA V c (ix2 (0 : Fin 1) ch) := by
  obtain ⟨-, -, -, -, e0, e1, -⟩ := idx_facts0 t
  unfold blkB iblk0 biasA
  show (V c main_v85) (((cfg0.win 2).blk t).view.emb (ix2 (0 : Fin 1) ch)) = _
  congr 1
  funext a; apply Fin.ext
  match a with
  | ⟨0, _⟩ => show win0_2.index t (0 : Fin 2) * 1 + 1 * 0 = 0; omega
  | ⟨1, _⟩ => show win0_2.index t (1 : Fin 2) * 128 + 1 * ch.val = ch.val; omega

/-- The pre-activation at row R and column ch. -/
def OK (c : Dev nD) (R : Fin 262144) (ch : Fin 128) : EReal :=
  (∑ k : Fin 12, stackA V c (ix2 k R) * wflatA V c (ix2 k ch)) + biasA V c (ix2 (0 : Fin 1) ch)

/-- The tile written at point t, at row r and column ch, is the pre-activation at row 8192 t + r. -/
theorem tileO_apply (c : Dev nD) (t : Fin cfg0.N) (r : Fin 8192) (ch : Fin 128) :
    tileO (F := Ideal) V c t (ix2 r ch) = OK V c (rowAt t r) ch := by
  unfold tileO OK
  rw [KPay.k0_pay3_apply, blkB_apply]
  congr 1
  exact Finset.sum_congr rfl fun k _ => by rw [blkT_apply, blkW_apply]

/-- The whole pre-activation array. -/
def G3 (c : Dev nD) : S262144x128.Idx → EReal := fun i => OK V c (i 0) (i 1)

theorem emb3_apply (t : Fin cfg0.N) (r : Fin 8192) (ch : Fin 128) :
    ((cfg0.win 3).blk t).view.emb (ix2 r ch) = (ix2 (rowAt t r) ch : S262144x128.Idx) := by
  obtain ⟨-, -, -, -, -, -, e0, e1, -⟩ := idx_facts0 t
  funext a; apply Fin.ext
  match a with
  | ⟨0, _⟩ => show win0_3.index t (0 : Fin 2) * 8192 + 1 * r.val = t.val * 8192 + r.val; omega
  | ⟨1, _⟩ => show win0_3.index t (1 : Fin 2) * 128 + 1 * ch.val = ch.val; omega

/-- What point t writes back of the tile is block t of the pre-activation array. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3, outsAt_eq]
  funext j
  obtain ⟨r, ch, rfl⟩ : ∃ (r : Fin 8192) (ch : Fin 128), j = ix2 r ch := ⟨j 0, j 1, eq_ix2 j⟩
  show tileO (F := Ideal) V c t (ix2 r ch) = G3 V c (((cfg0.win 3).blk t).view.emb (ix2 r ch))
  rw [tileO_apply, emb3_apply]
  rfl

/-- An index of the array is in point t's tile iff each coordinate is in the tile's range on its axis. -/
theorem mem_blk3 (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v88_0).slice (win0_3.rect t)).set ↔ _
  rw [View.set_slice_whole, Rect.mem_set_unit]
  exact Iff.rfl

/-- THE FIRST RESULT ARRAY after region 0 is the pre-activation: the 32 tiles cover the rows. -/
theorem final3 (c : Dev nD) : (dat0 V c).arrAt 3 cfg0.N = G3 V c :=
  (dat0 V c).arrAt_eq_of_cover 3 (G3 V c) (fun t _ => flushed3_eq V c t) fun i => by
    have hi0 : (i 0).val < 262144 := (i 0).isLt
    have hi1 : (i 1).val < 128 := (i 1).isLt
    have hN : cfg0.N = 32 := N_0
    refine ⟨⟨(i 0).val / 8192, by omega⟩, flush0_3 _, ?_⟩
    rw [mem_blk3]
    obtain ⟨-, -, -, -, -, -, e0, e1, -⟩ := idx_facts0 ⟨(i 0).val / 8192, by omega⟩
    intro a
    match a with
    | ⟨0, _⟩ => show win0_3.index _ (0 : Fin 2) * 8192 ≤ (i 0).val ∧ (i 0).val < win0_3.index _ (0 : Fin 2) * 8192 + 8192; rw [e0]; dsimp only; omega
    | ⟨1, _⟩ => show win0_3.index _ (1 : Fin 2) * 128 ≤ (i 1).val ∧ (i 1).val < win0_3.index _ (1 : Fin 2) * 128 + 128; rw [e1]; omega

/-- The last point. -/
def tLast : Fin cfg0.N := ⟨31, by rw [show cfg0.N = 32 from N_0]; decide⟩

/-- The one write-back of the first running total, after the last point, writes the whole 1 x 128 array. -/
theorem flushed4_eq (c : Dev nD) (t : Fin cfg0.N) (hf : (cfg0.win 4).flush t = true) :
    (dat0 V c).flushed 4 t = ((cfg0.win 4).blk t).view.read (Elt Ideal) (acc (F := Ideal) V c 31 tLast.isLt).1 := by
  have hN : cfg0.N = 32 := N_0
  have h3 : t.val = 31 := by have := (flush0_4 t).mp hf; have := t.isLt; omega
  obtain rfl : t = tLast := Fin.ext h3
  show (cfg0.win 4).cut (grid0.coords tLast) ((dat0 V c).after 4 tLast) = _
  rw [after0_4, outsAt_eq]
  have hz' : (fun a => win0_4.index tLast a * main_v88_1.ty.shape.size a) = fun _ => 0 := funext fun a => by fin_cases a <;> decide +kernel
  exact (Memref.read_access_unit_zero (Elt Ideal) main_v88_1 hz' (fun a => by rw [congrFun hz' a]; simp) ((acc (F := Ideal) V c 31 tLast.isLt).1)).symm

theorem flushed5_eq (c : Dev nD) (t : Fin cfg0.N) (hf : (cfg0.win 5).flush t = true) :
    (dat0 V c).flushed 5 t = ((cfg0.win 5).blk t).view.read (Elt Ideal) (acc (F := Ideal) V c 31 tLast.isLt).2 := by
  have hN : cfg0.N = 32 := N_0
  have h3 : t.val = 31 := by have := (flush0_5 t).mp hf; have := t.isLt; omega
  obtain rfl : t = tLast := Fin.ext h3
  show (cfg0.win 5).cut (grid0.coords tLast) ((dat0 V c).after 5 tLast) = _
  rw [after0_5, outsAt_eq]
  have hz' : (fun a => win0_5.index tLast a * main_v88_2.ty.shape.size a) = fun _ => 0 := funext fun a => by fin_cases a <;> decide +kernel
  exact (Memref.read_access_unit_zero (Elt Ideal) main_v88_2 hz' (fun a => by rw [congrFun hz' a]; simp) ((acc (F := Ideal) V c 31 tLast.isLt).2)).symm

/-- So the two totals' arrays end holding the totals after the last point. -/
theorem final4 (c : Dev nD) : (dat0 V c).arrAt 4 cfg0.N = (acc (F := Ideal) V c 31 tLast.isLt).1 :=
  (dat0 V c).arrAt_eq_of_cover 4 _ (flushed4_eq V c) fun i =>
    ⟨tLast, (flush0_4 tLast).mpr rfl, by
      show i ∈ ((View.whole main_v88_1).slice (win0_4.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

theorem final5 (c : Dev nD) : (dat0 V c).arrAt 5 cfg0.N = (acc (F := Ideal) V c 31 tLast.isLt).2 :=
  (dat0 V c).arrAt_eq_of_cover 5 _ (flushed5_eq V c) fun i =>
    ⟨tLast, (flush0_5 tLast).mpr rfl, by
      show i ∈ ((View.whole main_v88_2).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 128 from by decide +kernel]; omega⟩

/-- A sum over the 262144 rows is the sum over the 32 tiles of the sums over a tile's 8192 rows. -/
theorem sum_rows (g : Fin 262144 → EReal) :
    ∑ R : Fin 262144, g R = ∑ t : Fin 32, ∑ r : Fin 8192, g ⟨t.val * 8192 + r.val, by have := t.isLt; have := r.isLt; omega⟩ := by
  rw [← Fintype.sum_prod_type' (f := fun (t : Fin 32) (r : Fin 8192) => g ⟨t.val * 8192 + r.val, by have := t.isLt; have := r.isLt; omega⟩)]
  refine (Fintype.sum_equiv (finProdFinEquiv (m := 32) (n := 8192)).symm _ _ fun R => ?_)
  congr 1
  apply Fin.ext
  show R.val = (finProdFinEquiv.symm R).1.val * 8192 + (finProdFinEquiv.symm R).2.val
  have h1 : (finProdFinEquiv.symm R).1.val = R.val / 8192 := rfl
  have h2 : (finProdFinEquiv.symm R).2.val = R.val % 8192 := rfl
  rw [h1, h2]; omega

/-- The first total at column ch is the sum over all rows of the pre-activation; the second, of its square. -/
theorem total1 (c : Dev nD) (ch : Fin 128) :
    (acc (F := Ideal) V c 31 tLast.isLt).1 (ix2 (0 : Fin 1) ch) = ∑ R : Fin 262144, OK V c R ch := by
  have hN : cfg0.N = 32 := N_0
  rw [(acc_apply V c ch 31 tLast.isLt).1, sum_rows, Finset.sum_range]
  refine Finset.sum_congr rfl fun t _ => ?_
  have ht : t.val < cfg0.N := by have := t.isLt; omega
  rw [tile1, dif_pos ht]
  exact Finset.sum_congr rfl fun r _ => tileO_apply V c ⟨t.val, ht⟩ r ch

theorem total2 (c : Dev nD) (ch : Fin 128) :
    (acc (F := Ideal) V c 31 tLast.isLt).2 (ix2 (0 : Fin 1) ch) = ∑ R : Fin 262144, OK V c R ch * OK V c R ch := by
  have hN : cfg0.N = 32 := N_0
  rw [(acc_apply V c ch 31 tLast.isLt).2, sum_rows, Finset.sum_range]
  refine Finset.sum_congr rfl fun t _ => ?_
  have ht : t.val < cfg0.N := by have := t.isLt; omega
  rw [tile2, dif_pos ht]
  exact Finset.sum_congr rfl fun r _ => by rw [tileO_apply V c ⟨t.val, ht⟩ r ch]; rfl

end Final0

end Cert.KernelIdeal.KVal

end
-- ==== Proof.KStage.lean ====
/-
  The kernel program's host stages around the regions, for any float instance: the result buffer is the last re-layout
  (reshape to [8, 32768, 128], transpose to [8, 128, 32768]) of region 1's result array; the mean row region 1 receives is the
  first total divided by the row count, and the inverse-deviation row is rsqrt((second total / count - mean * mean) + eps).
-/
import proofs.«158969_j2714419331078_1_alg».proof.Proof.KRun
import Idealize.ShloMosaic.Lib.StableHlo.Run

set_option maxRecDepth 16384

noncomputable section

namespace Cert.KernelIdeal.KStage

open Cert.KernelIdeal Cert.KernelIdeal.Gen Cert.KernelIdeal.KRun Idealize.ShloMosaic.StableHlo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W9_v100 (c : Dev nD) : W9 m ρ c (Proc.devRef .tc main_v100)
    = transpose S8x128x32768 [0, 2, 1] (shapeCast S8x32768x128 (W8 m ρ c (Proc.devRef .tc main_v98)) shapeCasts_S262144x128_S8x32768x128) transposes_S8x32768x128_S8x128x32768_0_2_1 := by
  show StableHlo.after hostOps2 (W8 m ρ c) (Proc.devRef .tc main_v100) = _
  after_results
  rfl

theorem W7_v90 (c : Dev nD) : W7 m ρ c (Proc.devRef .tc main_v90)
    = Host.divf (W6 m ρ c (Proc.devRef .tc main_v88_1)) (broadcastInDim S1x128 ![] bcast_S_S1x128 (constant S_ .f32 0x48800000#32)) := by
  show StableHlo.after hostOps1 (W6 m ρ c) (Proc.devRef .tc main_v90) = _
  after_results

theorem W7_v97 (c : Dev nD) : W7 m ρ c (Proc.devRef .tc main_v97)
    = Host.rsqrt (addf (subf (Host.divf (W6 m ρ c (Proc.devRef .tc main_v88_2)) (broadcastInDim S1x128 ![] bcast_S_S1x128 (constant S_ .f32 0x48800000#32)))
        (mulf (Host.divf (W6 m ρ c (Proc.devRef .tc main_v88_1)) (broadcastInDim S1x128 ![] bcast_S_S1x128 (constant S_ .f32 0x48800000#32)))
              (Host.divf (W6 m ρ c (Proc.devRef .tc main_v88_1)) (broadcastInDim S1x128 ![] bcast_S_S1x128 (constant S_ .f32 0x48800000#32)))))
        (broadcastInDim S1x128 ![] bcast_S_S1x128 (constant S_ .f32 0x3727C5AC#32))) := by
  show StableHlo.after hostOps1 (W6 m ρ c) (Proc.devRef .tc main_v97) = _
  after_results

end Cert.KernelIdeal.KStage

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.KFinal.lean ====
/-
  What region 1 finds in its operand arrays, over the extended reals, in terms of what region 0 found in its own: the
  pre-activation array o; the mean row M(ch) = (sum over the 262144 rows of o(R, ch)) / 262144; the inverse-deviation row
  rsqrt((sum of o^2 / 262144 - M^2) + eps); the scale and shift rows untouched since region 0's entry.
-/
import proofs.«158969_j2714419331078_1_alg».proof.Proof.KValue0b
import proofs.«158969_j2714419331078_1_alg».proof.Proof.KStage
import proofs.«158969_j2714419331078_1_alg».proof.Proof.LibFiniteOps
import Idealize.ShloMosaic.Lib.IdealHost

set_option maxRecDepth 16384

noncomputable section

namespace Cert.KernelIdeal.KVal

open Cert.KernelIdeal Cert.KernelIdeal.Gen Cert.KernelIdeal.KRun Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt Ideal) ℓ) (ρ : Dev nD → PrngReg)

/-- The column sum of o and of o * o, and the mean and variance the kernel program forms from them. -/
def S1 (c : Dev nD) (ch : Fin 128) : EReal := ∑ R : Fin 262144, OK (V5 m ρ) c R ch
def S2 (c : Dev nD) (ch : Fin 128) : EReal := ∑ R : Fin 262144, OK (V5 m ρ) c R ch * OK (V5 m ρ) c R ch
def MK (c : Dev nD) (ch : Fin 128) : EReal := Ideal.div (S1 m ρ c ch) ((262144 : ℝ) : EReal)
def VK (c : Dev nD) (ch : Fin 128) : EReal := Ideal.div (S2 m ρ c ch) ((262144 : ℝ) : EReal) - MK m ρ c ch * MK m ρ c ch

theorem W6_v88_1 (c : Dev nD) : W6 m ρ c (Proc.devRef .tc main_v88_1) = (acc (F := Ideal) (V5 m ρ) c 31 tLast.isLt).1 :=
  (W6_arr m ρ c 4).trans (final4 (V5 m ρ) c)
theorem W6_v88_2 (c : Dev nD) : W6 m ρ c (Proc.devRef .tc main_v88_2) = (acc (F := Ideal) (V5 m ρ) c 31 tLast.isLt).2 :=
  (W6_arr m ρ c 5).trans (final5 (V5 m ρ) c)

/-- Region 1 finds the pre-activation in its first operand. -/
theorem W7_v88_0 (c : Dev nD) : W7 m ρ c (Proc.devRef .tc main_v88_0) = G3 (V5 m ρ) c :=
  (W7_of m ρ c main_v88_0 (by decide)).trans ((W6_arr m ρ c 3).trans (final3 (V5 m ρ) c))

/-- The mean row. -/
theorem W7_v90_apply (c : Dev nD) (ch : Fin 128) :
    W7 m ρ c (Proc.devRef .tc main_v90) (ix2 (0 : Fin 1) ch) = MK m ρ c ch := by
  rw [KStage.W7_v90, W6_v88_1]
  show Host.divf (F := Ideal) (acc (F := Ideal) (V5 m ρ) c 31 tLast.isLt).1 _ (ix2 (0 : Fin 1) ch) = _
  rw [hostDivf_apply, broadcastInDim_scalar_apply, constant_apply, Cert.LibFiniteOps.ofBits_48800000, total1]
  rfl

/-- The inverse-deviation row. -/
theorem W7_v97_apply (c : Dev nD) (ch : Fin 128) :
    W7 m ρ c (Proc.devRef .tc main_v97) (ix2 (0 : Fin 1) ch)
      = Ideal.rsqrt (VK m ρ c ch + Ideal.ofBits .f32 0x3727C5AC#32) := by
  rw [KStage.W7_v97, W6_v88_1, W6_v88_2]
  show Host.rsqrt (F := Ideal) _ (ix2 (0 : Fin 1) ch) = _
  show Ideal.rsqrt (addf (F := Ideal) _ _ (ix2 (0 : Fin 1) ch)) = _
  rw [addf_apply, subf_apply, mulf_apply, hostDivf_apply, hostDivf_apply, broadcastInDim_scalar_apply, broadcastInDim_scalar_apply,
    constant_apply, constant_apply, Cert.LibFiniteOps.ofBits_48800000, total1, total2]
  rfl

/-- The scale and shift rows reach region 1 as region 0 found them. -/
theorem W7_v86 (c : Dev nD) : W7 m ρ c (Proc.devRef .tc main_v86) = W5 m ρ c (Proc.devRef .tc main_v86) :=
  (W7_of m ρ c main_v86 (by decide)).trans (W6_of_ne m ρ c main_v86 (by decide))
theorem W7_v87 (c : Dev nD) : W7 m ρ c (Proc.devRef .tc main_v87) = W5 m ρ c (Proc.devRef .tc main_v87) :=
  (W7_of m ρ c main_v87 (by decide)).trans (W6_of_ne m ρ c main_v87 (by decide))

end

end Cert.KernelIdeal.KVal

end
-- ==== Proof.KValue1.lean ====
/-
  Region 1's output as values. At every grid point the tile written is the payload of the point's five input
  blocks: normalise, scale, shift, maximum with zero. The output tiles cover the [262144, 128] result array,
  tile t holding rows 8192 t … 8192 t + 8191, so every element of the result is that expression of the
  pre-activation at the same index and of the four rows at its column.
-/
import proofs.«158969_j2714419331078_1_alg».proof.Proof.KRun
import proofs.«158969_j2714419331078_1_alg».proof.Proof.KPayloads
import Idealize.ShloMosaic.Lib.Pipeline.Value

set_option maxRecDepth 16384

noncomputable section

namespace Cert.KernelIdeal.KVal1

open Cert.KernelIdeal Cert.KernelIdeal.Gen Cert.KernelIdeal.KRun Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset vector of a whole two-axis buffer is zero on both axes. -/
theorem hz : (![0, 0] : Fin 2 → Nat) = fun _ => 0 := funext fun a => by fin_cases a <;> rfl

/-- (V1) What the body leaves in the output buffer at any point is the payload of its five inputs. -/
theorem out1 (c : Dev nD) (i : grid1.Coords) (a1 : Memref sig .tc .vmem S8192x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S8192x128 .f32) (h6 : a6.IsWhole)
    (x0 : Vec F S8192x128 .f32) (x1 x2 x3 x4 : Vec F S1x128 .f32) :
    out1_5 c i a1 h1 a2 h2 a3 h3 a4 h4 a5 h5 a6 h6 x0 x1 x2 x3 x4 = k1_pay1 x0 x1 x2 x3 x4 := by
  unfold out1_5
  rw [View.read_writes_eq_canon _ _ _ (cover1_5 c i a1 h1 a2 h2 a3 h3 a4 h4 a5 h5 a6 h6 x0 x1 x2 x3 x4)]
  unfold kernelRun1
  dsimp only
  rw [View.canon_unit_zero hz]
  simp only [View.readAt_eq_ld, h1.read_unread, h2.read_unread, h3.read_unread, h4.read_unread, h5.read_unread,
    View.ld_unit_zero (S := S8192x128) hz, View.ld_unit_zero (S := S1x128) hz]

section Ideal1
variable (V : (c : Dev nD) → (b : Ref sig .tc) → Buf (Elt Ideal) ((c : Thread nD τ).loc b))

/-- The normalisation as a function of the array index i = (R, ch): the pre-activation at i minus the mean of
    column ch, times the column's inverse standard deviation, times its scale, plus its shift, then the maximum
    with zero. -/
def G1 (o : S262144x128.Idx → EReal) (mean inv gam bet : S1x128.Idx → EReal) : S262144x128.Idx → EReal :=
  fun i => max (((o i - mean (ix2 (0 : Fin 1) (i 1 : Fin 128))) * inv (ix2 (0 : Fin 1) (i 1 : Fin 128)))
                  * gam (ix2 (0 : Fin 1) (i 1 : Fin 128)) + bet (ix2 (0 : Fin 1) (i 1 : Fin 128))) 0

/-- The normalisation at an index i = (R, ch), spelled out. -/
theorem G1_apply (o : S262144x128.Idx → EReal) (mean inv gam bet : S1x128.Idx → EReal) (i : S262144x128.Idx) :
    G1 o mean inv gam bet i
      = max (((o i - mean (ix2 (0 : Fin 1) (i 1 : Fin 128))) * inv (ix2 (0 : Fin 1) (i 1 : Fin 128)))
                * gam (ix2 (0 : Fin 1) (i 1 : Fin 128)) + bet (ix2 (0 : Fin 1) (i 1 : Fin 128))) 0 := rfl

/-- The printed index maps, decided over the grid: the tile of the pre-activation and the output tile are both
    tile t of the rows, and the four rows are always block (0, 0). -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the normalisation of the arrays as the region finds them. -/
theorem flushed_eq (c : Dev nD) (t : Fin cfg1.N) :
    (dat1 V c).flushed 5 t = ((cfg1.win 5).blk t).view.read (Elt Ideal)
      (G1 (V c main_v88_0) (V c main_v90) (V c main_v97) (V c main_v86) (V c main_v87)) := by
  show (cfg1.win 5).cut (grid1.coords t) ((dat1 V c).after 5 t) = _
  rw [after1_5, out1]
  obtain ⟨e00, e01, e50, e51, e10, e11, e20, e21, e30, e31, e40, e41⟩ := idx_facts t
  funext j
  obtain ⟨r, ch, rfl⟩ : ∃ (r : Fin 8192) (ch : Fin 128), j = ix2 r ch := ⟨j 0, j 1, eq_ix2 j⟩
  show k1_pay1 (F := Ideal) (iblk1 V c 0 t) (iblk1 V c 1 t) (iblk1 V c 2 t) (iblk1 V c 3 t) (iblk1 V c 4 t) (ix2 r ch)
      = G1 (V c main_v88_0) (V c main_v90) (V c main_v97) (V c main_v86) (V c main_v87)
          (((cfg1.win 5).blk t).view.emb (ix2 r ch))
  rw [KPay.k1_pay1_apply]
  have h0 : ((cfg1.win 0).blk t).view.emb (ix2 r ch) = ((cfg1.win 5).blk t).view.emb (ix2 r ch) := by
    funext a; apply Fin.ext
    match a with
    | ⟨0, _⟩ => show win1_0.index t (0 : Fin 2) * 8192 + 1 * r.val = win1_5.index t (0 : Fin 2) * 8192 + 1 * r.val; omega
    | ⟨1, _⟩ => show win1_0.index t (1 : Fin 2) * 128 + 1 * ch.val = win1_5.index t (1 : Fin 2) * 128 + 1 * ch.val; omega
  have h1 : ((cfg1.win 1).blk t).view.emb (ix2 (0 : Fin 1) ch)
      = ix2 (0 : Fin 1) ((((cfg1.win 5).blk t).view.emb (ix2 r ch)) 1 : Fin 128) := by
    funext a; apply Fin.ext
    match a with
    | ⟨0, _⟩ => show win1_1.index t (0 : Fin 2) * 1 + 1 * 0 = 0; omega
    | ⟨1, _⟩ => show win1_1.index t (1 : Fin 2) * 128 + 1 * ch.val = win1_5.index t (1 : Fin 2) * 128 + 1 * ch.val; omega
  have h2 : ((cfg1.win 2).blk t).view.emb (ix2 (0 : Fin 1) ch)
      = ix2 (0 : Fin 1) ((((cfg1.win 5).blk t).view.emb (ix2 r ch)) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * ch.val = win1_5.index t (1 : Fin 2) * 128 + 1 * ch.val; omega
  have h3 : ((cfg1.win 3).blk t).view.emb (ix2 (0 : Fin 1) ch)
      = ix2 (0 : Fin 1) ((((cfg1.win 5).blk t).view.emb (ix2 r ch)) 1 : Fin 128) := by
    funext a; apply Fin.ext
    match a with
    | ⟨0, _⟩ => show win1_3.index t (0 : Fin 2) * 1 + 1 * 0 = 0; omega
    | ⟨1, _⟩ => show win1_3.index t (1 : Fin 2) * 128 + 1 * ch.val = win1_5.index t (1 : Fin 2) * 128 + 1 * ch.val; omega
  have h4 : ((cfg1.win 4).blk t).view.emb (ix2 (0 : Fin 1) ch)
      = ix2 (0 : Fin 1) ((((cfg1.win 5).blk t).view.emb (ix2 r ch)) 1 : Fin 128) := by
    funext a; apply Fin.ext
    match a with
    | ⟨0, _⟩ => show win1_4.index t (0 : Fin 2) * 1 + 1 * 0 = 0; omega
    | ⟨1, _⟩ => show win1_4.index t (1 : Fin 2) * 128 + 1 * ch.val = win1_5.index t (1 : Fin 2) * 128 + 1 * ch.val; omega
  have r0 : (iblk1 V c 0 t (ix2 r ch) : EReal)
      = (V c main_v88_0 : S262144x128.Idx → EReal) (((cfg1.win 5).blk t).view.emb (ix2 r ch)) := by
    rw [← h0]; rfl
  have r1 : (iblk1 V c 1 t (ix2 (0 : Fin 1) ch) : EReal)
      = (V c main_v90 : S1x128.Idx → EReal) (ix2 (0 : Fin 1) ((((cfg1.win 5).blk t).view.emb (ix2 r ch)) 1 : Fin 128)) :=
    (rfl : (iblk1 V c 1 t (ix2 (0 : Fin 1) ch) : EReal)
        = (V c main_v90 : S1x128.Idx → EReal) (((cfg1.win 1).blk t).view.emb (ix2 (0 : Fin 1) ch))).trans
      (congrArg (V c main_v90 : S1x128.Idx → EReal) h1)
  have r2 : (iblk1 V c 2 t (ix2 (0 : Fin 1) ch) : EReal)
      = (V c main_v97 : S1x128.Idx → EReal) (ix2 (0 : Fin 1) ((((cfg1.win 5).blk t).view.emb (ix2 r ch)) 1 : Fin 128)) :=
    (rfl : (iblk1 V c 2 t (ix2 (0 : Fin 1) ch) : EReal)
        = (V c main_v97 : S1x128.Idx → EReal) (((cfg1.win 2).blk t).view.emb (ix2 (0 : Fin 1) ch))).trans
      (congrArg (V c main_v97 : S1x128.Idx → EReal) h2)
  have r3 : (iblk1 V c 3 t (ix2 (0 : Fin 1) ch) : EReal)
      = (V c main_v86 : S1x128.Idx → EReal) (ix2 (0 : Fin 1) ((((cfg1.win 5).blk t).view.emb (ix2 r ch)) 1 : Fin 128)) :=
    (rfl : (iblk1 V c 3 t (ix2 (0 : Fin 1) ch) : EReal)
        = (V c main_v86 : S1x128.Idx → EReal) (((cfg1.win 3).blk t).view.emb (ix2 (0 : Fin 1) ch))).trans
      (congrArg (V c main_v86 : S1x128.Idx → EReal) h3)
  have r4 : (iblk1 V c 4 t (ix2 (0 : Fin 1) ch) : EReal)
      = (V c main_v87 : S1x128.Idx → EReal) (ix2 (0 : Fin 1) ((((cfg1.win 5).blk t).view.emb (ix2 r ch)) 1 : Fin 128)) :=
    (rfl : (iblk1 V c 4 t (ix2 (0 : Fin 1) ch) : EReal)
        = (V c main_v87 : S1x128.Idx → EReal) (((cfg1.win 4).blk t).view.emb (ix2 (0 : Fin 1) ch))).trans
      (congrArg (V c main_v87 : S1x128.Idx → EReal) h4)
  exact (congrArg₂ max (congrArg₂ (· + ·) (congrArg₂ (· * ·) (congrArg₂ (· * ·) (congrArg₂ (· - ·) r0 r1) r2) r3) r4) rfl)

/-- An index of the result array is in point t's block iff each coordinate is in the block's range. -/
theorem mem_blk (t : Fin cfg1.N) (i : S262144x128.Idx) :
    i ∈ ((cfg1.win 5).blk t).view.set ↔ ∀ a : Fin 2, win1_5.index t a * S8192x128.size a ≤ (i a).val
      ∧ (i a).val < win1_5.index t a * S8192x128.size a + S8192x128.size a := by
  show i ∈ ((View.whole main_v98).slice (win1_5.rect t)).set ↔ _
  rw [View.set_slice_whole, Rect.mem_set_unit]
  exact Iff.rfl

/-- Every index of the result array lies in the block of the point numbered by its row divided by 8192, and every
    point writes its block back. -/
theorem cover (i : S262144x128.Idx) :
    ∃ t : Fin cfg1.N, (cfg1.win 5).flush t = true ∧ i ∈ ((cfg1.win 5).blk t).view.set := by
  have hi0 : (i 0).val < 262144 := (i 0).isLt
  have hi1 : (i 1).val < 128 := (i 1).isLt
  have hN : cfg1.N = 32 := N_1
  have ht : (i 0).val / 8192 < cfg1.N := by rw [hN]; omega
  obtain ⟨-, -, e50, e51, -⟩ := idx_facts ⟨(i 0).val / 8192, ht⟩
  refine ⟨⟨(i 0).val / 8192, ht⟩, flush1_5 _, ?_⟩
  rw [mem_blk]
  intro a
  match a with
  | ⟨0, _⟩ =>
    show win1_5.index ⟨(i 0).val / 8192, ht⟩ (0 : Fin 2) * 8192 ≤ (i 0).val
      ∧ (i 0).val < win1_5.index ⟨(i 0).val / 8192, ht⟩ (0 : Fin 2) * 8192 + 8192
    rw [e50]; show (i 0).val / 8192 * 8192 ≤ (i 0).val ∧ (i 0).val < (i 0).val / 8192 * 8192 + 8192; omega
  | ⟨1, _⟩ =>
    show win1_5.index ⟨(i 0).val / 8192, ht⟩ (1 : Fin 2) * 128 ≤ (i 1).val
      ∧ (i 1).val < win1_5.index ⟨(i 0).val / 8192, ht⟩ (1 : Fin 2) * 128 + 128
    rw [e51]; omega

/-- (V2) The result array after the region is the normalisation of the arrays as the region finds them. -/
theorem final (c : Dev nD) :
    (dat1 V c).arrAt 5 cfg1.N = G1 (V c main_v88_0) (V c main_v90) (V c main_v97) (V c main_v86) (V c main_v87) :=
  (dat1 V c).arrAt_eq_of_cover 5 _ (fun t _ => flushed_eq V c t) cover

/-- (V2) at an index. -/
theorem final_apply (c : Dev nD) (i : S262144x128.Idx) :
    (dat1 V c).arrAt 5 cfg1.N i
      = G1 (V c main_v88_0) (V c main_v90) (V c main_v97) (V c main_v86) (V c main_v87) i :=
  congrFun (final V c) i

end Ideal1

end Cert.KernelIdeal.KVal1

end
-- ==== Proof.KLayout.lean ====
/-
  The first program's HOST LAYOUT operations read at an index: transposes, the four-piece stacking along the
  leading axis, and the reshapes between [4,3,128] and [12,128], [128] and [1,128], [262144,·] and [8,32768,·].

  Row j of the stacked [12, ·] array is row f of piece k for j = 3 k + f; the same split of j re-lays the
  [4,3,128] weight as [12,128]. A sum over the 12 stacked rows is therefore the sum over the four pieces of
  the sums over their three rows; regrouping a finite sum uses only that addition is commutative and
  associative, which holds for the extended reals too.
-/
import proofs.«158969_j2714419331078_1_alg».proof.KernelIdeal
import proofs.«158969_j2714419331078_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KLay

open Idealize.ShloMosaic Idealize.ShloMosaic.ValueIdx
open Cert.KernelIdeal
open scoped BigOperators

variable [Cert.KernelIdeal.Facts]
open Facts₀ Facts

variable {α : Type}

/-- Row 3 k + f of a stack of four three-row pieces: row f of piece k. -/
def row (k : Fin 4) (f : Fin 3) : Fin 12 := ⟨3 * k.val + f.val, by omega⟩

theorem row_val (k : Fin 4) (f : Fin 3) : (row k f).val = 3 * k.val + f.val := rfl

/-- Row b 32768 + n of the flattened [262144, ·] array: position n of batch b. -/
def flat (b : Fin 8) (n : Fin 32768) : Fin 262144 := ⟨b.val * 32768 + n.val, by omega⟩

theorem flat_val (b : Fin 8) (n : Fin 32768) : (flat b n).val = b.val * 32768 + n.val := rfl

/-- (L1) The [262144, 3] array transposed to [3, 262144] reads, at (f, r), the operand at (r, f). -/
theorem transpose_apply_fr (t : S262144x3.Idx → α) (f : Fin 3) (r : Fin 262144) :
    transpose S3x262144 [1, 0] t transposes_S262144x3_S3x262144_1_0 (ix2 f r) = t (ix2 r f) :=
  transpose_ix2_apply t _ f r

/-- (L2) The stack of four [3, 262144] pieces along the leading axis reads, at row 3 k + f, piece k at row f. -/
theorem concat4_apply (u : Fin 4 → (S3x262144.Idx → α)) (k : Fin 4) (f : Fin 3) (r : Fin 262144) :
    concatenate S12x262144 0 [⟨S3x262144, u 0⟩, ⟨S3x262144, u 1⟩, ⟨S3x262144, u 2⟩, ⟨S3x262144, u 3⟩]
        concatenates_S3x262144_S3x262144_S3x262144_S3x262144_S12x262144_d0 (ix2 (row k f) r)
      = u k (ix2 f r) := by
  have hi : ∀ b : Fin S3x262144.rank, b.cast (rfl : S3x262144.rank = S12x262144.rank) ≠ (0 : Fin S12x262144.rank) →
      ((ix2 f r : S3x262144.Idx) b).val = ((ix2 (row k f) r : S12x262144.Idx) (b.cast rfl)).val := fun b hb =>
    match b, hb with
    | ⟨0, _⟩, hb => absurd rfl hb
    | ⟨1, _⟩, _ => rfl
  match k with
  | ⟨0, _⟩ =>
    exact concatenate_apply_piece (t := S12x262144) 0
      [⟨S3x262144, u 0⟩, ⟨S3x262144, u 1⟩, ⟨S3x262144, u 2⟩, ⟨S3x262144, u 3⟩]
      concatenates_S3x262144_S3x262144_S3x262144_S3x262144_S12x262144_d0 (ix2 (row ⟨0, by omega⟩ f) r)
      0 (by show 0 < 4; omega) S3x262144 (u 0) rfl rfl 0 rfl (ix2 f r) hi
      (by show 0 + f.val = 3 * 0 + f.val; omega)
  | ⟨1, _⟩ =>
    exact concatenate_apply_piece (t := S12x262144) 0
      [⟨S3x262144, u 0⟩, ⟨S3x262144, u 1⟩, ⟨S3x262144, u 2⟩, ⟨S3x262144, u 3⟩]
      concatenates_S3x262144_S3x262144_S3x262144_S3x262144_S12x262144_d0 (ix2 (row ⟨1, by omega⟩ f) r)
      1 (by show 1 < 4; omega) S3x262144 (u 1) rfl rfl 3 rfl (ix2 f r) hi
      (by show 3 + f.val = 3 * 1 + f.val; omega)
  | ⟨2, _⟩ =>
    exact concatenate_apply_piece (t := S12x262144) 0
      [⟨S3x262144, u 0⟩, ⟨S3x262144, u 1⟩, ⟨S3x262144, u 2⟩, ⟨S3x262144, u 3⟩]
      concatenates_S3x262144_S3x262144_S3x262144_S3x262144_S12x262144_d0 (ix2 (row ⟨2, by omega⟩ f) r)
      2 (by show 2 < 4; omega) S3x262144 (u 2) rfl rfl 6 rfl (ix2 f r) hi
      (by show 6 + f.val = 3 * 2 + f.val; omega)
  | ⟨3, _⟩ =>
    exact concatenate_apply_piece (t := S12x262144) 0
      [⟨S3x262144, u 0⟩, ⟨S3x262144, u 1⟩, ⟨S3x262144, u 2⟩, ⟨S3x262144, u 3⟩]
      concatenates_S3x262144_S3x262144_S3x262144_S3x262144_S12x262144_d0 (ix2 (row ⟨3, by omega⟩ f) r)
      3 (by show 3 < 4; omega) S3x262144 (u 3) rfl rfl 9 rfl (ix2 f r) hi
      (by show 9 + f.val = 3 * 3 + f.val; omega)

/-- (L3) The [4, 3, 128] weight re-laid as [12, 128] reads, at (3 k + f, ch), the operand at (k, f, ch). -/
theorem reshape_w_apply (w : S4x3x128.Idx → α) (k : Fin 4) (f : Fin 3) (ch : Fin 128) :
    shapeCast S12x128 w shapeCasts_S4x3x128_S12x128 (ix2 (row k f) ch) = w (ix3 k f ch) :=
  shapeCast_apply w _ _ _ (by
    rw [Shape.rowMajor_val_three, Shape.rowMajor_val_two]
    show (k.val * 3 + f.val) * 128 + ch.val = (3 * k.val + f.val) * 128 + ch.val
    omega)

/-- (L4) A [128] vector re-laid as [1, 128] reads, at (0, ch), the operand at ch. -/
theorem reshape_row_apply (v : S128.Idx → α) (ch : Fin 128) :
    shapeCast S1x128 v shapeCasts_S128_S1x128 (ix2 (0 : Fin 1) ch) = v (ix1 ch) :=
  shapeCast_a_1a_apply v _ 0 ch

/-- (L5) The [262144, 128] result re-laid as [8, 32768, 128] and its last two axes transposed reads, at
    (b, ch, n), the operand at (b 32768 + n, ch). -/
theorem out_relayout_apply (y : S262144x128.Idx → α) (b : Fin 8) (ch : Fin 128) (n : Fin 32768) :
    transpose S8x128x32768 [0, 2, 1] (shapeCast S8x32768x128 y shapeCasts_S262144x128_S8x32768x128)
        transposes_S8x32768x128_S8x128x32768_0_2_1 (ix3 b ch n)
      = y (ix2 (flat b n) ch) :=
  (transpose_ix3_021_apply _ _ b ch n).trans (shapeCast_apply y _ _ _ (by
    rw [Shape.rowMajor_val_three, Shape.rowMajor_val_two]
    show (b.val * 32768 + n.val) * 128 + ch.val = (b.val * 32768 + n.val) * 128 + ch.val
    rfl))

/-- (L6) The [8, 3, 32768] input with its last two axes transposed and re-laid as [262144, 3] reads, at
    (b 32768 + n, f), the operand at (b, f, n). -/
theorem in_relayout_apply (x : S8x3x32768.Idx → α) (b : Fin 8) (f : Fin 3) (n : Fin 32768) :
    shapeCast S262144x3 (transpose S8x32768x3 [0, 2, 1] x transposes_S8x3x32768_S8x32768x3_0_2_1)
        shapeCasts_S8x32768x3_S262144x3 (ix2 (flat b n) f)
      = x (ix3 b f n) :=
  (shapeCast_apply _ _ _ (ix3 b n f) (by
    rw [Shape.rowMajor_val_three, Shape.rowMajor_val_two]
    show (b.val * 32768 + n.val) * 3 + f.val = (b.val * 32768 + n.val) * 3 + f.val
    rfl)).trans (transpose_ix3_021_apply x _ b n f)

/-! ### Regrouping a sum over the 12 stacked rows -/

/-- A sum over the 12 rows is the sum over the four pieces of the sums over their three rows. -/
theorem sum12_rows {M : Type} [AddCommMonoid M] (g : Fin 12 → M) :
    ∑ j : Fin 12, g j = ∑ k : Fin 4, ∑ f : Fin 3, g (row k f) :=
  let e : Fin 4 × Fin 3 ≃ Fin 12 := (finProdFinEquiv (m := 4) (n := 3))
  calc ∑ j : Fin 12, g j
      = ∑ p : Fin 4 × Fin 3, g (e p) := (Equiv.sum_comp e g).symm
    _ = ∑ k : Fin 4, ∑ f : Fin 3, g (e (k, f)) := Fintype.sum_prod_type (fun p : Fin 4 × Fin 3 => g (e p))
    _ = ∑ k : Fin 4, ∑ f : Fin 3, g (row k f) :=
        Finset.sum_congr rfl fun k _ => Finset.sum_congr rfl fun f _ =>
          congrArg g (Fin.ext (by show f.val + 3 * k.val = 3 * k.val + f.val; omega))

/-- (S12) A 12-term contraction grouped as four 3-term contractions added left to right. -/
theorem sum12_grouped {M : Type} [AddCommMonoid M] (g : Fin 12 → M) :
    ∑ j : Fin 12, g j
      = (((∑ f : Fin 3, g (row 0 f)) + (∑ f : Fin 3, g (row 1 f))) + (∑ f : Fin 3, g (row 2 f)))
          + (∑ f : Fin 3, g (row 3 f)) := by
  rw [sum12_rows g, Fin.sum_univ_four]

/-- (S12) The same with each 3-term contraction started from zero, as a contraction onto a zero accumulator
    reads. -/
theorem sum12_grouped_zero_add {M : Type} [AddCommMonoid M] (g : Fin 12 → M) :
    ∑ j : Fin 12, g j
      = (((0 + ∑ f : Fin 3, g (row 0 f)) + (0 + ∑ f : Fin 3, g (row 1 f))) + (0 + ∑ f : Fin 3, g (row 2 f)))
          + (0 + ∑ f : Fin 3, g (row 3 f)) := by
  simp only [zero_add]
  exact sum12_grouped g

/-- (S12) at products of extended reals, the form of the two programs' contractions. -/
theorem sum12_mul_grouped (A B : Fin 12 → EReal) :
    ∑ j : Fin 12, A j * B j
      = (((0 + ∑ f : Fin 3, A (row 0 f) * B (row 0 f)) + (0 + ∑ f : Fin 3, A (row 1 f) * B (row 1 f)))
            + (0 + ∑ f : Fin 3, A (row 2 f) * B (row 2 f)))
          + (0 + ∑ f : Fin 3, A (row 3 f) * B (row 3 f)) :=
  sum12_grouped_zero_add (fun j => A j * B j)

end Cert.KernelIdeal.KLay

end
-- ==== Proof.RefRead.lean ====
/- The reference's stages READ AT AN INDEX, at the ideal instance (a float an extended real): the weight products and
   the column sums as plain finite sums over a coordinate, the broadcasts, slices and re-layouts as the operand at the
   index with the matching coordinates, the statistics and the normalised result entry by entry. Indices are built from
   coordinates of literal extent (node row `r : Fin 262144`, channel `ch : Fin 128`, feature `f : Fin 3`). A sum onto
   the zero literal is stated with the zero absorbed. -/
import proofs.«158969_j2714419331078_1_alg».proof.Proof.RefRun
import proofs.«158969_j2714419331078_1_alg».proof.Proof.LibFiniteOps
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.LibFiniteOps

/-! ## Broadcasts and slices -/

/-- A row repeated down the rows reads, at row `r` and channel `ch`, the row's entry at `ch`. -/
theorem rows_apply (v : (⟨S128, .f32⟩ : BufTy).Contents (Elt Ideal)) (r : Fin 262144) (ch : Fin 128) :
    rows (F := Ideal) v (ix2 r ch) = v (ix1 ch) := by
  unfold rows
  refine (broadcastInDim_apply _ _ _ (ix2 r ch) (ix2 (0 : Fin 1) ch) fun a => ?_).trans
    (broadcastInDim_apply _ _ _ (ix2 (0 : Fin 1) ch) (ix1 ch) fun a => ?_)
  · match a with | ⟨0, _⟩ => rfl | ⟨1, _⟩ => rfl
  · match a with | ⟨0, _⟩ => rfl

/-- The weight of order 0 reads, at feature `f` and channel `ch`, the weight array at `(0, f, ch)`. -/
theorem wk0_apply (w : (⟨S4x3x128, .f32⟩ : BufTy).Contents (Elt Ideal)) (f : Fin 3) (ch : Fin 128) :
    wk0 (F := Ideal) w (ix2 f ch) = w (ix3 (0 : Fin 4) f ch) := by
  unfold wk0
  rw [shapeCast_1ab_ab_apply]
  exact extractStridedSlice_apply _ _ _ _ _ fun a => by
    match a with | ⟨0, _⟩ => rfl | ⟨1, _⟩ => exact (Nat.zero_add _).symm | ⟨2, _⟩ => exact (Nat.zero_add _).symm
/-- The weight of order 1 likewise, at `(1, f, ch)`. -/
theorem wk1_apply (w : (⟨S4x3x128, .f32⟩ : BufTy).Contents (Elt Ideal)) (f : Fin 3) (ch : Fin 128) :
    wk1 (F := Ideal) w (ix2 f ch) = w (ix3 (1 : Fin 4) f ch) := by
  unfold wk1
  rw [shapeCast_1ab_ab_apply]
  exact extractStridedSlice_apply _ _ _ _ _ fun a => by
    match a with | ⟨0, _⟩ => rfl | ⟨1, _⟩ => exact (Nat.zero_add _).symm | ⟨2, _⟩ => exact (Nat.zero_add _).symm
/-- The weight of order 2 likewise, at `(2, f, ch)`. -/
theorem wk2_apply (w : (⟨S4x3x128, .f32⟩ : BufTy).Contents (Elt Ideal)) (f : Fin 3) (ch : Fin 128) :
    wk2 (F := Ideal) w (ix2 f ch) = w (ix3 (2 : Fin 4) f ch) := by
  unfold wk2
  rw [shapeCast_1ab_ab_apply]
  exact extractStridedSlice_apply _ _ _ _ _ fun a => by
    match a with | ⟨0, _⟩ => rfl | ⟨1, _⟩ => exact (Nat.zero_add _).symm | ⟨2, _⟩ => exact (Nat.zero_add _).symm
/-- The weight of order 3 likewise, at `(3, f, ch)`. -/
theorem wk3_apply (w : (⟨S4x3x128, .f32⟩ : BufTy).Contents (Elt Ideal)) (f : Fin 3) (ch : Fin 128) :
    wk3 (F := Ideal) w (ix2 f ch) = w (ix3 (3 : Fin 4) f ch) := by
  unfold wk3
  rw [shapeCast_1ab_ab_apply]
  exact extractStridedSlice_apply _ _ _ _ _ fun a => by
    match a with | ⟨0, _⟩ => rfl | ⟨1, _⟩ => exact (Nat.zero_add _).symm | ⟨2, _⟩ => exact (Nat.zero_add _).symm

/-! ## Sums -/

/-- The column sums read, at channel `ch`, the sum of the column's 262144 entries (the zero initial value absorbed). -/
theorem colSum_apply (P : (⟨S262144x128, .f32⟩ : BufTy).Contents (Elt Ideal)) (ch : Fin 128) :
    colSum (F := Ideal) P (ix1 ch) = ∑ r : Fin 262144, P (ix2 r ch) := by
  unfold colSum
  rw [hostReduceAdd_apply, Ideal.hostReduceAdd_single reducesTo_S262144x128_S128_d0 (by decide), constant_apply,
    Ideal.ofBits_zero_f32, zero_add]
  refine Finset.sum_congr rfl fun k _ => ?_
  exact congrArg P (funext fun a => Fin.ext (by match a with | ⟨0, _⟩ => rfl | ⟨1, _⟩ => rfl))

/-- The operand indices of a weight product: at the output index `i` and contraction position `q` the term is read at
    `(i 0, q)` and the weight at `(q, i 1)`. -/
theorem dotw_lhs0 (i : S262144x128.Idx) (q : dot_S262144x3_S3x128_S262144x128_1_0_0_1_n_n.contr.Idx) : (dot_S262144x3_S3x128_S262144x128_1_0_0_1_n_n.lhsIdx i q 0).val = (i 0).val := by
  unfold DotDims.lhsIdx
  rw [dif_neg (show ¬(0 : Fin S262144x3.rank) ∈ dot_S262144x3_S3x128_S262144x128_1_0_0_1_n_n.lhsBatch by decide),
    dif_pos (show (0 : Fin S262144x3.rank) ∈ dot_S262144x3_S3x128_S262144x128_1_0_0_1_n_n.lhsNonContracting by decide)]
  rfl
@[inherit_doc dotw_lhs0]
theorem dotw_lhs1 (i : S262144x128.Idx) (q : dot_S262144x3_S3x128_S262144x128_1_0_0_1_n_n.contr.Idx) : (dot_S262144x3_S3x128_S262144x128_1_0_0_1_n_n.lhsIdx i q 1).val = (q ⟨0, by decide⟩).val :=
  dot_S262144x3_S3x128_S262144x128_1_0_0_1_n_n.lhsIdx_val_of_single rfl i q
@[inherit_doc dotw_lhs0]
theorem dotw_rhs0 (i : S262144x128.Idx) (q : dot_S262144x3_S3x128_S262144x128_1_0_0_1_n_n.contr.Idx) : (dot_S262144x3_S3x128_S262144x128_1_0_0_1_n_n.rhsIdx i q 0).val = (q ⟨0, by decide⟩).val :=
  dot_S262144x3_S3x128_S262144x128_1_0_0_1_n_n.rhsIdx_val_of_single rfl i q
@[inherit_doc dotw_lhs0]
theorem dotw_rhs1 (i : S262144x128.Idx) (q : dot_S262144x3_S3x128_S262144x128_1_0_0_1_n_n.contr.Idx) : (dot_S262144x3_S3x128_S262144x128_1_0_0_1_n_n.rhsIdx i q 1).val = (i 1).val := by
  unfold DotDims.rhsIdx
  rw [dif_neg (show ¬(1 : Fin S3x128.rank) ∈ dot_S262144x3_S3x128_S262144x128_1_0_0_1_n_n.rhsBatch by decide),
    dif_pos (show (1 : Fin S3x128.rank) ∈ dot_S262144x3_S3x128_S262144x128_1_0_0_1_n_n.rhsNonContracting by decide)]
  rfl

/-- A weight product reads, at row `r` and channel `ch`, the sum over the three features of the term's entry times the
    weight's (no accumulator shows: the contraction's own zero is absorbed). -/
theorem dotw_apply (t : (⟨S262144x3, .f32⟩ : BufTy).Contents (Elt Ideal)) (v : (⟨S3x128, .f32⟩ : BufTy).Contents (Elt Ideal)) (r : Fin 262144) (ch : Fin 128) :
    dotw (F := Ideal) t v (ix2 r ch) = ∑ f : Fin 3, t (ix2 r f) * v (ix2 f ch) := by
  unfold dotw
  simp only [Host.dotGeneral]
  rw [Ideal.dotGeneral_apply, ← Equiv.sum_comp (contrEquiv1 dot_S262144x3_S3x128_S262144x128_1_0_0_1_n_n 3 rfl rfl).symm]
  refine Finset.sum_congr rfl fun k _ => ?_
  have hk := contrEquiv1_symm_val dot_S262144x3_S3x128_S262144x128_1_0_0_1_n_n 3 rfl rfl k
  have el : dot_S262144x3_S3x128_S262144x128_1_0_0_1_n_n.lhsIdx (ix2 r ch) ((contrEquiv1 dot_S262144x3_S3x128_S262144x128_1_0_0_1_n_n 3 rfl rfl).symm k) = ix2 r k := funext fun a => Fin.ext (by
    match a with
    | ⟨0, _⟩ => exact dotw_lhs0 _ _
    | ⟨1, _⟩ => exact (dotw_lhs1 _ _).trans hk)
  have er : dot_S262144x3_S3x128_S262144x128_1_0_0_1_n_n.rhsIdx (ix2 r ch) ((contrEquiv1 dot_S262144x3_S3x128_S262144x128_1_0_0_1_n_n 3 rfl rfl).symm k) = ix2 k ch := funext fun a => Fin.ext (by
    match a with
    | ⟨0, _⟩ => exact (dotw_rhs0 _ _).trans hk
    | ⟨1, _⟩ => exact dotw_rhs1 _ _)
  rw [el, er]

/-! ## The statistics -/

/-- The reciprocal square root of an array reads entry by entry. -/
theorem hostRsqrt_apply {s : Shape} (x : FVec Ideal s .f32) (i : s.Idx) : Host.rsqrt x i = Ideal.rsqrt (x i) := rfl

/-- The column means read, at channel `ch`, the column's sum divided by the row count. -/
theorem meanOf_apply (P : (⟨S262144x128, .f32⟩ : BufTy).Contents (Elt Ideal)) (ch : Fin 128) :
    meanOf (F := Ideal) P (ix1 ch) = Ideal.div (∑ r : Fin 262144, P (ix2 r ch)) ((262144 : ℝ) : EReal) := by
  unfold meanOf
  rw [hostDivf_apply, colSum_apply, broadcastInDim_scalar_apply, constant_apply, ofBits_48800000]

/-- The variance's own centring reads, at row `r` and channel `ch`, the entry minus the column's mean. -/
theorem centred_apply (P : (⟨S262144x128, .f32⟩ : BufTy).Contents (Elt Ideal)) (r : Fin 262144) (ch : Fin 128) :
    centred (F := Ideal) P (ix2 r ch) = P (ix2 r ch) - meanOf (F := Ideal) P (ix1 ch) := by
  rw [meanOf_apply]
  unfold centred
  rw [subf_apply]
  refine congrArg (P (ix2 r ch) - ·) ?_
  refine (broadcastInDim_apply _ _ _ (ix2 r ch) (ix2 (0 : Fin 1) ch) fun a => ?_).trans ?_
  · match a with | ⟨0, _⟩ => rfl | ⟨1, _⟩ => rfl
  rw [hostDivf_apply, broadcastInDim_scalar_apply, constant_apply, ofBits_48800000]
  refine congrArg (fun z => Ideal.div z ((262144 : ℝ) : EReal)) ?_
  refine (broadcastInDim_apply _ _ _ (ix2 (0 : Fin 1) ch) (ix1 ch) fun a => ?_).trans (colSum_apply P ch)
  match a with | ⟨0, _⟩ => rfl

/-- The variance's divisor is the row count: no degree of freedom is taken off. -/
theorem dof_apply : dof (F := Ideal) ix0 = ((262144 : ℝ) : EReal) := by
  unfold dof
  rw [subf_apply, constant_apply, ofBits_48800000, sitofp_apply, constantI_apply]
  have h0 : (0#32 : BitVec 32).toInt = 0 := by decide
  show ((262144 : ℝ) : EReal) - (((0#32 : BitVec 32).toInt : ℝ) : EReal) = _
  rw [h0, Int.cast_zero, EReal.coe_zero, sub_zero]

/-- The column variances read, at channel `ch`, the sum of the squared deviations from the column's mean divided by the
    row count: the guard on the divisor holds, the divisor being positive. -/
theorem varOf_apply (P : (⟨S262144x128, .f32⟩ : BufTy).Contents (Elt Ideal)) (ch : Fin 128) :
    varOf (F := Ideal) P (ix1 ch)
      = Ideal.div (∑ r : Fin 262144, (P (ix2 r ch) - meanOf (F := Ideal) P (ix1 ch)) * (P (ix2 r ch) - meanOf (F := Ideal) P (ix1 ch)))
          ((262144 : ℝ) : EReal) := by
  unfold varOf
  rw [select_apply]
  have hc : broadcastInDim S128 ![] bcast_S_S128 (cmpf (F := Ideal) .ogt (dof (F := Ideal)) (constant S_ .f32 0x00000000#32)) (ix1 ch) = 1#1 := by
    rw [broadcastInDim_scalar_apply, cmpf_apply, dof_apply, constant_apply, Ideal.ofBits_zero_f32]
    have hpos : (0 : EReal) < ((262144 : ℝ) : EReal) := by exact_mod_cast (by norm_num : (0 : ℝ) < 262144)
    show Ideal.cmp .ogt ((262144 : ℝ) : EReal) 0 = 1#1
    simp [Ideal.cmp, hpos]
  rw [hc, select_one, hostDivf_apply, colSum_apply, broadcastInDim_scalar_apply, dof_apply]
  refine congrArg (fun z => Ideal.div z ((262144 : ℝ) : EReal)) (Finset.sum_congr rfl fun r _ => ?_)
  rw [mulf_apply, centred_apply]

/-! ## The normalised result -/

/-- The result before its final re-layout (%116): normalised, scaled, shifted and rectified, one row per node. -/
def act {F : FTy → Type} [FloatOps F] (P : (⟨S262144x128, .f32⟩ : BufTy).Contents (Elt F))
    (mu va g be : (⟨S128, .f32⟩ : BufTy).Contents (Elt F)) : (⟨S262144x128, .f32⟩ : BufTy).Contents (Elt F) :=
  maximumf
    (addf (mulf (mulf (subf P (rows mu))
        (rows (Host.rsqrt (addf va (broadcastInDim S128 ![] bcast_S_S128 (constant S_ .f32 0x3727C5AC#32))))))
      (rows g)) (rows be))
    (broadcastInDim S262144x128 ![] bcast_S_S262144x128 (constant S_ .f32 0x00000000#32))

/-- The result is that array re-laid: split into 8 blocks of 32768 rows, each block transposed. -/
theorem outOf_eq {F : FTy → Type} [FloatOps F] (P : (⟨S262144x128, .f32⟩ : BufTy).Contents (Elt F))
    (mu va g be : (⟨S128, .f32⟩ : BufTy).Contents (Elt F)) :
    outOf P mu va g be = transpose S8x128x32768 [0, 2, 1]
      (shapeCast S8x32768x128 (act P mu va g be) shapeCasts_S262144x128_S8x32768x128)
      transposes_S8x32768x128_S8x128x32768_0_2_1 := rfl

/-- The result before its re-layout reads, at row `r` and channel `ch`: the entry minus the mean, times the reciprocal
    square root of the variance plus the literal, times the scale, plus the shift, and zero where that is negative. -/
theorem act_apply (P : (⟨S262144x128, .f32⟩ : BufTy).Contents (Elt Ideal)) (mu va g be : (⟨S128, .f32⟩ : BufTy).Contents (Elt Ideal)) (r : Fin 262144) (ch : Fin 128) :
    act (F := Ideal) P mu va g be (ix2 r ch)
      = max ((P (ix2 r ch) - mu (ix1 ch)) * Ideal.rsqrt (va (ix1 ch) + Ideal.ofBits .f32 0x3727C5AC#32) * g (ix1 ch)
          + be (ix1 ch)) 0 := by
  unfold act
  rw [maximumf_apply, addf_apply, mulf_apply, mulf_apply, subf_apply, rows_apply, rows_apply, rows_apply, rows_apply,
    hostRsqrt_apply, addf_apply, broadcastInDim_scalar_apply, broadcastInDim_scalar_apply, constant_apply, constant_apply,
    Ideal.ofBits_zero_f32]

/-- The final re-layout: the result at block `bb`, channel `ch` and position `n` is the array before it at row
    `bb * 32768 + n` and channel `ch`. -/
theorem outOf_apply (P : (⟨S262144x128, .f32⟩ : BufTy).Contents (Elt Ideal)) (mu va g be : (⟨S128, .f32⟩ : BufTy).Contents (Elt Ideal)) (bb : Fin 8) (ch : Fin 128) (n : Fin 32768) :
    outOf (F := Ideal) P mu va g be (ix3 bb ch n)
      = act (F := Ideal) P mu va g be (ix2 (⟨bb.val * 32768 + n.val, by have := bb.isLt; have := n.isLt; omega⟩ : Fin 262144) ch) := by
  rw [outOf_eq, transpose_ix3_021_apply]
  refine shapeCast_apply _ _ _ _ ?_
  rw [Shape.rowMajor_val_two, Shape.rowMajor_val_three]
  rfl

/-! ## The pre-activation and the program's result -/

/-- The pre-activation reads, at row `r` and channel `ch`: the four orders' sums over the three features of the term's
    entry times the weight's, added in the program's order, plus the bias at `ch`. -/
theorem pre_apply (x : (⟨S8x3x32768, .f32⟩ : BufTy).Contents (Elt Ideal)) (ei : (⟨S2x4194304, .i32⟩ : BufTy).Contents (Elt Ideal)) (ew : (⟨S4194304, .f32⟩ : BufTy).Contents (Elt Ideal))
    (w : (⟨S4x3x128, .f32⟩ : BufTy).Contents (Elt Ideal)) (b : (⟨S128, .f32⟩ : BufTy).Contents (Elt Ideal)) (r : Fin 262144) (ch : Fin 128) :
    pre (F := Ideal) x ei ew w b (ix2 r ch)
      = (∑ f : Fin 3, tx0 (F := Ideal) x (ix2 r f) * w (ix3 (0 : Fin 4) f ch))
        + (∑ f : Fin 3, tx1 (F := Ideal) x ei ew (ix2 r f) * w (ix3 (1 : Fin 4) f ch))
        + (∑ f : Fin 3, tx2 (F := Ideal) x ei ew (ix2 r f) * w (ix3 (2 : Fin 4) f ch))
        + (∑ f : Fin 3, tx3 (F := Ideal) x ei ew (ix2 r f) * w (ix3 (3 : Fin 4) f ch))
        + b (ix1 ch) := by
  unfold pre acc
  simp only [addf_apply, rows_apply, dotw_apply, wk0_apply, wk1_apply, wk2_apply, wk3_apply]

/-- The program's result at block `bb`, channel `ch` and position `n`: the normalised pre-activation at row
    `bb * 32768 + n` and channel `ch`, with the pre-activation's own column means and variances. -/
theorem out_apply (x : (⟨S8x3x32768, .f32⟩ : BufTy).Contents (Elt Ideal)) (ei : (⟨S2x4194304, .i32⟩ : BufTy).Contents (Elt Ideal)) (ew : (⟨S4194304, .f32⟩ : BufTy).Contents (Elt Ideal))
    (w : (⟨S4x3x128, .f32⟩ : BufTy).Contents (Elt Ideal)) (b g be : (⟨S128, .f32⟩ : BufTy).Contents (Elt Ideal)) (bb : Fin 8) (ch : Fin 128) (n : Fin 32768) :
    out (F := Ideal) x ei ew w b g be (ix3 bb ch n)
      = act (F := Ideal) (pre (F := Ideal) x ei ew w b) (meanOf (F := Ideal) (pre (F := Ideal) x ei ew w b))
          (varOf (F := Ideal) (pre (F := Ideal) x ei ew w b)) g be
          (ix2 (⟨bb.val * 32768 + n.val, by have := bb.isLt; have := n.isLt; omega⟩ : Fin 262144) ch) := by
  unfold out mean var
  exact outOf_apply _ _ _ _ _ bb ch n

end Cert.ReferenceIdeal.RefValue

end
-- ==== Proof.RefFinite.lean ====
/- Finiteness carried through the reference program's stages, at the ideal instance (a float an extended real): from real
   node features, edge weights, weights and bias — and any edge index — every stage up to the pre-activation is an array of
   real numbers. The algebraic identities the value proof uses hold on the extended reals only where all operands are real. -/
import proofs.«158969_j2714419331078_1_alg».proof.Proof.RefRun
import proofs.«158969_j2714419331078_1_alg».proof.Proof.LibFiniteOps

noncomputable section

namespace Cert.ReferenceIdeal.RefValue

open Cert.ReferenceIdeal Cert.ReferenceIdeal.Gen Idealize.ShloMosaic Cert.LibFiniteOps

/-! ## Finiteness carried through the reference

At the ideal instance a float is an extended real. Every stage of the reference up to the pre-activation maps arrays of
real numbers to arrays of real numbers, whatever the edge index holds: the re-layouts, slices, broadcasts and gathers
only read entries; the sums (the weighted degree, the propagations, the weight products) are finite sums of reals; and the
one reciprocal square root is taken of the degree raised to at least a positive literal, so of a positive real. -/

variable {x : (⟨S8x3x32768, .f32⟩ : BufTy).Contents (Elt Ideal)} {ei : (⟨S2x4194304, .i32⟩ : BufTy).Contents (Elt Ideal)} {ew : (⟨S4194304, .f32⟩ : BufTy).Contents (Elt Ideal)}
  {w : (⟨S4x3x128, .f32⟩ : BufTy).Contents (Elt Ideal)} {b : (⟨S128, .f32⟩ : BufTy).Contents (Elt Ideal)}

/-- The node features re-laid are real. -/
theorem allReal_tx0 (hx : AllReal x) : AllReal (tx0 (F := Ideal) x) := by
  unfold tx0; exact allReal_shapeCast _ (allReal_transpose _ _ hx)

/-- The edge weights with self-loops zeroed are real: each is the weight or zero. -/
theorem allReal_ew0 (hew : AllReal ew) : AllReal (ew0 (F := Ideal) ei ew) := by
  unfold ew0; exact allReal_select _ (allReal_broadcastInDim _ _ (allReal_constant ofBits_00000000)) hew

/-- The weighted degree is real: zero plus a finite sum of real weights. -/
theorem allReal_deg (hew : AllReal ew) : AllReal (deg (F := Ideal) ei ew) := by
  unfold deg
  exact allReal_scatterAdd _ _ (allReal_broadcastInDim _ _ (allReal_constant ofBits_00000000)) (allReal_ew0 hew)

/-- The inverse square root degree is real: the root is taken of the degree raised to at least a positive literal, and
    the other branch is zero. -/
theorem allReal_dis (hew : AllReal ew) : AllReal (dis (F := Ideal) ei ew) := by
  unfold dis
  exact allReal_select _
    (allReal_hostRsqrt (allPos_maximumf (allReal_deg hew)
      (allPos_broadcastInDim _ _ (allPos_constant pos_2B8CBCCC ofBits_2B8CBCCC))))
    (allReal_broadcastInDim _ _ (allReal_constant ofBits_00000000))

/-- The normalised edge weight is real: a product of three reals. -/
theorem allReal_normw (hew : AllReal ew) : AllReal (normw (F := Ideal) ei ew) := by
  unfold normw
  exact allReal_mulf (allReal_mulf (allReal_hostNegf (allReal_gather _ _ (allReal_dis hew))) (allReal_ew0 hew))
    (allReal_gather _ _ (allReal_dis hew))

section Propagation
variable {nw : (⟨S4194304, .f32⟩ : BufTy).Contents (Elt Ideal)} {t p q : (⟨S262144x3, .f32⟩ : BufTy).Contents (Elt Ideal)}

/-- The messages of a propagation are real. -/
theorem allReal_msg (hnw : AllReal nw) (ht : AllReal t) : AllReal (msg (F := Ideal) ei nw t) := by
  unfold msg
  exact allReal_mulf (allReal_broadcastInDim _ _ (allReal_broadcastInDim _ _ hnw)) (allReal_gather _ _ ht)

/-- The zero array is real. -/
theorem allReal_zeros3 : AllReal (zeros3 (F := Ideal)) := by
  unfold zeros3; exact allReal_broadcastInDim _ _ (allReal_constant ofBits_00000000)

/-- A propagation of a real array with real weights is real: zero plus a finite sum of real messages. -/
theorem allReal_prop (hnw : AllReal nw) (ht : AllReal t) : AllReal (prop (F := Ideal) ei nw t) := by
  unfold prop; exact allReal_scatterAdd _ _ allReal_zeros3 (allReal_msg hnw ht)

/-- A step of the recurrence keeps reals. -/
theorem allReal_cheb (hp : AllReal p) (hq : AllReal q) : AllReal (cheb (F := Ideal) p q) := by
  unfold cheb
  exact allReal_subf (allReal_mulf (allReal_broadcastInDim _ _ (allReal_constant ofBits_40000000)) hp) hq
end Propagation

/-- The first-, second- and third-order terms are real. -/
theorem allReal_tx1 (hx : AllReal x) (hew : AllReal ew) : AllReal (tx1 (F := Ideal) x ei ew) := by
  unfold tx1; exact allReal_prop (allReal_normw hew) (allReal_tx0 hx)
@[inherit_doc allReal_tx1]
theorem allReal_tx2 (hx : AllReal x) (hew : AllReal ew) : AllReal (tx2 (F := Ideal) x ei ew) := by
  unfold tx2; exact allReal_cheb (allReal_prop (allReal_normw hew) (allReal_tx1 hx hew)) (allReal_tx0 hx)
@[inherit_doc allReal_tx1]
theorem allReal_tx3 (hx : AllReal x) (hew : AllReal ew) : AllReal (tx3 (F := Ideal) x ei ew) := by
  unfold tx3; exact allReal_cheb (allReal_prop (allReal_normw hew) (allReal_tx2 hx hew)) (allReal_tx1 hx hew)

/-- The four weight slices are real. -/
theorem allReal_wk0 (hw : AllReal w) : AllReal (wk0 (F := Ideal) w) := by
  unfold wk0; exact allReal_shapeCast _ (allReal_extractStridedSlice _ _ hw)
@[inherit_doc allReal_wk0]
theorem allReal_wk1 (hw : AllReal w) : AllReal (wk1 (F := Ideal) w) := by
  unfold wk1; exact allReal_shapeCast _ (allReal_extractStridedSlice _ _ hw)
@[inherit_doc allReal_wk0]
theorem allReal_wk2 (hw : AllReal w) : AllReal (wk2 (F := Ideal) w) := by
  unfold wk2; exact allReal_shapeCast _ (allReal_extractStridedSlice _ _ hw)
@[inherit_doc allReal_wk0]
theorem allReal_wk3 (hw : AllReal w) : AllReal (wk3 (F := Ideal) w) := by
  unfold wk3; exact allReal_shapeCast _ (allReal_extractStridedSlice _ _ hw)

/-- A weight product of real arrays is real: zero plus a sum of three products. -/
theorem allReal_dotw {t : (⟨S262144x3, .f32⟩ : BufTy).Contents (Elt Ideal)} {v : (⟨S3x128, .f32⟩ : BufTy).Contents (Elt Ideal)} (ht : AllReal t) (hv : AllReal v) :
    AllReal (dotw (F := Ideal) t v) := by
  unfold dotw; exact allReal_dotGeneral _ _ ht hv

/-- A row repeated down the rows is real. -/
theorem allReal_rows {v : (⟨S128, .f32⟩ : BufTy).Contents (Elt Ideal)} (hv : AllReal v) : AllReal (rows (F := Ideal) v) := by
  unfold rows; exact allReal_broadcastInDim _ _ (allReal_broadcastInDim _ _ hv)

/-- The four weight products added up are real. -/
theorem allReal_acc (hx : AllReal x) (hew : AllReal ew) (hw : AllReal w) : AllReal (acc (F := Ideal) x ei ew w) := by
  unfold acc
  exact allReal_addf (allReal_addf (allReal_addf (allReal_dotw (allReal_tx0 hx) (allReal_wk0 hw))
    (allReal_dotw (allReal_tx1 hx hew) (allReal_wk1 hw))) (allReal_dotw (allReal_tx2 hx hew) (allReal_wk2 hw)))
    (allReal_dotw (allReal_tx3 hx hew) (allReal_wk3 hw))

/-- From real node features, edge weights, weights and bias (and any edge index) the pre-activation is real. -/
theorem allReal_pre (hx : AllReal x) (hew : AllReal ew) (hw : AllReal w) (hb : AllReal b) :
    AllReal (pre (F := Ideal) x ei ew w b) := by
  unfold pre; exact allReal_addf (allReal_acc hx hew hw) (allReal_rows hb)

end Cert.ReferenceIdeal.RefValue

end
-- ==== Proof.LibVarIdentity.lean ====
/-
  The population variance of finitely many REAL numbers, computed two ways inside the extended reals.

  For real numbers o_i (i in a finite set of N elements), with S1 the sum of the o_i, S2 the sum of their squares
  and M = S1 / N their mean,

      S2 / N - M * M   =   (sum of (o_i - M)^2) / N.

  Over the reals this is the textbook identity: expanding the square,
  sum (o_i - M)^2 = S2 - 2 M S1 + N M^2 = S2 - N M^2, because S1 = N M. Inside the extended reals the identity needs
  every o_i to be real (with an infinite entry both sides are conventions about sums of infinities and differ), which
  is why the statement takes the o_i as reals and coerces them. The quotient is the ideal instance's division
  (Ideal.div), which by a nonzero real is multiplication by the reciprocal. Nothing here mentions a particular
  program.
-/
import Idealize.ShloMosaic.PureOps.Ideal.Laws
import Mathlib.Tactic.FieldSimp
import Mathlib.Tactic.Ring

noncomputable section

namespace Cert.LibVarIdentity

open Idealize.ShloMosaic
open scoped BigOperators

/-- The coercion from the reals to the extended reals commutes with finite sums. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance identity over the reals, with division written as multiplication by the reciprocal of the
    count N (nonzero, equal to the number of summands): mean of squares minus square of mean equals the mean
    of the squared deviations from the mean. -/
theorem real_var {ι : Type} (s : Finset ι) (o : ι → ℝ) (N : ℝ) (hN : N = (s.card : ℝ)) (hN0 : N ≠ 0) :
    (∑ i ∈ s, o i * o i) * (1 / N) - ((∑ i ∈ s, o i) * (1 / N)) * ((∑ i ∈ s, o i) * (1 / N))
      = (∑ i ∈ s, (o i - (∑ i ∈ s, o i) * (1 / N)) * (o i - (∑ i ∈ s, o i) * (1 / N))) * (1 / N) := by
  set m : ℝ := (∑ i ∈ s, o i) * (1 / N) with hm
  have hS1 : ∑ i ∈ s, o i = N * m := by rw [hm]; field_simp
  have hexp : ∀ i, (o i - m) * (o i - m) = o i * o i - 2 * m * o i + m * m := fun i => by ring
  have hsum : ∑ i ∈ s, (o i - m) * (o i - m) = (∑ i ∈ s, o i * o i) - 2 * m * (∑ i ∈ s, o i) + N * (m * m) := by
    simp only [hexp, Finset.sum_add_distrib, Finset.sum_sub_distrib, ← Finset.mul_sum, Finset.sum_const,
      nsmul_eq_mul, ← hN]
    ring
  rw [hsum, hS1]
  field_simp
  ring

/-- Division of a real by a nonzero real, at the ideal instance, is the real quotient (written with the
    reciprocal). -/
theorem div_coe_coe (a : ℝ) {N : ℝ} (hN0 : N ≠ 0) :
    Ideal.div (a : EReal) (N : EReal) = ((a * (1 / N) : ℝ) : EReal) := by
  rw [Ideal.div_coe hN0, EReal.coe_mul]

/-- The variance identity inside the extended reals, for real entries indexed by a finite set s of N
    elements (N a nonzero real equal to the cardinality): with S1 the sum of the entries, S2 the sum of their
    squares and M = S1 / N,   S2 / N - M * M = (sum over s of (o_i - M) * (o_i - M)) / N. -/
theorem var_two_ways {ι : Type} (s : Finset ι) (o : ι → ℝ) (N : ℝ) (hN : N = (s.card : ℝ)) (hN0 : N ≠ 0) :
    Ideal.div (∑ i ∈ s, (o i : EReal) * (o i : EReal)) (N : EReal)
        - Ideal.div (∑ i ∈ s, (o i : EReal)) (N : EReal) * Ideal.div (∑ i ∈ s, (o i : EReal)) (N : EReal)
      = Ideal.div (∑ i ∈ s, ((o i : EReal) - Ideal.div (∑ i ∈ s, (o i : EReal)) (N : EReal))
                          * ((o i : EReal) - Ideal.div (∑ i ∈ s, (o i : EReal)) (N : EReal))) (N : EReal) := by
  have h1 : ∑ i ∈ s, (o i : EReal) = ((∑ i ∈ s, o i : ℝ) : EReal) := coe_finset_sum s o
  have h2 : ∑ i ∈ s, (o i : EReal) * (o i : EReal) = ((∑ i ∈ s, o i * o i : ℝ) : EReal) := by
    rw [← coe_finset_sum s (fun i => o i * o i)]
    exact Finset.sum_congr rfl (fun i _ => (EReal.coe_mul _ _).symm)
  rw [h1, h2, div_coe_coe _ hN0, div_coe_coe _ hN0]
  have h3 : ∑ i ∈ s, ((o i : EReal) - (((∑ i ∈ s, o i) * (1 / N) : ℝ) : EReal))
                  * ((o i : EReal) - (((∑ i ∈ s, o i) * (1 / N) : ℝ) : EReal))
      = ((∑ i ∈ s, (o i - (∑ i ∈ s, o i) * (1 / N)) * (o i - (∑ i ∈ s, o i) * (1 / N)) : ℝ) : EReal) := by
    rw [← coe_finset_sum s (fun i => (o i - (∑ i ∈ s, o i) * (1 / N)) * (o i - (∑ i ∈ s, o i) * (1 / N)))]
    exact Finset.sum_congr rfl (fun i _ => by rw [← EReal.coe_sub, ← EReal.coe_mul])
  rw [h3, div_coe_coe _ hN0, ← EReal.coe_mul, ← EReal.coe_sub, real_var s o N hN hN0]

/-- The same identity with each sum started from the initial value zero, the form a host sum with a zero
    initial value takes:  (0 + S2) / N - M * M = (0 + sum of (o_i - M) * (o_i - M)) / N  with  M = (0 + S1) / N. -/
theorem var_two_ways_zero_add {ι : Type} (s : Finset ι) (o : ι → ℝ) (N : ℝ) (hN : N = (s.card : ℝ)) (hN0 : N ≠ 0) :
    Ideal.div (0 + ∑ i ∈ s, (o i : EReal) * (o i : EReal)) (N : EReal)
        - Ideal.div (0 + ∑ i ∈ s, (o i : EReal)) (N : EReal) * Ideal.div (0 + ∑ i ∈ s, (o i : EReal)) (N : EReal)
      = Ideal.div (0 + ∑ i ∈ s, ((o i : EReal) - Ideal.div (0 + ∑ i ∈ s, (o i : EReal)) (N : EReal))
                          * ((o i : EReal) - Ideal.div (0 + ∑ i ∈ s, (o i : EReal)) (N : EReal))) (N : EReal) := by
  simp only [zero_add]
  exact var_two_ways s o N hN hN0

/-- The identity over a whole finite index type of N elements. -/
theorem var_two_ways_univ {ι : Type} [Fintype ι] (o : ι → ℝ) (N : ℝ) (hN : N = (Fintype.card ι : ℝ)) (hN0 : N ≠ 0) :
    Ideal.div (∑ i, (o i : EReal) * (o i : EReal)) (N : EReal)
        - Ideal.div (∑ i, (o i : EReal)) (N : EReal) * Ideal.div (∑ i, (o i : EReal)) (N : EReal)
      = Ideal.div (∑ i, ((o i : EReal) - Ideal.div (∑ i, (o i : EReal)) (N : EReal))
                      * ((o i : EReal) - Ideal.div (∑ i, (o i : EReal)) (N : EReal))) (N : EReal) :=
  var_two_ways Finset.univ o N (by rw [hN, Finset.card_univ]) hN0

/-- The identity over a whole finite index type, each sum started from zero. -/
theorem var_two_ways_univ_zero_add {ι : Type} [Fintype ι] (o : ι → ℝ) (N : ℝ) (hN : N = (Fintype.card ι : ℝ))
    (hN0 : N ≠ 0) :
    Ideal.div (0 + ∑ i, (o i : EReal) * (o i : EReal)) (N : EReal)
        - Ideal.div (0 + ∑ i, (o i : EReal)) (N : EReal) * Ideal.div (0 + ∑ i, (o i : EReal)) (N : EReal)
      = Ideal.div (0 + ∑ i, ((o i : EReal) - Ideal.div (0 + ∑ i, (o i : EReal)) (N : EReal))
                          * ((o i : EReal) - Ideal.div (0 + ∑ i, (o i : EReal)) (N : EReal))) (N : EReal) :=
  var_two_ways_zero_add Finset.univ o N (by rw [hN, Finset.card_univ]) hN0

/-- The identity stated on an array of extended reals all of whose entries (over the finite set s) are real:
    with M = (sum of v) / N,   (sum of v_i * v_i) / N - M * M = (sum of (v_i - M) * (v_i - M)) / N. -/
theorem var_two_ways_of_real {ι : Type} (s : Finset ι) (v : ι → EReal) (hv : ∀ i ∈ s, ∃ r : ℝ, v i = (r : EReal))
    (N : ℝ) (hN : N = (s.card : ℝ)) (hN0 : N ≠ 0) :
    Ideal.div (∑ i ∈ s, v i * v i) (N : EReal)
        - Ideal.div (∑ i ∈ s, v i) (N : EReal) * Ideal.div (∑ i ∈ s, v i) (N : EReal)
      = Ideal.div (∑ i ∈ s, (v i - Ideal.div (∑ i ∈ s, v i) (N : EReal))
                          * (v i - Ideal.div (∑ i ∈ s, v i) (N : EReal))) (N : EReal) := by
  choose! o ho using hv
  have e1 : ∑ i ∈ s, v i = ∑ i ∈ s, (o i : EReal) := Finset.sum_congr rfl (fun i hi => ho i hi)
  have e2 : ∑ i ∈ s, v i * v i = ∑ i ∈ s, (o i : EReal) * (o i : EReal) :=
    Finset.sum_congr rfl (fun i hi => by rw [ho i hi])
  have e3 : ∀ M : EReal, ∑ i ∈ s, (v i - M) * (v i - M) = ∑ i ∈ s, ((o i : EReal) - M) * ((o i : EReal) - M) :=
    fun M => Finset.sum_congr rfl (fun i hi => by rw [ho i hi])
  rw [e3, e2, e1]
  exact var_two_ways s o N hN hN0

/-- The array form with each sum started from the initial value zero. -/
theorem var_two_ways_of_real_zero_add {ι : Type} (s : Finset ι) (v : ι → EReal)
    (hv : ∀ i ∈ s, ∃ r : ℝ, v i = (r : EReal)) (N : ℝ) (hN : N = (s.card : ℝ)) (hN0 : N ≠ 0) :
    Ideal.div (0 + ∑ i ∈ s, v i * v i) (N : EReal)
        - Ideal.div (0 + ∑ i ∈ s, v i) (N : EReal) * Ideal.div (0 + ∑ i ∈ s, v i) (N : EReal)
      = Ideal.div (0 + ∑ i ∈ s, (v i - Ideal.div (0 + ∑ i ∈ s, v i) (N : EReal))
                          * (v i - Ideal.div (0 + ∑ i ∈ s, v i) (N : EReal))) (N : EReal) := by
  simp only [zero_add]
  exact var_two_ways_of_real s v hv N hN hN0

end Cert.LibVarIdentity

end
-- ==== Proof.KBridge.lean ====
/-
  The two programs' results agree over the extended reals, given what region 0 finds in its operand arrays: the stacked
  features S(3k + f, R) = T_k(R, f), the flat weight Wf(3k + f, ch) = W(k, f, ch), the bias, scale and shift rows.
  * o(R, ch) = sum_j S(j, R) Wf(j, ch) + bias(ch) is the reference's pre-activation: the 12-term sum grouped by order k is the
    four 3-term products added in the reference's order (commutativity and associativity of + only).
  * the mean rows agree, being the same sum over the 262144 rows divided by the same count;
  * the variances agree: E[o^2] - E[o]^2 = E[(o - E o)^2] when every o(R, ch) is a real number;
  * so the normalised, clamped arrays agree entry by entry, and both programs apply the same last re-layout.
-/
import proofs.«158969_j2714419331078_1_alg».proof.Proof.KFinal
import proofs.«158969_j2714419331078_1_alg».proof.Proof.KValue1
import proofs.«158969_j2714419331078_1_alg».proof.Proof.KLayout
import proofs.«158969_j2714419331078_1_alg».proof.Proof.RefRead
import proofs.«158969_j2714419331078_1_alg».proof.Proof.RefFinite
import proofs.«158969_j2714419331078_1_alg».proof.Proof.LibVarIdentity

set_option maxRecDepth 16384

noncomputable section

namespace Cert.KernelIdeal.KVal

open Cert.KernelIdeal Cert.KernelIdeal.Gen Cert.KernelIdeal.KRun Idealize.ShloMosaic.ValueIdx Cert.LibFiniteOps
open Cert.KernelIdeal.KLay (row flat)
open Cert.ReferenceIdeal.RefValue (pre meanOf varOf act out tx0 tx1 tx2 tx3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt Ideal) ℓ) (ρ : Dev nD → PrngReg) (c : Dev nD)
variable (x : (⟨Cert.ReferenceIdeal.S8x3x32768, .f32⟩ : BufTy).Contents (Elt Ideal)) (ei : (⟨Cert.ReferenceIdeal.S2x4194304, .i32⟩ : BufTy).Contents (Elt Ideal)) (ew : (⟨Cert.ReferenceIdeal.S4194304, .f32⟩ : BufTy).Contents (Elt Ideal))
  (w : (⟨Cert.ReferenceIdeal.S4x3x128, .f32⟩ : BufTy).Contents (Elt Ideal)) (b g be : (⟨Cert.ReferenceIdeal.S128, .f32⟩ : BufTy).Contents (Elt Ideal))
variable (hS0 : ∀ (f : Fin 3) (R : Fin 262144), stackA (V5 m ρ) c (ix2 (row 0 f) R) = tx0 (F := Ideal) x (ix2 R f))
  (hS1 : ∀ (f : Fin 3) (R : Fin 262144), stackA (V5 m ρ) c (ix2 (row 1 f) R) = tx1 (F := Ideal) x ei ew (ix2 R f))
  (hS2 : ∀ (f : Fin 3) (R : Fin 262144), stackA (V5 m ρ) c (ix2 (row 2 f) R) = tx2 (F := Ideal) x ei ew (ix2 R f))
  (hS3 : ∀ (f : Fin 3) (R : Fin 262144), stackA (V5 m ρ) c (ix2 (row 3 f) R) = tx3 (F := Ideal) x ei ew (ix2 R f))
  (hW : ∀ (k : Fin 4) (f : Fin 3) (ch : Fin 128), wflatA (V5 m ρ) c (ix2 (row k f) ch) = w (ix3 k f ch))
  (hB : ∀ ch : Fin 128, biasA (V5 m ρ) c (ix2 (0 : Fin 1) ch) = b (ix1 ch))

include hS0 hS1 hS2 hS3 hW hB in
/-- The kernel's o is the reference's pre-activation. -/
theorem OK_eq (R : Fin 262144) (ch : Fin 128) :
    OK (V5 m ρ) c R ch = pre (F := Ideal) x ei ew w b (ix2 R ch) := by
  unfold OK
  rw [Cert.ReferenceIdeal.RefValue.pre_apply,
    Cert.KernelIdeal.KLay.sum12_grouped (fun j => stackA (V5 m ρ) c (ix2 j R) * wflatA (V5 m ρ) c (ix2 j ch)), hB]
  simp only [hS0, hS1, hS2, hS3, hW]

include hS0 hS1 hS2 hS3 hW hB in
theorem MK_eq (ch : Fin 128) :
    MK m ρ c ch = meanOf (F := Ideal) (pre (F := Ideal) x ei ew w b) (ix1 ch) := by
  unfold MK S1
  rw [Cert.ReferenceIdeal.RefValue.meanOf_apply]
  simp only [OK_eq m ρ c x ei ew w b hS0 hS1 hS2 hS3 hW hB]

include hS0 hS1 hS2 hS3 hW hB in
theorem VK_eq (hP : AllReal (pre (F := Ideal) x ei ew w b)) (ch : Fin 128) :
    VK m ρ c ch = varOf (F := Ideal) (pre (F := Ideal) x ei ew w b) (ix1 ch) := by
  unfold VK MK S1 S2
  rw [Cert.ReferenceIdeal.RefValue.varOf_apply, Cert.ReferenceIdeal.RefValue.meanOf_apply]
  simp only [OK_eq m ρ c x ei ew w b hS0 hS1 hS2 hS3 hW hB]
  exact Cert.LibVarIdentity.var_two_ways_of_real Finset.univ (fun R : Fin 262144 => pre (F := Ideal) x ei ew w b (ix2 R ch))
    (fun R _ => hP _) 262144 (by rw [Finset.card_univ, Fintype.card_fin]; norm_num) (by norm_num)

variable (hG : ∀ ch : Fin 128, (W5 m ρ c (Proc.devRef .tc main_v86) : S1x128.Idx → EReal) (ix2 (0 : Fin 1) ch) = g (ix1 ch))
  (hBe : ∀ ch : Fin 128, (W5 m ρ c (Proc.devRef .tc main_v87) : S1x128.Idx → EReal) (ix2 (0 : Fin 1) ch) = be (ix1 ch))

include hS0 hS1 hS2 hS3 hW hB hG hBe in
/-- THE RESULT BUFFERS AGREE. -/
theorem result_eq (hP : AllReal (pre (F := Ideal) x ei ew w b)) :
    W9 m ρ c (Proc.devRef .tc main_v100) = out (F := Ideal) x ei ew w b g be := by
  funext i
  obtain ⟨bb, ch, n, rfl⟩ : ∃ (bb : Fin 8) (ch : Fin 128) (n : Fin 32768), i = ix3 bb ch n := ⟨i 0, i 1, i 2, eq_ix3 i⟩
  rw [KStage.W9_v100, Cert.ReferenceIdeal.RefValue.out_apply, Cert.ReferenceIdeal.RefValue.act_apply]
  refine (Cert.KernelIdeal.KLay.out_relayout_apply _ bb ch n).trans ?_
  have e : W8 m ρ c (Proc.devRef .tc main_v98) = (dat1 (V7 m ρ) c).arrAt 5 cfg1.N := W8_arr m ρ c 5
  rw [e, Cert.KernelIdeal.KVal1.final_apply]
  show Cert.KernelIdeal.KVal1.G1 (W7 m ρ c (Proc.devRef .tc main_v88_0)) (W7 m ρ c (Proc.devRef .tc main_v90)) (W7 m ρ c (Proc.devRef .tc main_v97))
      (W7 m ρ c (Proc.devRef .tc main_v86)) (W7 m ρ c (Proc.devRef .tc main_v87)) (ix2 (flat bb n) ch) = _
  rw [W7_v88_0, W7_v86, W7_v87]
  show max (((OK (V5 m ρ) c (flat bb n) ch - W7 m ρ c (Proc.devRef .tc main_v90) (ix2 (0 : Fin 1) ch)) * W7 m ρ c (Proc.devRef .tc main_v97) (ix2 (0 : Fin 1) ch))
      * (W5 m ρ c (Proc.devRef .tc main_v86) : S1x128.Idx → EReal) (ix2 (0 : Fin 1) ch) + (W5 m ρ c (Proc.devRef .tc main_v87) : S1x128.Idx → EReal) (ix2 (0 : Fin 1) ch)) 0 = _
  rw [W7_v90_apply, W7_v97_apply, hG, hBe, MK_eq m ρ c x ei ew w b hS0 hS1 hS2 hS3 hW hB, VK_eq m ρ c x ei ew w b hS0 hS1 hS2 hS3 hW hB hP,
    OK_eq m ρ c x ei ew w b hS0 hS1 hS2 hS3 hW hB]
  rfl

end

end Cert.KernelIdeal.KVal

end
-- ==== Proof.KHost.lean ====
/- The host prefix of the kernel program read back as pure terms.

   Before its first kernel launch the kernel program computes, on the host, the same graph part as the reference with the
   same operations: the node features re-laid, the normalised edge weight, three propagations along the edges and the
   Chebyshev recurrence. It then stacks the four terms, each transposed, into one array, and re-lays the weight, the bias,
   the scale and the shift. This file reads the five arrays the kernels are launched on back as terms of the argument
   arrays, the four Chebyshev terms being the reference's own stage functions of them. -/
import proofs.«158969_j2714419331078_1_alg».proof.Proof.Gen.KernelIdeal.Launch
import proofs.«158969_j2714419331078_1_alg».proof.Proof.RefRun
import Idealize.ShloMosaic.Lib.StableHlo.Run
import Idealize.ShloMosaic.Lib.Pipeline.Frame

noncomputable section

namespace Cert.KernelIdeal.KHost

open Cert.KernelIdeal Cert.KernelIdeal.Gen Idealize.ShloMosaic Idealize.ShloMosaic.TcCoe Idealize.SL.Sem Idealize.ShloMosaic.StableHlo
open Cert.ReferenceIdeal (RefValue.tx0 RefValue.tx1 RefValue.tx2 RefValue.tx3 RefValue.src RefValue.dst RefValue.ew0 RefValue.dis RefValue.normw)

variable {F : FTy → Type} [FloatOps F]

/-! ## The host prefix in seven stretches -/

/-- The host prefix's operations 1 … 26 of 112: the node features re-laid, the two edge index rows, the edge weights with self-loops zeroed, the weighted degree and its inverse square root (the program's first four stretches). -/
abbrev opsKA : List (HloOp τ sig (Elt F)) :=
  [ StableHlo.unary main_arg0 main_v0 ((transpose S8x32768x3 [0, 2, 1] · transposes_S8x3x32768_S8x32768x3_0_2_1) : (⟨S8x3x32768, .f32⟩ : BufTy).Contents (Elt F) → (⟨S8x32768x3, .f32⟩ : BufTy).Contents (Elt F)),
    StableHlo.reshape main_v0 main_v1 rfl shapeCasts_S8x32768x3_S262144x3,
    StableHlo.unary main_arg1 main_v2 ((extractStridedSlice S1x4194304 ![0, 0] · slices_S2x4194304_S1x4194304_0_0) : (⟨S2x4194304, .i32⟩ : BufTy).Contents (Elt F) → (⟨S1x4194304, .i32⟩ : BufTy).Contents (Elt F)),
    StableHlo.reshape main_v2 main_v3 rfl shapeCasts_S1x4194304_S4194304,
    StableHlo.unary main_arg1 main_v4 ((extractStridedSlice S1x4194304 ![1, 0] · slices_S2x4194304_S1x4194304_1_0) : (⟨S2x4194304, .i32⟩ : BufTy).Contents (Elt F) → (⟨S1x4194304, .i32⟩ : BufTy).Contents (Elt F)),
    StableHlo.reshape main_v4 main_v5 rfl shapeCasts_S1x4194304_S4194304,
    StableHlo.binary main_v3 main_v5 main_v6 (cmpi .eq : (⟨S4194304, .i32⟩ : BufTy).Contents (Elt F) → (⟨S4194304, .i32⟩ : BufTy).Contents (Elt F) → (⟨S4194304, .i1⟩ : BufTy).Contents (Elt F)),
    StableHlo.nullary main_cst (constant S_ .f32 0x00000000#32),
    StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4194304, .f32⟩) (broadcastInDim S4194304 ![] bcast_S_S4194304),
    StableHlo.TRef.ternary (.of main_v6 : StableHlo.TRef sig ⟨S4194304, .i1⟩) (.of main_call0_v1 : StableHlo.TRef sig ⟨S4194304, .f32⟩) (.of main_arg2 : StableHlo.TRef sig ⟨S4194304, .f32⟩) (.of main_v7 : StableHlo.TRef sig ⟨S4194304, .f32⟩) select,
    StableHlo.nullary main_cst_0 (constant S_ .f32 0x00000000#32),
    StableHlo.unary main_cst_0 main_v8 (broadcastInDim S262144 ![] bcast_S_S262144 : (⟨S_, .f32⟩ : BufTy).Contents (Elt F) → (⟨S262144, .f32⟩ : BufTy).Contents (Elt F)),
    StableHlo.unary main_v3 main_v9 (broadcastInDim S4194304x1 ![0] bcast_S4194304_S4194304x1_0 : (⟨S4194304, .i32⟩ : BufTy).Contents (Elt F) → (⟨S4194304x1, .i32⟩ : BufTy).Contents (Elt F)),
    StableHlo.ternary main_v8 main_v9 main_v7 main_v10 ((fun x i u => Host.scatterAdd scatter_S262144_S4194304x1_S4194304_n_0_0_1 x i u) : (⟨S262144, .f32⟩ : BufTy).Contents (Elt F) → (⟨S4194304x1, .i32⟩ : BufTy).Contents (Elt F) → (⟨S4194304, .f32⟩ : BufTy).Contents (Elt F) → (⟨S262144, .f32⟩ : BufTy).Contents (Elt F)),
    StableHlo.nullary main_cst_1 (constant S_ .f32 0x00000000#32),
    StableHlo.unary main_cst_1 main_v11 (broadcastInDim S262144 ![] bcast_S_S262144 : (⟨S_, .f32⟩ : BufTy).Contents (Elt F) → (⟨S262144, .f32⟩ : BufTy).Contents (Elt F)),
    StableHlo.binary main_v10 main_v11 main_v12 (cmpf .ogt : (⟨S262144, .f32⟩ : BufTy).Contents (Elt F) → (⟨S262144, .f32⟩ : BufTy).Contents (Elt F) → (⟨S262144, .i1⟩ : BufTy).Contents (Elt F)),
    StableHlo.nullary main_cst_2 (constant S_ .f32 0x2B8CBCCC#32),
    StableHlo.unary main_cst_2 main_v13 (broadcastInDim S262144 ![] bcast_S_S262144 : (⟨S_, .f32⟩ : BufTy).Contents (Elt F) → (⟨S262144, .f32⟩ : BufTy).Contents (Elt F)),
    StableHlo.binary main_v10 main_v13 main_v14 (maximumf : (⟨S262144, .f32⟩ : BufTy).Contents (Elt F) → (⟨S262144, .f32⟩ : BufTy).Contents (Elt F) → (⟨S262144, .f32⟩ : BufTy).Contents (Elt F)),
    StableHlo.unary main_v14 main_v15 (Host.rsqrt : (⟨S262144, .f32⟩ : BufTy).Contents (Elt F) → (⟨S262144, .f32⟩ : BufTy).Contents (Elt F)),
    StableHlo.nullary main_cst_3 (constant S_ .f32 0x00000000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S262144, .f32⟩) (broadcastInDim S262144 ![] bcast_S_S262144),
    StableHlo.TRef.ternary (.of main_v12 : StableHlo.TRef sig ⟨S262144, .i1⟩) (.of main_v15 : StableHlo.TRef sig ⟨S262144, .f32⟩) (.of main_call1_v1 : StableHlo.TRef sig ⟨S262144, .f32⟩) (.of main_v16 : StableHlo.TRef sig ⟨S262144, .f32⟩) select ]

/-- The host prefix's operations 27 … 47 of 112: the two index wraps, the gathers of the inverse square root degree, the normalised edge weight. -/
abbrev opsKB : List (HloOp τ sig (Elt F)) :=
  [ StableHlo.nullary main_c (constantI S_ 32 0#32),
    StableHlo.unary main_c main_v17 (broadcastInDim S4194304 ![] bcast_S_S4194304 : (⟨S_, .i32⟩ : BufTy).Contents (Elt F) → (⟨S4194304, .i32⟩ : BufTy).Contents (Elt F)),
    StableHlo.binary main_v3 main_v17 main_v18 (cmpi .slt : (⟨S4194304, .i32⟩ : BufTy).Contents (Elt F) → (⟨S4194304, .i32⟩ : BufTy).Contents (Elt F) → (⟨S4194304, .i1⟩ : BufTy).Contents (Elt F)),
    StableHlo.nullary main_c_4 (constantI S_ 32 262144#32),
    StableHlo.unary main_c_4 main_v19 (broadcastInDim S4194304 ![] bcast_S_S4194304 : (⟨S_, .i32⟩ : BufTy).Contents (Elt F) → (⟨S4194304, .i32⟩ : BufTy).Contents (Elt F)),
    StableHlo.binary main_v3 main_v19 main_v20 (addi : (⟨S4194304, .i32⟩ : BufTy).Contents (Elt F) → (⟨S4194304, .i32⟩ : BufTy).Contents (Elt F) → (⟨S4194304, .i32⟩ : BufTy).Contents (Elt F)),
    StableHlo.ternary main_v18 main_v20 main_v3 main_v21 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v21 main_v22 (broadcastInDim S4194304x1 ![0] bcast_S4194304_S4194304x1_0 : (⟨S4194304, .i32⟩ : BufTy).Contents (Elt F) → (⟨S4194304x1, .i32⟩ : BufTy).Contents (Elt F)),
    StableHlo.binary main_v16 main_v22 main_v23 ((fun x i => Host.gather gather_S262144_S4194304x1_S4194304_n_0_n_n_0_1_1 x i) : (⟨S262144, .f32⟩ : BufTy).Contents (Elt F) → (⟨S4194304x1, .i32⟩ : BufTy).Contents (Elt F) → (⟨S4194304, .f32⟩ : BufTy).Contents (Elt F)),
    StableHlo.unary main_v23 main_v24 (Host.negf : (⟨S4194304, .f32⟩ : BufTy).Contents (Elt F) → (⟨S4194304, .f32⟩ : BufTy).Contents (Elt F)),
    StableHlo.binary main_v24 main_v7 main_v25 (mulf : (⟨S4194304, .f32⟩ : BufTy).Contents (Elt F) → (⟨S4194304, .f32⟩ : BufTy).Contents (Elt F) → (⟨S4194304, .f32⟩ : BufTy).Contents (Elt F)),
    StableHlo.nullary main_c_5 (constantI S_ 32 0#32),
    StableHlo.unary main_c_5 main_v26 (broadcastInDim S4194304 ![] bcast_S_S4194304 : (⟨S_, .i32⟩ : BufTy).Contents (Elt F) → (⟨S4194304, .i32⟩ : BufTy).Contents (Elt F)),
    StableHlo.binary main_v5 main_v26 main_v27 (cmpi .slt : (⟨S4194304, .i32⟩ : BufTy).Contents (Elt F) → (⟨S4194304, .i32⟩ : BufTy).Contents (Elt F) → (⟨S4194304, .i1⟩ : BufTy).Contents (Elt F)),
    StableHlo.nullary main_c_6 (constantI S_ 32 262144#32),
    StableHlo.unary main_c_6 main_v28 (broadcastInDim S4194304 ![] bcast_S_S4194304 : (⟨S_, .i32⟩ : BufTy).Contents (Elt F) → (⟨S4194304, .i32⟩ : BufTy).Contents (Elt F)),
    StableHlo.binary main_v5 main_v28 main_v29 (addi : (⟨S4194304, .i32⟩ : BufTy).Contents (Elt F) → (⟨S4194304, .i32⟩ : BufTy).Contents (Elt F) → (⟨S4194304, .i32⟩ : BufTy).Contents (Elt F)),
    StableHlo.ternary main_v27 main_v29 main_v5 main_v30 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v30 main_v31 (broadcastInDim S4194304x1 ![0] bcast_S4194304_S4194304x1_0 : (⟨S4194304, .i32⟩ : BufTy).Contents (Elt F) → (⟨S4194304x1, .i32⟩ : BufTy).Contents (Elt F)),
    StableHlo.binary main_v16 main_v31 main_v32 ((fun x i => Host.gather gather_S262144_S4194304x1_S4194304_n_0_n_n_0_1_1 x i) : (⟨S262144, .f32⟩ : BufTy).Contents (Elt F) → (⟨S4194304x1, .i32⟩ : BufTy).Contents (Elt F) → (⟨S4194304, .f32⟩ : BufTy).Contents (Elt F)),
    StableHlo.binary main_v25 main_v32 main_v33 (mulf : (⟨S4194304, .f32⟩ : BufTy).Contents (Elt F) → (⟨S4194304, .f32⟩ : BufTy).Contents (Elt F) → (⟨S4194304, .f32⟩ : BufTy).Contents (Elt F)) ]

/-- The host prefix's operations 48 … 63 of 112: the first propagation. -/
abbrev opsKC : List (HloOp τ sig (Elt F)) :=
  [ StableHlo.unary main_v33 main_v34 (broadcastInDim S4194304x1 ![0] bcast_S4194304_S4194304x1_0 : (⟨S4194304, .f32⟩ : BufTy).Contents (Elt F) → (⟨S4194304x1, .f32⟩ : BufTy).Contents (Elt F)),
    StableHlo.nullary main_c_7 (constantI S_ 32 0#32),
    StableHlo.unary main_c_7 main_v35 (broadcastInDim S4194304 ![] bcast_S_S4194304 : (⟨S_, .i32⟩ : BufTy).Contents (Elt F) → (⟨S4194304, .i32⟩ : BufTy).Contents (Elt F)),
    StableHlo.binary main_v3 main_v35 main_v36 (cmpi .slt : (⟨S4194304, .i32⟩ : BufTy).Contents (Elt F) → (⟨S4194304, .i32⟩ : BufTy).Contents (Elt F) → (⟨S4194304, .i1⟩ : BufTy).Contents (Elt F)),
    StableHlo.nullary main_c_8 (constantI S_ 32 262144#32),
    StableHlo.unary main_c_8 main_v37 (broadcastInDim S4194304 ![] bcast_S_S4194304 : (⟨S_, .i32⟩ : BufTy).Contents (Elt F) → (⟨S4194304, .i32⟩ : BufTy).Contents (Elt F)),
    StableHlo.binary main_v3 main_v37 main_v38 (addi : (⟨S4194304, .i32⟩ : BufTy).Contents (Elt F) → (⟨S4194304, .i32⟩ : BufTy).Contents (Elt F) → (⟨S4194304, .i32⟩ : BufTy).Contents (Elt F)),
    StableHlo.ternary main_v36 main_v38 main_v3 main_v39 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v39 main_v40 (broadcastInDim S4194304x1 ![0] bcast_S4194304_S4194304x1_0 : (⟨S4194304, .i32⟩ : BufTy).Contents (Elt F) → (⟨S4194304x1, .i32⟩ : BufTy).Contents (Elt F)),
    StableHlo.binary main_v1 main_v40 main_v41 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    StableHlo.unary main_v34 main_v42 (broadcastInDim S4194304x3 ![0, 1] bcast_S4194304x1_S4194304x3_0_1 : (⟨S4194304x1, .f32⟩ : BufTy).Contents (Elt F) → (⟨S4194304x3, .f32⟩ : BufTy).Contents (Elt F)),
    StableHlo.binary main_v42 main_v41 main_v43 (mulf : (⟨S4194304x3, .f32⟩ : BufTy).Contents (Elt F) → (⟨S4194304x3, .f32⟩ : BufTy).Contents (Elt F) → (⟨S4194304x3, .f32⟩ : BufTy).Contents (Elt F)),
    StableHlo.nullary main_cst_9 (constant S_ .f32 0x00000000#32),
    StableHlo.unary main_cst_9 main_v44 (broadcastInDim S262144x3 ![] bcast_S_S262144x3 : (⟨S_, .f32⟩ : BufTy).Contents (Elt F) → (⟨S262144x3, .f32⟩ : BufTy).Contents (Elt F)),
    StableHlo.unary main_v5 main_v45 (broadcastInDim S4194304x1 ![0] bcast_S4194304_S4194304x1_0 : (⟨S4194304, .i32⟩ : BufTy).Contents (Elt F) → (⟨S4194304x1, .i32⟩ : BufTy).Contents (Elt F)),
    StableHlo.ternary main_v44 main_v45 main_v43 main_v46 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)) ]

/-- The host prefix's operations 64 … 83 of 112: the second propagation and the second Chebyshev step. -/
abbrev opsKD : List (HloOp τ sig (Elt F)) :=
  [ StableHlo.unary main_v33 main_v47 (broadcastInDim S4194304x1 ![0] bcast_S4194304_S4194304x1_0 : (⟨S4194304, .f32⟩ : BufTy).Contents (Elt F) → (⟨S4194304x1, .f32⟩ : BufTy).Contents (Elt F)),
    StableHlo.nullary main_c_10 (constantI S_ 32 0#32),
    StableHlo.unary main_c_10 main_v48 (broadcastInDim S4194304 ![] bcast_S_S4194304 : (⟨S_, .i32⟩ : BufTy).Contents (Elt F) → (⟨S4194304, .i32⟩ : BufTy).Contents (Elt F)),
    StableHlo.binary main_v3 main_v48 main_v49 (cmpi .slt : (⟨S4194304, .i32⟩ : BufTy).Contents (Elt F) → (⟨S4194304, .i32⟩ : BufTy).Contents (Elt F) → (⟨S4194304, .i1⟩ : BufTy).Contents (Elt F)),
    StableHlo.nullary main_c_11 (constantI S_ 32 262144#32),
    StableHlo.unary main_c_11 main_v50 (broadcastInDim S4194304 ![] bcast_S_S4194304 : (⟨S_, .i32⟩ : BufTy).Contents (Elt F) → (⟨S4194304, .i32⟩ : BufTy).Contents (Elt F)),
    StableHlo.binary main_v3 main_v50 main_v51 (addi : (⟨S4194304, .i32⟩ : BufTy).Contents (Elt F) → (⟨S4194304, .i32⟩ : BufTy).Contents (Elt F) → (⟨S4194304, .i32⟩ : BufTy).Contents (Elt F)),
    StableHlo.ternary main_v49 main_v51 main_v3 main_v52 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v52 main_v53 (broadcastInDim S4194304x1 ![0] bcast_S4194304_S4194304x1_0 : (⟨S4194304, .i32⟩ : BufTy).Contents (Elt F) → (⟨S4194304x1, .i32⟩ : BufTy).Contents (Elt F)),
    StableHlo.binary main_v46 main_v53 main_v54 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    StableHlo.unary main_v47 main_v55 (broadcastInDim S4194304x3 ![0, 1] bcast_S4194304x1_S4194304x3_0_1 : (⟨S4194304x1, .f32⟩ : BufTy).Contents (Elt F) → (⟨S4194304x3, .f32⟩ : BufTy).Contents (Elt F)),
    StableHlo.binary main_v55 main_v54 main_v56 (mulf : (⟨S4194304x3, .f32⟩ : BufTy).Contents (Elt F) → (⟨S4194304x3, .f32⟩ : BufTy).Contents (Elt F) → (⟨S4194304x3, .f32⟩ : BufTy).Contents (Elt F)),
    StableHlo.nullary main_cst_12 (constant S_ .f32 0x00000000#32),
    StableHlo.unary main_cst_12 main_v57 (broadcastInDim S262144x3 ![] bcast_S_S262144x3 : (⟨S_, .f32⟩ : BufTy).Contents (Elt F) → (⟨S262144x3, .f32⟩ : BufTy).Contents (Elt F)),
    StableHlo.unary main_v5 main_v58 (broadcastInDim S4194304x1 ![0] bcast_S4194304_S4194304x1_0 : (⟨S4194304, .i32⟩ : BufTy).Contents (Elt F) → (⟨S4194304x1, .i32⟩ : BufTy).Contents (Elt F)),
    StableHlo.ternary main_v57 main_v58 main_v56 main_v59 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)),
    StableHlo.nullary main_cst_13 (constant S_ .f32 0x40000000#32),
    StableHlo.unary main_cst_13 main_v60 (broadcastInDim S262144x3 ![] bcast_S_S262144x3 : (⟨S_, .f32⟩ : BufTy).Contents (Elt F) → (⟨S262144x3, .f32⟩ : BufTy).Contents (Elt F)),
    StableHlo.binary main_v60 main_v59 main_v61 (mulf : (⟨S262144x3, .f32⟩ : BufTy).Contents (Elt F) → (⟨S262144x3, .f32⟩ : BufTy).Contents (Elt F) → (⟨S262144x3, .f32⟩ : BufTy).Contents (Elt F)),
    StableHlo.binary main_v61 main_v1 main_v62 (subf : (⟨S262144x3, .f32⟩ : BufTy).Contents (Elt F) → (⟨S262144x3, .f32⟩ : BufTy).Contents (Elt F) → (⟨S262144x3, .f32⟩ : BufTy).Contents (Elt F)) ]

/-- The host prefix's operations 84 … 103 of 112: the third propagation and the third Chebyshev step. -/
abbrev opsKE : List (HloOp τ sig (Elt F)) :=
  [ StableHlo.unary main_v33 main_v63 (broadcastInDim S4194304x1 ![0] bcast_S4194304_S4194304x1_0 : (⟨S4194304, .f32⟩ : BufTy).Contents (Elt F) → (⟨S4194304x1, .f32⟩ : BufTy).Contents (Elt F)),
    StableHlo.nullary main_c_14 (constantI S_ 32 0#32),
    StableHlo.unary main_c_14 main_v64 (broadcastInDim S4194304 ![] bcast_S_S4194304 : (⟨S_, .i32⟩ : BufTy).Contents (Elt F) → (⟨S4194304, .i32⟩ : BufTy).Contents (Elt F)),
    StableHlo.binary main_v3 main_v64 main_v65 (cmpi .slt : (⟨S4194304, .i32⟩ : BufTy).Contents (Elt F) → (⟨S4194304, .i32⟩ : BufTy).Contents (Elt F) → (⟨S4194304, .i1⟩ : BufTy).Contents (Elt F)),
    StableHlo.nullary main_c_15 (constantI S_ 32 262144#32),
    StableHlo.unary main_c_15 main_v66 (broadcastInDim S4194304 ![] bcast_S_S4194304 : (⟨S_, .i32⟩ : BufTy).Contents (Elt F) → (⟨S4194304, .i32⟩ : BufTy).Contents (Elt F)),
    StableHlo.binary main_v3 main_v66 main_v67 (addi : (⟨S4194304, .i32⟩ : BufTy).Contents (Elt F) → (⟨S4194304, .i32⟩ : BufTy).Contents (Elt F) → (⟨S4194304, .i32⟩ : BufTy).Contents (Elt F)),
    StableHlo.ternary main_v65 main_v67 main_v3 main_v68 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v68 main_v69 (broadcastInDim S4194304x1 ![0] bcast_S4194304_S4194304x1_0 : (⟨S4194304, .i32⟩ : BufTy).Contents (Elt F) → (⟨S4194304x1, .i32⟩ : BufTy).Contents (Elt F)),
    StableHlo.binary main_v62 main_v69 main_v70 ((fun x i => Host.gather gather_S262144x3_S4194304x1_S4194304x3_1_0_n_n_0_1_13 x i) : (⟨S262144x3, .f32⟩ : BufTy).Contents (Elt F) → (⟨S4194304x1, .i32⟩ : BufTy).Contents (Elt F) → (⟨S4194304x3, .f32⟩ : BufTy).Contents (Elt F)),
    StableHlo.unary main_v63 main_v71 (broadcastInDim S4194304x3 ![0, 1] bcast_S4194304x1_S4194304x3_0_1 : (⟨S4194304x1, .f32⟩ : BufTy).Contents (Elt F) → (⟨S4194304x3, .f32⟩ : BufTy).Contents (Elt F)),
    StableHlo.binary main_v71 main_v70 main_v72 (mulf : (⟨S4194304x3, .f32⟩ : BufTy).Contents (Elt F) → (⟨S4194304x3, .f32⟩ : BufTy).Contents (Elt F) → (⟨S4194304x3, .f32⟩ : BufTy).Contents (Elt F)),
    StableHlo.nullary main_cst_16 (constant S_ .f32 0x00000000#32),
    StableHlo.unary main_cst_16 main_v73 (broadcastInDim S262144x3 ![] bcast_S_S262144x3 : (⟨S_, .f32⟩ : BufTy).Contents (Elt F) → (⟨S262144x3, .f32⟩ : BufTy).Contents (Elt F)),
    StableHlo.unary main_v5 main_v74 (broadcastInDim S4194304x1 ![0] bcast_S4194304_S4194304x1_0 : (⟨S4194304, .i32⟩ : BufTy).Contents (Elt F) → (⟨S4194304x1, .i32⟩ : BufTy).Contents (Elt F)),
    StableHlo.ternary main_v73 main_v74 main_v72 main_v75 ((fun x i u => Host.scatterAdd scatter_S262144x3_S4194304x1_S4194304x3_1_0_0_1 x i u) : (⟨S262144x3, .f32⟩ : BufTy).Contents (Elt F) → (⟨S4194304x1, .i32⟩ : BufTy).Contents (Elt F) → (⟨S4194304x3, .f32⟩ : BufTy).Contents (Elt F) → (⟨S262144x3, .f32⟩ : BufTy).Contents (Elt F)),
    StableHlo.nullary main_cst_17 (constant S_ .f32 0x40000000#32),
    StableHlo.unary main_cst_17 main_v76 (broadcastInDim S262144x3 ![] bcast_S_S262144x3 : (⟨S_, .f32⟩ : BufTy).Contents (Elt F) → (⟨S262144x3, .f32⟩ : BufTy).Contents (Elt F)),
    StableHlo.binary main_v76 main_v75 main_v77 (mulf : (⟨S262144x3, .f32⟩ : BufTy).Contents (Elt F) → (⟨S262144x3, .f32⟩ : BufTy).Contents (Elt F) → (⟨S262144x3, .f32⟩ : BufTy).Contents (Elt F)),
    StableHlo.binary main_v77 main_v46 main_v78 (subf : (⟨S262144x3, .f32⟩ : BufTy).Contents (Elt F) → (⟨S262144x3, .f32⟩ : BufTy).Contents (Elt F) → (⟨S262144x3, .f32⟩ : BufTy).Contents (Elt F)) ]

/-- The host prefix's operations 104 … 107 of 112: the four terms transposed, features down the rows. -/
abbrev opsKF : List (HloOp τ sig (Elt F)) :=
  [ StableHlo.unary main_v1 main_v79 ((transpose S3x262144 [1, 0] · transposes_S262144x3_S3x262144_1_0) : (⟨S262144x3, .f32⟩ : BufTy).Contents (Elt F) → (⟨S3x262144, .f32⟩ : BufTy).Contents (Elt F)),
    StableHlo.unary main_v46 main_v80 ((transpose S3x262144 [1, 0] · transposes_S262144x3_S3x262144_1_0) : (⟨S262144x3, .f32⟩ : BufTy).Contents (Elt F) → (⟨S3x262144, .f32⟩ : BufTy).Contents (Elt F)),
    StableHlo.unary main_v62 main_v81 ((transpose S3x262144 [1, 0] · transposes_S262144x3_S3x262144_1_0) : (⟨S262144x3, .f32⟩ : BufTy).Contents (Elt F) → (⟨S3x262144, .f32⟩ : BufTy).Contents (Elt F)),
    StableHlo.unary main_v78 main_v82 ((transpose S3x262144 [1, 0] · transposes_S262144x3_S3x262144_1_0) : (⟨S262144x3, .f32⟩ : BufTy).Contents (Elt F) → (⟨S3x262144, .f32⟩ : BufTy).Contents (Elt F)) ]

/-- The host prefix's operations 108 … 112 of 112: the four transposed terms stacked, and the weight, bias, scale and shift re-laid. -/
abbrev opsKG : List (HloOp τ sig (Elt F)) :=
  [ StableHlo.nary ![main_v79, main_v80, main_v81, main_v82] main_v83 (fun u => concatenate S12x262144 0 [⟨S3x262144, u 0⟩, ⟨S3x262144, u 1⟩, ⟨S3x262144, u 2⟩, ⟨S3x262144, u 3⟩] concatenates_S3x262144_S3x262144_S3x262144_S3x262144_S12x262144_d0),
    StableHlo.reshape main_arg3 main_v84 rfl shapeCasts_S4x3x128_S12x128,
    StableHlo.reshape main_arg4 main_v85 rfl shapeCasts_S128_S1x128,
    StableHlo.reshape main_arg5 main_v86 rfl shapeCasts_S128_S1x128,
    StableHlo.reshape main_arg6 main_v87 rfl shapeCasts_S128_S1x128 ]

/-- The program's first four stretches, one after the other, are the first stretch here. -/
theorem opsKA_eq : (hostOps0 ++ (hostOps0_1 ++ (hostOps0_2 ++ hostOps0_3)) : List (HloOp τ sig (Elt F))) = opsKA := rfl
set_option maxRecDepth 8192 in
/-- The program's fifth stretch is the other six here, one after the other. -/
theorem hostOps0_4_eq : (hostOps0_4 : List (HloOp τ sig (Elt F))) = opsKB ++ (opsKC ++ (opsKD ++ (opsKE ++ (opsKF ++ opsKG)))) := rfl

/-- The buffers that stretch KA's operations write. -/
abbrev opsKA_W : List (Ref sig .tc) := [main_v0, main_v1, main_v2, main_v3, main_v4, main_v5, main_v6, main_cst, main_call0_v0, main_call0_v1, main_v7, main_cst_0, main_v8, main_v9, main_v10, main_cst_1, main_v11, main_v12, main_cst_2, main_v13, main_v14, main_v15, main_cst_3, main_call1_v0, main_call1_v1, main_v16]
set_option maxRecDepth 8192 in
theorem opsKA_writes : (opsKA : List (HloOp τ sig (Elt F))).Forall fun op => op.writes ⊆ (opsKA_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KA. -/
def valKA (V0 : Valuation τ sig (Elt F)) : Valuation τ sig (Elt F) := after opsKA V0
/-- A buffer that stretch KA does not write keeps its contents through it. -/
theorem valKA_keep (V0 : Valuation τ sig (Elt F)) (r : Ref sig .tc) (h : r ∉ opsKA_W) :
    valKA V0 (Proc.devRef .tc r) = V0 (Proc.devRef .tc r) :=
  after_of_writes_sub opsKA _ opsKA_writes h

/-- The buffers that stretch KB's operations write. -/
abbrev opsKB_W : List (Ref sig .tc) := [main_c, main_v17, main_v18, main_c_4, main_v19, main_v20, main_v21, main_v22, main_v23, main_v24, main_v25, main_c_5, main_v26, main_v27, main_c_6, main_v28, main_v29, main_v30, main_v31, main_v32, main_v33]
set_option maxRecDepth 8192 in
theorem opsKB_writes : (opsKB : List (HloOp τ sig (Elt F))).Forall fun op => op.writes ⊆ (opsKB_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KB. -/
def valKB (V0 : Valuation τ sig (Elt F)) : Valuation τ sig (Elt F) := after opsKB (valKA V0)
/-- A buffer that stretch KB does not write keeps its contents through it. -/
theorem valKB_keep (V0 : Valuation τ sig (Elt F)) (r : Ref sig .tc) (h : r ∉ opsKB_W) :
    valKB V0 (Proc.devRef .tc r) = (valKA V0) (Proc.devRef .tc r) :=
  after_of_writes_sub opsKB _ opsKB_writes h

/-- The buffers that stretch KC's operations write. -/
abbrev opsKC_W : List (Ref sig .tc) := [main_v34, main_c_7, main_v35, main_v36, main_c_8, main_v37, main_v38, main_v39, main_v40, main_v41, main_v42, main_v43, main_cst_9, main_v44, main_v45, main_v46]
set_option maxRecDepth 8192 in
theorem opsKC_writes : (opsKC : List (HloOp τ sig (Elt F))).Forall fun op => op.writes ⊆ (opsKC_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KC. -/
def valKC (V0 : Valuation τ sig (Elt F)) : Valuation τ sig (Elt F) := after opsKC (valKB V0)
/-- A buffer that stretch KC does not write keeps its contents through it. -/
theorem valKC_keep (V0 : Valuation τ sig (Elt F)) (r : Ref sig .tc) (h : r ∉ opsKC_W) :
    valKC V0 (Proc.devRef .tc r) = (valKB V0) (Proc.devRef .tc r) :=
  after_of_writes_sub opsKC _ opsKC_writes h

/-- The buffers that stretch KD's operations write. -/
abbrev opsKD_W : List (Ref sig .tc) := [main_v47, main_c_10, main_v48, main_v49, main_c_11, main_v50, main_v51, main_v52, main_v53, main_v54, main_v55, main_v56, main_cst_12, main_v57, main_v58, main_v59, main_cst_13, main_v60, main_v61, main_v62]
set_option maxRecDepth 8192 in
theorem opsKD_writes : (opsKD : List (HloOp τ sig (Elt F))).Forall fun op => op.writes ⊆ (opsKD_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KD. -/
def valKD (V0 : Valuation τ sig (Elt F)) : Valuation τ sig (Elt F) := after opsKD (valKC V0)
/-- A buffer that stretch KD does not write keeps its contents through it. -/
theorem valKD_keep (V0 : Valuation τ sig (Elt F)) (r : Ref sig .tc) (h : r ∉ opsKD_W) :
    valKD V0 (Proc.devRef .tc r) = (valKC V0) (Proc.devRef .tc r) :=
  after_of_writes_sub opsKD _ opsKD_writes h

/-- The buffers that stretch KE's operations write. -/
abbrev opsKE_W : List (Ref sig .tc) := [main_v63, main_c_14, main_v64, main_v65, main_c_15, main_v66, main_v67, main_v68, main_v69, main_v70, main_v71, main_v72, main_cst_16, main_v73, main_v74, main_v75, main_cst_17, main_v76, main_v77, main_v78]
set_option maxRecDepth 8192 in
theorem opsKE_writes : (opsKE : List (HloOp τ sig (Elt F))).Forall fun op => op.writes ⊆ (opsKE_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KE. -/
def valKE (V0 : Valuation τ sig (Elt F)) : Valuation τ sig (Elt F) := after opsKE (valKD V0)
/-- A buffer that stretch KE does not write keeps its contents through it. -/
theorem valKE_keep (V0 : Valuation τ sig (Elt F)) (r : Ref sig .tc) (h : r ∉ opsKE_W) :
    valKE V0 (Proc.devRef .tc r) = (valKD V0) (Proc.devRef .tc r) :=
  after_of_writes_sub opsKE _ opsKE_writes h

/-- The buffers that stretch KF's operations write. -/
abbrev opsKF_W : List (Ref sig .tc) := [main_v79, main_v80, main_v81, main_v82]
set_option maxRecDepth 8192 in
theorem opsKF_writes : (opsKF : List (HloOp τ sig (Elt F))).Forall fun op => op.writes ⊆ (opsKF_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KF. -/
def valKF (V0 : Valuation τ sig (Elt F)) : Valuation τ sig (Elt F) := after opsKF (valKE V0)
/-- A buffer that stretch KF does not write keeps its contents through it. -/
theorem valKF_keep (V0 : Valuation τ sig (Elt F)) (r : Ref sig .tc) (h : r ∉ opsKF_W) :
    valKF V0 (Proc.devRef .tc r) = (valKE V0) (Proc.devRef .tc r) :=
  after_of_writes_sub opsKF _ opsKF_writes h

/-- The buffers that stretch KG's operations write. -/
abbrev opsKG_W : List (Ref sig .tc) := [main_v83, main_v84, main_v85, main_v86, main_v87]
set_option maxRecDepth 8192 in
theorem opsKG_writes : (opsKG : List (HloOp τ sig (Elt F))).Forall fun op => op.writes ⊆ (opsKG_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- The device's buffer contents after the stretches up to KG. -/
def valKG (V0 : Valuation τ sig (Elt F)) : Valuation τ sig (Elt F) := after opsKG (valKF V0)
/-- A buffer that stretch KG does not write keeps its contents through it. -/
theorem valKG_keep (V0 : Valuation τ sig (Elt F)) (r : Ref sig .tc) (h : r ∉ opsKG_W) :
    valKG V0 (Proc.devRef .tc r) = (valKF V0) (Proc.devRef .tc r) :=
  after_of_writes_sub opsKG _ opsKG_writes h

/-- Every buffer the host prefix writes: none of the seven arguments. -/
abbrev W_all : List (Ref sig .tc) := opsKA_W ++ (opsKB_W ++ (opsKC_W ++ (opsKD_W ++ (opsKE_W ++ (opsKF_W ++ (opsKG_W))))))
/-- An argument array is what it was at the start after the stretches up to KA. -/
theorem valKA_arg (V0 : Valuation τ sig (Elt F)) (r : Ref sig .tc) (h : r ∉ W_all) :
    valKA V0 (no_index (Proc.devRef .tc r)) = V0 (Proc.devRef .tc r) :=
  (valKA_keep V0 r fun hk => h (List.mem_append.mpr (Or.inl hk)))
/-- An argument array is what it was at the start after the stretches up to KB. -/
theorem valKB_arg (V0 : Valuation τ sig (Elt F)) (r : Ref sig .tc) (h : r ∉ W_all) :
    valKB V0 (no_index (Proc.devRef .tc r)) = V0 (Proc.devRef .tc r) :=
  (valKB_keep V0 r fun hk => h (List.mem_append.mpr (Or.inr (List.mem_append.mpr (Or.inl hk))))).trans (valKA_arg V0 r h)
/-- An argument array is what it was at the start after the stretches up to KC. -/
theorem valKC_arg (V0 : Valuation τ sig (Elt F)) (r : Ref sig .tc) (h : r ∉ W_all) :
    valKC V0 (no_index (Proc.devRef .tc r)) = V0 (Proc.devRef .tc r) :=
  (valKC_keep V0 r fun hk => h (List.mem_append.mpr (Or.inr (List.mem_append.mpr (Or.inr (List.mem_append.mpr (Or.inl hk))))))).trans (valKB_arg V0 r h)
/-- An argument array is what it was at the start after the stretches up to KD. -/
theorem valKD_arg (V0 : Valuation τ sig (Elt F)) (r : Ref sig .tc) (h : r ∉ W_all) :
    valKD V0 (no_index (Proc.devRef .tc r)) = V0 (Proc.devRef .tc r) :=
  (valKD_keep V0 r fun hk => h (List.mem_append.mpr (Or.inr (List.mem_append.mpr (Or.inr (List.mem_append.mpr (Or.inr (List.mem_append.mpr (Or.inl hk))))))))).trans (valKC_arg V0 r h)
/-- An argument array is what it was at the start after the stretches up to KE. -/
theorem valKE_arg (V0 : Valuation τ sig (Elt F)) (r : Ref sig .tc) (h : r ∉ W_all) :
    valKE V0 (no_index (Proc.devRef .tc r)) = V0 (Proc.devRef .tc r) :=
  (valKE_keep V0 r fun hk => h (List.mem_append.mpr (Or.inr (List.mem_append.mpr (Or.inr (List.mem_append.mpr (Or.inr (List.mem_append.mpr (Or.inr (List.mem_append.mpr (Or.inl hk))))))))))).trans (valKD_arg V0 r h)
/-- An argument array is what it was at the start after the stretches up to KF. -/
theorem valKF_arg (V0 : Valuation τ sig (Elt F)) (r : Ref sig .tc) (h : r ∉ W_all) :
    valKF V0 (no_index (Proc.devRef .tc r)) = V0 (Proc.devRef .tc r) :=
  (valKF_keep V0 r fun hk => h (List.mem_append.mpr (Or.inr (List.mem_append.mpr (Or.inr (List.mem_append.mpr (Or.inr (List.mem_append.mpr (Or.inr (List.mem_append.mpr (Or.inr (List.mem_append.mpr (Or.inl hk))))))))))))).trans (valKE_arg V0 r h)
/-- An argument array is what it was at the start after the stretches up to KG. -/
theorem valKG_arg (V0 : Valuation τ sig (Elt F)) (r : Ref sig .tc) (h : r ∉ W_all) :
    valKG V0 (no_index (Proc.devRef .tc r)) = V0 (Proc.devRef .tc r) :=
  (valKG_keep V0 r fun hk => h (List.mem_append.mpr (Or.inr (List.mem_append.mpr (Or.inr (List.mem_append.mpr (Or.inr (List.mem_append.mpr (Or.inr (List.mem_append.mpr (Or.inr (List.mem_append.mpr (Or.inr (hk)))))))))))))).trans (valKF_arg V0 r h)

/-! ### Stretch KA: the node features re-laid, the two edge index rows, the edge weights with self-loops zeroed, the weighted degree and its inverse square root (the program's first four stretches) -/
set_option maxRecDepth 8192 in
set_option maxHeartbeats 2000000 in
theorem valKA_main_v1 (V0 : Valuation τ sig (Elt F)) : valKA V0 (no_index (Proc.devRef .tc main_v1)) = RefValue.tx0 (V0 (Proc.devRef .tc main_arg0)) := by
  unfold valKA
  simp only [opsKA]
  after_results_simp
  all_goals rfl
set_option maxRecDepth 8192 in
set_option maxHeartbeats 2000000 in
theorem valKA_main_v3 (V0 : Valuation τ sig (Elt F)) : valKA V0 (no_index (Proc.devRef .tc main_v3)) = RefValue.src (V0 (Proc.devRef .tc main_arg1)) := by
  unfold valKA
  simp only [opsKA]
  after_results_simp
  all_goals rfl
set_option maxRecDepth 8192 in
set_option maxHeartbeats 2000000 in
theorem valKA_main_v5 (V0 : Valuation τ sig (Elt F)) : valKA V0 (no_index (Proc.devRef .tc main_v5)) = RefValue.dst (V0 (Proc.devRef .tc main_arg1)) := by
  unfold valKA
  simp only [opsKA]
  after_results_simp
  all_goals rfl
set_option maxRecDepth 8192 in
set_option maxHeartbeats 2000000 in
theorem valKA_main_v7 (V0 : Valuation τ sig (Elt F)) : valKA V0 (no_index (Proc.devRef .tc main_v7)) = RefValue.ew0 (V0 (Proc.devRef .tc main_arg1)) (V0 (Proc.devRef .tc main_arg2)) := by
  unfold valKA
  simp only [opsKA]
  after_results_simp
  all_goals rfl
set_option maxRecDepth 8192 in
set_option maxHeartbeats 2000000 in
theorem valKA_main_v16 (V0 : Valuation τ sig (Elt F)) : valKA V0 (no_index (Proc.devRef .tc main_v16)) = RefValue.dis (V0 (Proc.devRef .tc main_arg1)) (V0 (Proc.devRef .tc main_arg2)) := by
  unfold valKA
  simp only [opsKA]
  after_results_simp
  all_goals rfl

/-! ### Stretch KB: the two index wraps, the gathers of the inverse square root degree, the normalised edge weight -/
theorem valKB_main_v1 (V0 : Valuation τ sig (Elt F)) : valKB V0 (no_index (Proc.devRef .tc main_v1)) = RefValue.tx0 (V0 (Proc.devRef .tc main_arg0)) :=
  (valKB_keep V0 main_v1 (by decide)).trans (valKA_main_v1 V0)
theorem valKB_main_v3 (V0 : Valuation τ sig (Elt F)) : valKB V0 (no_index (Proc.devRef .tc main_v3)) = RefValue.src (V0 (Proc.devRef .tc main_arg1)) :=
  (valKB_keep V0 main_v3 (by decide)).trans (valKA_main_v3 V0)
theorem valKB_main_v5 (V0 : Valuation τ sig (Elt F)) : valKB V0 (no_index (Proc.devRef .tc main_v5)) = RefValue.dst (V0 (Proc.devRef .tc main_arg1)) :=
  (valKB_keep V0 main_v5 (by decide)).trans (valKA_main_v5 V0)
set_option maxRecDepth 8192 in
set_option maxHeartbeats 2000000 in
theorem valKB_main_v33 (V0 : Valuation τ sig (Elt F)) : valKB V0 (no_index (Proc.devRef .tc main_v33)) = RefValue.normw (V0 (Proc.devRef .tc main_arg1)) (V0 (Proc.devRef .tc main_arg2)) := by
  unfold valKB
  simp only [opsKB]
  after_results_simp
  simp only [valKA_main_v5, valKA_main_v16, valKA_main_v7, valKA_main_v3] <;> rfl

/-! ### Stretch KC: the first propagation -/
theorem valKC_main_v1 (V0 : Valuation τ sig (Elt F)) : valKC V0 (no_index (Proc.devRef .tc main_v1)) = RefValue.tx0 (V0 (Proc.devRef .tc main_arg0)) :=
  (valKC_keep V0 main_v1 (by decide)).trans (valKB_main_v1 V0)
theorem valKC_main_v3 (V0 : Valuation τ sig (Elt F)) : valKC V0 (no_index (Proc.devRef .tc main_v3)) = RefValue.src (V0 (Proc.devRef .tc main_arg1)) :=
  (valKC_keep V0 main_v3 (by decide)).trans (valKB_main_v3 V0)
theorem valKC_main_v5 (V0 : Valuation τ sig (Elt F)) : valKC V0 (no_index (Proc.devRef .tc main_v5)) = RefValue.dst (V0 (Proc.devRef .tc main_arg1)) :=
  (valKC_keep V0 main_v5 (by decide)).trans (valKB_main_v5 V0)
theorem valKC_main_v33 (V0 : Valuation τ sig (Elt F)) : valKC V0 (no_index (Proc.devRef .tc main_v33)) = RefValue.normw (V0 (Proc.devRef .tc main_arg1)) (V0 (Proc.devRef .tc main_arg2)) :=
  (valKC_keep V0 main_v33 (by decide)).trans (valKB_main_v33 V0)
set_option maxRecDepth 8192 in
set_option maxHeartbeats 2000000 in
theorem valKC_main_v46 (V0 : Valuation τ sig (Elt F)) : valKC V0 (no_index (Proc.devRef .tc main_v46)) = RefValue.tx1 (V0 (Proc.devRef .tc main_arg0)) (V0 (Proc.devRef .tc main_arg1)) (V0 (Proc.devRef .tc main_arg2)) := by
  unfold valKC
  simp only [opsKC]
  after_results_simp
  simp only [valKB_main_v3, valKB_main_v1, valKB_main_v33, valKB_main_v5] <;> rfl

/-! ### Stretch KD: the second propagation and the second Chebyshev step -/
theorem valKD_main_v1 (V0 : Valuation τ sig (Elt F)) : valKD V0 (no_index (Proc.devRef .tc main_v1)) = RefValue.tx0 (V0 (Proc.devRef .tc main_arg0)) :=
  (valKD_keep V0 main_v1 (by decide)).trans (valKC_main_v1 V0)
theorem valKD_main_v3 (V0 : Valuation τ sig (Elt F)) : valKD V0 (no_index (Proc.devRef .tc main_v3)) = RefValue.src (V0 (Proc.devRef .tc main_arg1)) :=
  (valKD_keep V0 main_v3 (by decide)).trans (valKC_main_v3 V0)
theorem valKD_main_v5 (V0 : Valuation τ sig (Elt F)) : valKD V0 (no_index (Proc.devRef .tc main_v5)) = RefValue.dst (V0 (Proc.devRef .tc main_arg1)) :=
  (valKD_keep V0 main_v5 (by decide)).trans (valKC_main_v5 V0)
theorem valKD_main_v33 (V0 : Valuation τ sig (Elt F)) : valKD V0 (no_index (Proc.devRef .tc main_v33)) = RefValue.normw (V0 (Proc.devRef .tc main_arg1)) (V0 (Proc.devRef .tc main_arg2)) :=
  (valKD_keep V0 main_v33 (by decide)).trans (valKC_main_v33 V0)
theorem valKD_main_v46 (V0 : Valuation τ sig (Elt F)) : valKD V0 (no_index (Proc.devRef .tc main_v46)) = RefValue.tx1 (V0 (Proc.devRef .tc main_arg0)) (V0 (Proc.devRef .tc main_arg1)) (V0 (Proc.devRef .tc main_arg2)) :=
  (valKD_keep V0 main_v46 (by decide)).trans (valKC_main_v46 V0)
set_option maxRecDepth 8192 in
set_option maxHeartbeats 2000000 in
theorem valKD_main_v62 (V0 : Valuation τ sig (Elt F)) : valKD V0 (no_index (Proc.devRef .tc main_v62)) = RefValue.tx2 (V0 (Proc.devRef .tc main_arg0)) (V0 (Proc.devRef .tc main_arg1)) (V0 (Proc.devRef .tc main_arg2)) := by
  unfold valKD
  simp only [opsKD]
  after_results_simp
  simp only [valKC_main_v1, valKC_main_v3, valKC_main_v46, valKC_main_v33, valKC_main_v5] <;> rfl

/-! ### Stretch KE: the third propagation and the third Chebyshev step -/
theorem valKE_main_v1 (V0 : Valuation τ sig (Elt F)) : valKE V0 (no_index (Proc.devRef .tc main_v1)) = RefValue.tx0 (V0 (Proc.devRef .tc main_arg0)) :=
  (valKE_keep V0 main_v1 (by decide)).trans (valKD_main_v1 V0)
theorem valKE_main_v46 (V0 : Valuation τ sig (Elt F)) : valKE V0 (no_index (Proc.devRef .tc main_v46)) = RefValue.tx1 (V0 (Proc.devRef .tc main_arg0)) (V0 (Proc.devRef .tc main_arg1)) (V0 (Proc.devRef .tc main_arg2)) :=
  (valKE_keep V0 main_v46 (by decide)).trans (valKD_main_v46 V0)
theorem valKE_main_v62 (V0 : Valuation τ sig (Elt F)) : valKE V0 (no_index (Proc.devRef .tc main_v62)) = RefValue.tx2 (V0 (Proc.devRef .tc main_arg0)) (V0 (Proc.devRef .tc main_arg1)) (V0 (Proc.devRef .tc main_arg2)) :=
  (valKE_keep V0 main_v62 (by decide)).trans (valKD_main_v62 V0)
set_option maxRecDepth 8192 in
set_option maxHeartbeats 2000000 in
theorem valKE_main_v78 (V0 : Valuation τ sig (Elt F)) : valKE V0 (no_index (Proc.devRef .tc main_v78)) = RefValue.tx3 (V0 (Proc.devRef .tc main_arg0)) (V0 (Proc.devRef .tc main_arg1)) (V0 (Proc.devRef .tc main_arg2)) := by
  unfold valKE
  simp only [opsKE]
  after_results_simp
  simp only [valKD_main_v46, valKD_main_v3, valKD_main_v62, valKD_main_v33, valKD_main_v5] <;> rfl

/-! ### Stretch KF: the four terms transposed, features down the rows -/
set_option maxRecDepth 8192 in
set_option maxHeartbeats 2000000 in
theorem valKF_main_v79 (V0 : Valuation τ sig (Elt F)) : valKF V0 (no_index (Proc.devRef .tc main_v79)) = transpose S3x262144 [1, 0] (RefValue.tx0 (V0 (Proc.devRef .tc main_arg0))) transposes_S262144x3_S3x262144_1_0 := by
  unfold valKF
  simp only [opsKF]
  after_results_simp
  simp only [valKE_main_v1] <;> rfl
set_option maxRecDepth 8192 in
set_option maxHeartbeats 2000000 in
theorem valKF_main_v80 (V0 : Valuation τ sig (Elt F)) : valKF V0 (no_index (Proc.devRef .tc main_v80)) = transpose S3x262144 [1, 0] (RefValue.tx1 (V0 (Proc.devRef .tc main_arg0)) (V0 (Proc.devRef .tc main_arg1)) (V0 (Proc.devRef .tc main_arg2))) transposes_S262144x3_S3x262144_1_0 := by
  unfold valKF
  simp only [opsKF]
  after_results_simp
  simp only [valKE_main_v46] <;> rfl
set_option maxRecDepth 8192 in
set_option maxHeartbeats 2000000 in
theorem valKF_main_v81 (V0 : Valuation τ sig (Elt F)) : valKF V0 (no_index (Proc.devRef .tc main_v81)) = transpose S3x262144 [1, 0] (RefValue.tx2 (V0 (Proc.devRef .tc main_arg0)) (V0 (Proc.devRef .tc main_arg1)) (V0 (Proc.devRef .tc main_arg2))) transposes_S262144x3_S3x262144_1_0 := by
  unfold valKF
  simp only [opsKF]
  after_results_simp
  simp only [valKE_main_v62] <;> rfl
set_option maxRecDepth 8192 in
set_option maxHeartbeats 2000000 in
theorem valKF_main_v82 (V0 : Valuation τ sig (Elt F)) : valKF V0 (no_index (Proc.devRef .tc main_v82)) = transpose S3x262144 [1, 0] (RefValue.tx3 (V0 (Proc.devRef .tc main_arg0)) (V0 (Proc.devRef .tc main_arg1)) (V0 (Proc.devRef .tc main_arg2))) transposes_S262144x3_S3x262144_1_0 := by
  unfold valKF
  simp only [opsKF]
  after_results_simp
  simp only [valKE_main_v78] <;> rfl

/-! ### Stretch KG: the four transposed terms stacked, and the weight, bias, scale and shift re-laid -/
set_option maxRecDepth 8192 in
set_option maxHeartbeats 2000000 in
theorem valKG_main_v83 (V0 : Valuation τ sig (Elt F)) : valKG V0 (no_index (Proc.devRef .tc main_v83)) = concatenate S12x262144 0 [⟨S3x262144, transpose S3x262144 [1, 0] (RefValue.tx0 (V0 (Proc.devRef .tc main_arg0))) transposes_S262144x3_S3x262144_1_0⟩, ⟨S3x262144, transpose S3x262144 [1, 0] (RefValue.tx1 (V0 (Proc.devRef .tc main_arg0)) (V0 (Proc.devRef .tc main_arg1)) (V0 (Proc.devRef .tc main_arg2))) transposes_S262144x3_S3x262144_1_0⟩, ⟨S3x262144, transpose S3x262144 [1, 0] (RefValue.tx2 (V0 (Proc.devRef .tc main_arg0)) (V0 (Proc.devRef .tc main_arg1)) (V0 (Proc.devRef .tc main_arg2))) transposes_S262144x3_S3x262144_1_0⟩, ⟨S3x262144, transpose S3x262144 [1, 0] (RefValue.tx3 (V0 (Proc.devRef .tc main_arg0)) (V0 (Proc.devRef .tc main_arg1)) (V0 (Proc.devRef .tc main_arg2))) transposes_S262144x3_S3x262144_1_0⟩] concatenates_S3x262144_S3x262144_S3x262144_S3x262144_S12x262144_d0 := by
  unfold valKG
  simp only [opsKG]
  after_results_simp
  try dsimp only [Matrix.cons_val]
  rw [valKF_main_v82 V0, valKF_main_v81 V0, valKF_main_v80 V0, valKF_main_v79 V0]
set_option maxRecDepth 8192 in
set_option maxHeartbeats 2000000 in
theorem valKG_main_v84 (V0 : Valuation τ sig (Elt F)) : valKG V0 (no_index (Proc.devRef .tc main_v84)) = shapeCast S12x128 (V0 (Proc.devRef .tc main_arg3)) shapeCasts_S4x3x128_S12x128 := by
  unfold valKG
  simp only [opsKG]
  after_results_simp
  simp only [valKF_arg V0 main_arg3 (by decide)] <;> rfl
set_option maxRecDepth 8192 in
set_option maxHeartbeats 2000000 in
theorem valKG_main_v85 (V0 : Valuation τ sig (Elt F)) : valKG V0 (no_index (Proc.devRef .tc main_v85)) = shapeCast S1x128 (V0 (Proc.devRef .tc main_arg4)) shapeCasts_S128_S1x128 := by
  unfold valKG
  simp only [opsKG]
  after_results_simp
  simp only [valKF_arg V0 main_arg4 (by decide)] <;> rfl
set_option maxRecDepth 8192 in
set_option maxHeartbeats 2000000 in
theorem valKG_main_v86 (V0 : Valuation τ sig (Elt F)) : valKG V0 (no_index (Proc.devRef .tc main_v86)) = shapeCast S1x128 (V0 (Proc.devRef .tc main_arg5)) shapeCasts_S128_S1x128 := by
  unfold valKG
  simp only [opsKG]
  after_results_simp
  simp only [valKF_arg V0 main_arg5 (by decide)] <;> rfl
set_option maxRecDepth 8192 in
set_option maxHeartbeats 2000000 in
theorem valKG_main_v87 (V0 : Valuation τ sig (Elt F)) : valKG V0 (no_index (Proc.devRef .tc main_v87)) = shapeCast S1x128 (V0 (Proc.devRef .tc main_arg6)) shapeCasts_S128_S1x128 := by
  unfold valKG
  simp only [opsKG]
  after_results_simp
  simp only [valKF_arg V0 main_arg6 (by decide)] <;> rfl

/-! ## The five arrays the kernels are launched on -/

/-- The host prefix run stretch by stretch, as the program lists it, is the seven stretches here. -/
theorem after_prefix (V0 : Valuation τ sig (Elt F)) :
    after hostOps0_4 (after hostOps0_3 (after hostOps0_2 (after hostOps0_1 (after hostOps0 V0)))) = valKG V0 := by
  have hA : after hostOps0_3 (after hostOps0_2 (after hostOps0_1 (after hostOps0 V0))) = valKA V0 := by
    unfold valKA; rw [← opsKA_eq]; simp only [after_append]
  rw [hA, hostOps0_4_eq]
  simp only [after_append]
  rfl

/-- `main_v83` after the host prefix, from any starting contents. -/
theorem prefix_main_v83 (V0 : Valuation τ sig (Elt F)) :
    after hostOps0_4 (after hostOps0_3 (after hostOps0_2 (after hostOps0_1 (after hostOps0 V0)))) (Proc.devRef .tc main_v83)
      = concatenate S12x262144 0 [⟨S3x262144, transpose S3x262144 [1, 0] (RefValue.tx0 (V0 (Proc.devRef .tc main_arg0))) transposes_S262144x3_S3x262144_1_0⟩, ⟨S3x262144, transpose S3x262144 [1, 0] (RefValue.tx1 (V0 (Proc.devRef .tc main_arg0)) (V0 (Proc.devRef .tc main_arg1)) (V0 (Proc.devRef .tc main_arg2))) transposes_S262144x3_S3x262144_1_0⟩, ⟨S3x262144, transpose S3x262144 [1, 0] (RefValue.tx2 (V0 (Proc.devRef .tc main_arg0)) (V0 (Proc.devRef .tc main_arg1)) (V0 (Proc.devRef .tc main_arg2))) transposes_S262144x3_S3x262144_1_0⟩, ⟨S3x262144, transpose S3x262144 [1, 0] (RefValue.tx3 (V0 (Proc.devRef .tc main_arg0)) (V0 (Proc.devRef .tc main_arg1)) (V0 (Proc.devRef .tc main_arg2))) transposes_S262144x3_S3x262144_1_0⟩] concatenates_S3x262144_S3x262144_S3x262144_S3x262144_S12x262144_d0 := by
  rw [after_prefix]; exact valKG_main_v83 V0

/-- `main_v84` after the host prefix, from any starting contents. -/
theorem prefix_main_v84 (V0 : Valuation τ sig (Elt F)) :
    after hostOps0_4 (after hostOps0_3 (after hostOps0_2 (after hostOps0_1 (after hostOps0 V0)))) (Proc.devRef .tc main_v84)
      = shapeCast S12x128 (V0 (Proc.devRef .tc main_arg3)) shapeCasts_S4x3x128_S12x128 := by
  rw [after_prefix]; exact valKG_main_v84 V0

/-- `main_v85` after the host prefix, from any starting contents. -/
theorem prefix_main_v85 (V0 : Valuation τ sig (Elt F)) :
    after hostOps0_4 (after hostOps0_3 (after hostOps0_2 (after hostOps0_1 (after hostOps0 V0)))) (Proc.devRef .tc main_v85)
      = shapeCast S1x128 (V0 (Proc.devRef .tc main_arg4)) shapeCasts_S128_S1x128 := by
  rw [after_prefix]; exact valKG_main_v85 V0

/-- `main_v86` after the host prefix, from any starting contents. -/
theorem prefix_main_v86 (V0 : Valuation τ sig (Elt F)) :
    after hostOps0_4 (after hostOps0_3 (after hostOps0_2 (after hostOps0_1 (after hostOps0 V0)))) (Proc.devRef .tc main_v86)
      = shapeCast S1x128 (V0 (Proc.devRef .tc main_arg5)) shapeCasts_S128_S1x128 := by
  rw [after_prefix]; exact valKG_main_v86 V0

/-- `main_v87` after the host prefix, from any starting contents. -/
theorem prefix_main_v87 (V0 : Valuation τ sig (Elt F)) :
    after hostOps0_4 (after hostOps0_3 (after hostOps0_2 (after hostOps0_1 (after hostOps0 V0)))) (Proc.devRef .tc main_v87)
      = shapeCast S1x128 (V0 (Proc.devRef .tc main_arg6)) shapeCasts_S128_S1x128 := by
  rw [after_prefix]; exact valKG_main_v87 V0

end Cert.KernelIdeal.KHost

end
-- ==== Proof.PreFinite.lean ====
/-
  From the stated precondition to realness of the inputs.

  The precondition of this certificate tests every float input array x with "all entries of |x| are strictly
  below plus infinity" and joins the six tests by "and"; it is stated as: the resulting single bit is one. At the
  ideal instance a float is an extended real and |x| is the maximum of x and -x, so the test on an entry fails
  exactly at the two infinities. This file turns the stated bit into the statement that each float input is a
  real array (every entry the coercion of a real number), which is what the algebraic identities between the
  two programs need.
-/
import proofs.«158969_j2714419331078_1_alg».proof.Pre_finite_inputs
import proofs.«158969_j2714419331078_1_alg».proof.Proof.Gen.Pre_finite_inputs
import proofs.«158969_j2714419331078_1_alg».proof.Proof.LibFiniteOps
import Idealize.ShloMosaic.Lib.ReduceAll
import Idealize.ShloMosaic.Lib.ValueIdx

noncomputable section

namespace Cert.PreFinite

open Idealize.ShloMosaic
open Cert.LibFiniteOps
open Cert.Pre_finite_inputs (S_ S8x3x32768 S2x4194304 S4194304 S4x3x128 S128)

/-- The rank-zero shape has exactly one index. -/
instance subsingleton_S_ : Subsingleton S_.Idx := ⟨fun a b => funext fun d => d.elim0⟩

/-- One conjunct of the precondition: if the test "all entries of |x| are strictly below plus infinity",
    reduced by "and" to a single bit, is one, then x is a real array. -/
theorem allReal_of_all {s : Shape} {axes : List (Fin s.rank)} (x : FVec Ideal s .f32)
    (hb : S_.BroadcastsInDim s (![] : Fin 0 → Fin s.rank)) (hr : s.ReducesTo axes S_) (hu : 0 < S_.numel)
    (c : IVec S_ 1)
    (e : Host.reduce IntOp.andi
          (cmpf .olt (Host.absf x) (broadcastInDim s ![] hb (constant (F := Ideal) S_ .f32 0x7F800000#32))) c hr hu
          ValueIdx.ix0 = 1#1) :
    AllReal x :=
  allReal_of_abs_lt_top (inf := broadcastInDim s ![] hb (constant (F := Ideal) S_ .f32 0x7F800000#32))
    (fun _ => ofBits_7F800000) (fun i => Host.reduce_andi_all _ c hr hu ValueIdx.ix0 e i)

/-- From the printed precondition (every float input passes the finiteness test, the six tests joined by
    "and") to the statement that every float input is a real array. The integer input carries no condition. -/
theorem allReal_of_pre [Cert.Pre_finite_inputs.Facts]
    (x : FVec Ideal S8x3x32768 .f32) (ei : IVec S2x4194304 32) (ew : FVec Ideal S4194304 .f32)
    (w : FVec Ideal S4x3x128 .f32) (b g be : FVec Ideal S128 .f32)
    (h : Cert.Pre_finite_inputs.fn (F := Ideal) x ei ew w b g be = fun _ => 1#1) :
    AllReal x ∧ AllReal ew ∧ AllReal w ∧ AllReal b ∧ AllReal g ∧ AllReal be := by
  have h0 := congrFun h ValueIdx.ix0
  dsimp only [Cert.Pre_finite_inputs.fn, Cert.Pre_finite_inputs.fn_part1] at h0
  obtain ⟨h1, hbe⟩ := IntOp.andi_eq_one.1 h0
  obtain ⟨h2, hg⟩ := IntOp.andi_eq_one.1 h1
  obtain ⟨h3, hb⟩ := IntOp.andi_eq_one.1 h2
  obtain ⟨h4, hw⟩ := IntOp.andi_eq_one.1 h3
  obtain ⟨hx, hew⟩ := IntOp.andi_eq_one.1 h4
  exact ⟨allReal_of_all x _ _ _ _ hx, allReal_of_all ew _ _ _ _ hew, allReal_of_all w _ _ _ _ hw,
    allReal_of_all b _ _ _ _ hb, allReal_of_all g _ _ _ _ hg, allReal_of_all be _ _ _ _ hbe⟩

end Cert.PreFinite

end
-- ==== Proof.Algebraic.lean ====
/-
  The fifth claim. Region 0 finds, after the host prefix, the four Chebyshev feature matrices transposed and stacked
  (row 3k + f of the stack is feature f of order k), the weight flattened the same way, and the bias, scale and shift as
  rows; these are the reference's own stage functions of the arguments (the two programs' host operations are the same
  terms). The precondition makes every float input a real array, hence every entry of the pre-activation a real number,
  which is what the two variances' agreement needs. From memories agreeing on the arguments both runs therefore end with
  the same result array.
-/
import proofs.«158969_j2714419331078_1_alg».proof.Defs
import proofs.«158969_j2714419331078_1_alg».proof.Proof.KBridge
import proofs.«158969_j2714419331078_1_alg».proof.Proof.KHost
import proofs.«158969_j2714419331078_1_alg».proof.Proof.PreFinite

set_option maxRecDepth 16384

noncomputable section

namespace Cert.KernelIdeal.KVal

open Cert.KernelIdeal Cert.KernelIdeal.Gen Cert.KernelIdeal.KRun Idealize.ShloMosaic.ValueIdx Cert.LibFiniteOps
open Cert.KernelIdeal.KLay (row flat)
open Cert.ReferenceIdeal.RefValue (pre meanOf varOf act out tx0 tx1 tx2 tx3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt Ideal) ℓ) (ρ : Dev nD → PrngReg) (c : Dev nD)

/-- The stack of four pieces read at row 3k + f is piece k at row f. -/
theorem concat_row0 (u0 u1 u2 u3 : S3x262144.Idx → EReal) (f : Fin 3) (R : Fin 262144) :
    concatenate S12x262144 0 [⟨S3x262144, u0⟩, ⟨S3x262144, u1⟩, ⟨S3x262144, u2⟩, ⟨S3x262144, u3⟩]
        concatenates_S3x262144_S3x262144_S3x262144_S3x262144_S12x262144_d0 (ix2 (row 0 f) R)
      = u0 (ix2 f R) :=
  (Cert.KernelIdeal.KLay.concat4_apply ![u0, u1, u2, u3] 0 f R).trans rfl

theorem concat_row1 (u0 u1 u2 u3 : S3x262144.Idx → EReal) (f : Fin 3) (R : Fin 262144) :
    concatenate S12x262144 0 [⟨S3x262144, u0⟩, ⟨S3x262144, u1⟩, ⟨S3x262144, u2⟩, ⟨S3x262144, u3⟩]
        concatenates_S3x262144_S3x262144_S3x262144_S3x262144_S12x262144_d0 (ix2 (row 1 f) R)
      = u1 (ix2 f R) :=
  (Cert.KernelIdeal.KLay.concat4_apply ![u0, u1, u2, u3] 1 f R).trans rfl

theorem concat_row2 (u0 u1 u2 u3 : S3x262144.Idx → EReal) (f : Fin 3) (R : Fin 262144) :
    concatenate S12x262144 0 [⟨S3x262144, u0⟩, ⟨S3x262144, u1⟩, ⟨S3x262144, u2⟩, ⟨S3x262144, u3⟩]
        concatenates_S3x262144_S3x262144_S3x262144_S3x262144_S12x262144_d0 (ix2 (row 2 f) R)
      = u2 (ix2 f R) :=
  (Cert.KernelIdeal.KLay.concat4_apply ![u0, u1, u2, u3] 2 f R).trans rfl

theorem concat_row3 (u0 u1 u2 u3 : S3x262144.Idx → EReal) (f : Fin 3) (R : Fin 262144) :
    concatenate S12x262144 0 [⟨S3x262144, u0⟩, ⟨S3x262144, u1⟩, ⟨S3x262144, u2⟩, ⟨S3x262144, u3⟩]
        concatenates_S3x262144_S3x262144_S3x262144_S3x262144_S12x262144_d0 (ix2 (row 3 f) R)
      = u3 (ix2 f R) :=
  (Cert.KernelIdeal.KLay.concat4_apply ![u0, u1, u2, u3] 3 f R).trans rfl

theorem stack0 (f : Fin 3) (R : Fin 262144) :
    stackA (V5 m ρ) c (ix2 (row 0 f) R) = tx0 (F := Ideal) (W0 m ρ c (Proc.devRef .tc main_arg0)) (ix2 R f) := by
  unfold stackA
  show (W5 m ρ c (Proc.devRef .tc main_v83)) (ix2 (row 0 f) R) = _
  rw [show W5 m ρ c (Proc.devRef .tc main_v83) = _ from Cert.KernelIdeal.KHost.prefix_main_v83 (W0 m ρ c), concat_row0]
  rw [Cert.KernelIdeal.KLay.transpose_apply_fr]

theorem stack1 (f : Fin 3) (R : Fin 262144) :
    stackA (V5 m ρ) c (ix2 (row 1 f) R) = tx1 (F := Ideal) (W0 m ρ c (Proc.devRef .tc main_arg0)) (W0 m ρ c (Proc.devRef .tc main_arg1)) (W0 m ρ c (Proc.devRef .tc main_arg2)) (ix2 R f) := by
  unfold stackA
  show (W5 m ρ c (Proc.devRef .tc main_v83)) (ix2 (row 1 f) R) = _
  rw [show W5 m ρ c (Proc.devRef .tc main_v83) = _ from Cert.KernelIdeal.KHost.prefix_main_v83 (W0 m ρ c), concat_row1]
  rw [Cert.KernelIdeal.KLay.transpose_apply_fr]

theorem stack2 (f : Fin 3) (R : Fin 262144) :
    stackA (V5 m ρ) c (ix2 (row 2 f) R) = tx2 (F := Ideal) (W0 m ρ c (Proc.devRef .tc main_arg0)) (W0 m ρ c (Proc.devRef .tc main_arg1)) (W0 m ρ c (Proc.devRef .tc main_arg2)) (ix2 R f) := by
  unfold stackA
  show (W5 m ρ c (Proc.devRef .tc main_v83)) (ix2 (row 2 f) R) = _
  rw [show W5 m ρ c (Proc.devRef .tc main_v83) = _ from Cert.KernelIdeal.KHost.prefix_main_v83 (W0 m ρ c), concat_row2]
  rw [Cert.KernelIdeal.KLay.transpose_apply_fr]

theorem stack3 (f : Fin 3) (R : Fin 262144) :
    stackA (V5 m ρ) c (ix2 (row 3 f) R) = tx3 (F := Ideal) (W0 m ρ c (Proc.devRef .tc main_arg0)) (W0 m ρ c (Proc.devRef .tc main_arg1)) (W0 m ρ c (Proc.devRef .tc main_arg2)) (ix2 R f) := by
  unfold stackA
  show (W5 m ρ c (Proc.devRef .tc main_v83)) (ix2 (row 3 f) R) = _
  rw [show W5 m ρ c (Proc.devRef .tc main_v83) = _ from Cert.KernelIdeal.KHost.prefix_main_v83 (W0 m ρ c), concat_row3]
  rw [Cert.KernelIdeal.KLay.transpose_apply_fr]

theorem wflat_eq (k : Fin 4) (f : Fin 3) (ch : Fin 128) :
    wflatA (V5 m ρ) c (ix2 (row k f) ch) = (W0 m ρ c (Proc.devRef .tc main_arg3) : S4x3x128.Idx → EReal) (ix3 k f ch) := by
  unfold wflatA
  show (W5 m ρ c (Proc.devRef .tc main_v84)) (ix2 (row k f) ch) = _
  rw [show W5 m ρ c (Proc.devRef .tc main_v84) = _ from Cert.KernelIdeal.KHost.prefix_main_v84 (W0 m ρ c)]
  exact Cert.KernelIdeal.KLay.reshape_w_apply _ k f ch

theorem bias_eq (ch : Fin 128) :
    biasA (V5 m ρ) c (ix2 (0 : Fin 1) ch) = (W0 m ρ c (Proc.devRef .tc main_arg4) : S128.Idx → EReal) (ix1 ch) := by
  unfold biasA
  show (W5 m ρ c (Proc.devRef .tc main_v85)) (ix2 (0 : Fin 1) ch) = _
  rw [show W5 m ρ c (Proc.devRef .tc main_v85) = _ from Cert.KernelIdeal.KHost.prefix_main_v85 (W0 m ρ c)]
  exact Cert.KernelIdeal.KLay.reshape_row_apply _ ch

theorem gamma_eq (ch : Fin 128) :
    (W5 m ρ c (Proc.devRef .tc main_v86) : S1x128.Idx → EReal) (ix2 (0 : Fin 1) ch) = (W0 m ρ c (Proc.devRef .tc main_arg5) : S128.Idx → EReal) (ix1 ch) := by
  rw [show W5 m ρ c (Proc.devRef .tc main_v86) = _ from Cert.KernelIdeal.KHost.prefix_main_v86 (W0 m ρ c)]
  exact Cert.KernelIdeal.KLay.reshape_row_apply _ ch

theorem beta_eq (ch : Fin 128) :
    (W5 m ρ c (Proc.devRef .tc main_v87) : S1x128.Idx → EReal) (ix2 (0 : Fin 1) ch) = (W0 m ρ c (Proc.devRef .tc main_arg6) : S128.Idx → EReal) (ix1 ch) := by
  rw [show W5 m ρ c (Proc.devRef .tc main_v87) = _ from Cert.KernelIdeal.KHost.prefix_main_v87 (W0 m ρ c)]
  exact Cert.KernelIdeal.KLay.reshape_row_apply _ ch

/-- Under the precondition the kernel program's result buffer ends at the reference's function of the launch arguments. -/
theorem kernel_result [Cert.Pre_finite_inputs.Facts]
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) :
    W9 m ρ c (Proc.devRef .tc main_v100)
      = out (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  obtain ⟨hx, hew, hw, hb, -, -⟩ := Cert.PreFinite.allReal_of_pre _ _ _ _ _ _ _ h
  exact result_eq m ρ c _ _ _ _ _ _ _ (stack0 m ρ c) (stack1 m ρ c) (stack2 m ρ c) (stack3 m ρ c) (wflat_eq m ρ c) (bias_eq m ρ c)
    (gamma_eq m ρ c) (beta_eq m ρ c) (Cert.ReferenceIdeal.RefValue.allReal_pre hx hew hw hb)

end

end Cert.KernelIdeal.KVal

namespace Cert.Proof

open Idealize.ShloMosaic Idealize.SL.Sem

/-- Over the extended reals, from memories agreeing on the arguments, both programs run and end with equal results. -/
theorem algebraic : Cert.algebraic_KernelIdeal_ReferenceIdeal := by
  intro m ρ m' ρ' hpre hagree
  refine ⟨fun c => Cert.KernelIdeal.KRun.W9 m ρ c (Proc.devRef .tc Cert.KernelIdeal.main_v100), Cert.KernelIdeal.KRun.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.KernelIdeal.KVal.kernel_result m ρ c (hpre c)).symm

end Cert.Proof

end
-- ==== Proof.lean ====
/-
  The five claims. The program is a Chebyshev graph convolution (four orders, propagation by gather and scatter-add over
  the edges, done by host operations), a dense combine o = sum_k T_k W_k + bias over 262144 rows and 128 columns, batch
  normalisation of o with the batch's own column means and variances, and a clamp at zero.
  * The three frames: each program runs to the end from any memory, faults nowhere and leaves its seven argument arrays
    unchanged. For the kernel program (read at either instance) this is its run as nine segments — host stretches and two
    pipelined regions — in which no segment writes an argument; for the reference it is its straight line of host operations.
  * The idealization rewrote no operation, so there is nothing to preserve.
  * Over the extended reals both programs end with the same result array: the kernel contracts the stacked 12 features in
    one sum where the reference adds four 3-term products, which is commutativity and associativity of +; the kernel's
    variance is E[o^2] - E[o]^2 where the reference's is E[(o - E o)^2], which agree because under the precondition every
    entry of o is a real number (the weights, features and degrees are finite sums and products of finite inputs, and the
    inverse square root is taken of a number that is at least 1e-12).
-/
import proofs.«158969_j2714419331078_1_alg».proof.Defs
import proofs.«158969_j2714419331078_1_alg».proof.Proof.KRun
import proofs.«158969_j2714419331078_1_alg».proof.Proof.BRun
import proofs.«158969_j2714419331078_1_alg».proof.Proof.RefRun
import proofs.«158969_j2714419331078_1_alg».proof.Proof.Algebraic
import proofs.«158969_j2714419331078_1_alg».proof.Proof.Gen.Pre_finite_inputs
import Idealize.ShloMosaic.Adequacy
import Idealize.ShloMosaic.Init

noncomputable section

namespace Cert.Proof

open Idealize.ShloMosaic Idealize.SL.Sem

/-- The word-level kernel program's frame: its run, the result's value dropped. -/
theorem frame_k : Cert.frame_Kernel := fun m ρ _ =>
  (θ_run Cert.Kernel.defs _ _).mono (fun _ h c => (h c).2) (Cert.Kernel.KRun.run (F := Bits) m ρ)

/-- The same program read over the extended reals. -/
theorem frame_ki : Cert.frame_KernelIdeal := fun m ρ _ =>
  (θ_run Cert.KernelIdeal.defs _ _).mono (fun _ h c => (h c).2) (Cert.KernelIdeal.KRun.run (F := Ideal) m ρ)

/-- The reference's frame: its run, the result's value dropped. -/
theorem frame_ri : Cert.frame_ReferenceIdeal := fun m ρ _ =>
  (θ_run Cert.ReferenceIdeal.defs _ _).mono (fun _ h c => (h c).2) (Cert.ReferenceIdeal.RefValue.run (F := Ideal) m ρ)

/-- No operation was rewritten. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
